-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S2x125 .f32
  ∧ IdealRules.sign_bit.Statement Cert.KernelIdeal.S9x125 .f32
  ∧ IdealRules.sign_bit.Statement Cert.KernelIdeal.S9x125 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x3 : Shape := ⟨3, ![16, 8192, 3]⟩
abbrev S125 : Shape := ⟨1, ![125]⟩
abbrev S125x3 : Shape := ⟨2, ![125, 3]⟩
abbrev S_ : Shape := ⟨0, ![]⟩

class Facts : Prop where
  bcast_S_S16x8192x3 : S_.BroadcastsInDim S16x8192x3 (![] : Fin 0 → Fin S16x8192x3.rank)
  reducesTo_S16x8192x3_S_d0_1_2 : S16x8192x3.ReducesTo [0, 1, 2] S_
  h_S_ : 0 < S_.numel
  bcast_S_S125 : S_.BroadcastsInDim S125 (![] : Fin 0 → Fin S125.rank)
  reducesTo_S125_S_d0 : S125.ReducesTo [0] S_
  bcast_S_S125x3 : S_.BroadcastsInDim S125x3 (![] : Fin 0 → Fin S125x3.rank)
  reducesTo_S125x3_S_d0_1 : S125x3.ReducesTo [0, 1] S_

variable [Facts]

def fn_part1 {F : FTy → Type} [FloatOps F] (main_arg1 : FVec F S125 .f32) (main_v13 : IVec S_ 1) (main_v16 : IVec S125x3 1) : IVec S_ 1 :=
  let main_c_5 : IVec S_ 1 := constantI S_ 1 1#1
  let main_v17 : IVec S_ 1 := (fun x v => Host.reduce IntOp.andi x v reducesTo_S125x3_S_d0_1 h_S_) main_v16 main_c_5
  let main_v18 : IVec S_ 1 := andi main_v13 main_v17
  let main_cst_6 : FVec F S_ .f32 := constant S_ .f32 0x00000000#32
  let main_v19 : FVec F S125 .f32 := broadcastInDim S125 ![] bcast_S_S125 main_cst_6
  let main_v20 : IVec S125 1 := cmpf .ogt main_arg1 main_v19
  let main_c_7 : IVec S_ 1 := constantI S_ 1 1#1
  let main_v21 : IVec S_ 1 := (fun x v => Host.reduce IntOp.andi x v reducesTo_S125_S_d0 h_S_) main_v20 main_c_7
  let main_v22 : IVec S_ 1 := andi main_v18 main_v21
  main_v22

def fn {F : FTy → Type} [FloatOps F] (main_arg0 : FVec F S16x8192x3 .f32) (main_arg1 : FVec F S125 .f32) (main_arg2 : FVec F S125x3 .f32) (main_arg3 : FVec F S125x3 .f32) : IVec S_ 1 :=
  let main_v0 : FVec F S16x8192x3 .f32 := Host.absf main_arg0
  let main_cst : FVec F S_ .f32 := constant S_ .f32 0x7F800000#32
  let main_v1 : FVec F S16x8192x3 .f32 := broadcastInDim S16x8192x3 ![] bcast_S_S16x8192x3 main_cst
  let main_v2 : IVec S16x8192x3 1 := cmpf .olt main_v0 main_v1
  let main_c : IVec S_ 1 := constantI S_ 1 1#1
  let main_v3 : IVec S_ 1 := (fun x v => Host.reduce IntOp.andi x v reducesTo_S16x8192x3_S_d0_1_2 h_S_) main_v2 main_c
  let main_v4 : FVec F S125 .f32 := Host.absf main_arg1
  let main_cst_0 : FVec F S_ .f32 := constant S_ .f32 0x7F800000#32
  let main_v5 : FVec F S125 .f32 := broadcastInDim S125 ![] bcast_S_S125 main_cst_0
  let main_v6 : IVec S125 1 := cmpf .olt main_v4 main_v5
  let main_c_1 : IVec S_ 1 := constantI S_ 1 1#1
  let main_v7 : IVec S_ 1 := (fun x v => Host.reduce IntOp.andi x v reducesTo_S125_S_d0 h_S_) main_v6 main_c_1
  let main_v8 : IVec S_ 1 := andi main_v3 main_v7
  let main_v9 : FVec F S125x3 .f32 := Host.absf main_arg2
  let main_cst_2 : FVec F S_ .f32 := constant S_ .f32 0x7F800000#32
  let main_v10 : FVec F S125x3 .f32 := broadcastInDim S125x3 ![] bcast_S_S125x3 main_cst_2
  let main_v11 : IVec S125x3 1 := cmpf .olt main_v9 main_v10
  let main_c_3 : IVec S_ 1 := constantI S_ 1 1#1
  let main_v12 : IVec S_ 1 := (fun x v => Host.reduce IntOp.andi x v reducesTo_S125x3_S_d0_1 h_S_) main_v11 main_c_3
  let main_v13 : IVec S_ 1 := andi main_v8 main_v12
  let main_v14 : FVec F S125x3 .f32 := Host.absf main_arg3
  let main_cst_4 : FVec F S_ .f32 := constant S_ .f32 0x7F800000#32
  let main_v15 : FVec F S125x3 .f32 := broadcastInDim S125x3 ![] bcast_S_S125x3 main_cst_4
  let main_v16 : IVec S125x3 1 := cmpf .olt main_v14 main_v15
  fn_part1 (F := F) main_arg1 main_v13 main_v16
-- ==== Kernel.lean ====
abbrev S16x8192x3 : Shape := ⟨3, ![16, 8192, 3]⟩
abbrev S125 : Shape := ⟨1, ![125]⟩
abbrev S125x3 : Shape := ⟨2, ![125, 3]⟩
abbrev S3x125 : Shape := ⟨2, ![3, 125]⟩
abbrev S_ : Shape := ⟨0, ![]⟩
abbrev S1x125 : Shape := ⟨2, ![1, 125]⟩
abbrev S16x20x125 : Shape := ⟨3, ![16, 20, 125]⟩
abbrev S1x1024x3 : Shape := ⟨3, ![1, 1024, 3]⟩
abbrev S1x20x125 : Shape := ⟨3, ![1, 20, 125]⟩
abbrev S2x125 : Shape := ⟨2, ![2, 125]⟩
abbrev S9x125 : Shape := ⟨2, ![9, 125]⟩
abbrev S1024x3 : Shape := ⟨2, ![1024, 3]⟩
abbrev S1024x1 : Shape := ⟨2, ![1024, 1]⟩
abbrev S1024x125 : Shape := ⟨2, ![1024, 125]⟩
abbrev S1024 : Shape := ⟨1, ![1024]⟩
abbrev S2 : Shape := ⟨1, ![2]⟩
abbrev S2x1 : Shape := ⟨2, ![2, 1]⟩
abbrev S1x2x125 : Shape := ⟨3, ![1, 2, 125]⟩
abbrev S9 : Shape := ⟨1, ![9]⟩
abbrev S9x1 : Shape := ⟨2, ![9, 1]⟩
abbrev S1x9x125 : Shape := ⟨3, ![1, 9, 125]⟩

abbrev nBuf : Space → Nat
  | .hbm => 35
  | .vmem => 13
  | .smem => 0
  | _ => 0

abbrev bufTy : (tb : Table) → Fin (tcTables nBuf tb) → BufTy
  | .hbm, ⟨0, _⟩ => ⟨S16x8192x3, .f32⟩
  | .hbm, ⟨1, _⟩ => ⟨S125, .f32⟩
  | .hbm, ⟨2, _⟩ => ⟨S125x3, .f32⟩
  | .hbm, ⟨3, _⟩ => ⟨S125x3, .f32⟩
  | .hbm, ⟨4, _⟩ => ⟨S3x125, .f32⟩
  | .hbm, ⟨5, _⟩ => ⟨S3x125, .f32⟩
  | .hbm, ⟨6, _⟩ => ⟨S125x3, .f32⟩
  | .hbm, ⟨7, _⟩ => ⟨S_, .f32⟩
  | .hbm, ⟨8, _⟩ => ⟨S125, .f32⟩
  | .hbm, ⟨9, _⟩ => ⟨S125, .f32⟩
  | .hbm, ⟨10, _⟩ => ⟨S_, .f32⟩
  | .hbm, ⟨11, _⟩ => ⟨S125, .f32⟩
  | .hbm, ⟨12, _⟩ => ⟨S125, .f32⟩
  | .hbm, ⟨13, _⟩ => ⟨S1x125, .f32⟩
  | .hbm, ⟨14, _⟩ => ⟨S1x125, .f32⟩
  | .hbm, ⟨15, _⟩ => ⟨S125, .f32⟩
  | .hbm, ⟨16, _⟩ => ⟨S_, .f32⟩
  | .hbm, ⟨17, _⟩ => ⟨S125, .f32⟩
  | .hbm, ⟨18, _⟩ => ⟨S125, .f32⟩
  | .hbm, ⟨19, _⟩ => ⟨S_, .f32⟩
  | .hbm, ⟨20, _⟩ => ⟨S125, .f32⟩
  | .hbm, ⟨21, _⟩ => ⟨S125, .f32⟩
  | .hbm, ⟨22, _⟩ => ⟨S1x125, .f32⟩
  | .hbm, ⟨23, _⟩ => ⟨S_, .f32⟩
  | .hbm, ⟨24, _⟩ => ⟨S125, .f32⟩
  | .hbm, ⟨25, _⟩ => ⟨S125, .f32⟩
  | .hbm, ⟨26, _⟩ => ⟨S125, .f32⟩
  | .hbm, ⟨27, _⟩ => ⟨S_, .f32⟩
  | .hbm, ⟨28, _⟩ => ⟨S125, .f32⟩
  | .hbm, ⟨29, _⟩ => ⟨S125, .f32⟩
  | .hbm, ⟨30, _⟩ => ⟨S_, .f32⟩
  | .hbm, ⟨31, _⟩ => ⟨S125, .f32⟩
  | .hbm, ⟨32, _⟩ => ⟨S125, .f32⟩
  | .hbm, ⟨33, _⟩ => ⟨S1x125, .f32⟩
  | .hbm, ⟨34, _⟩ => ⟨S16x20x125, .f32⟩
  | .local _ .vmem, ⟨0, _⟩ => ⟨S1x1024x3, .f32⟩
  | .local _ .vmem, ⟨1, _⟩ => ⟨S1x1024x3, .f32⟩
  | .local _ .vmem, ⟨2, _⟩ => ⟨S3x125, .f32⟩
  | .local _ .vmem, ⟨3, _⟩ => ⟨S3x125, .f32⟩
  | .local _ .vmem, ⟨4, _⟩ => ⟨S1x125, .f32⟩
  | .local _ .vmem, ⟨5, _⟩ => ⟨S1x125, .f32⟩
  | .local _ .vmem, ⟨6, _⟩ => ⟨S1x125, .f32⟩
  | .local _ .vmem, ⟨7, _⟩ => ⟨S1x125, .f32⟩
  | .local _ .vmem, ⟨8, _⟩ => ⟨S1x20x125, .f32⟩
  | .local _ .vmem, ⟨9, _⟩ => ⟨S1x20x125, .f32⟩
  | .local _ .vmem, ⟨10, _⟩ => ⟨S2x125, .f32⟩
  | .local _ .vmem, ⟨11, _⟩ => ⟨S9x125, .f32⟩
  | .local _ .vmem, ⟨12, _⟩ => ⟨S9x125, .f32⟩
  | _, _ => ⟨S16x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [BitOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v230 : BitVec 1 := Scalar.cmpi .eq arg1 c7_i32
  let v231 : BitVec 32 := Scalar.extui v230
  let c0_i32_119 : BitVec 32 := 0#32
  let v232 : BitVec 1 := Scalar.cmpi .ne v231 c0_i32_119
  v232

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x125 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x125 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x125 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x125 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x125 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x125 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x20x125 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S125x3_S3x125_1_0 : S125x3.Transposes [1, 0] S3x125
  reducesTo_S125x3_S125_d1 : S125x3.ReducesTo [1] S125
  h_S_ : 0 < S_.numel
  bcast_S_S125 : S_.BroadcastsInDim S125 (![] : Fin 0 → Fin S125.rank)
  shapeCasts_S125_S1x125 : S125.ShapeCasts S1x125
  inb_S2x125_S1x125_0_0 : ∀ a, (![0, 0] : Fin 2 → Nat) a + S1x125.size a ≤ S2x125.size a
  h_S1x125 : 0 < S1x125.numel
  shapeCasts_S1x125_S1x125 : S1x125.ShapeCasts S1x125
  inb_S2x125_S1x125_1_0 : ∀ a, (![1, 0] : Fin 2 → Nat) a + S1x125.size a ≤ S2x125.size a
  inb_S9x125_S3x125_0_0 : ∀ a, (![0, 0] : Fin 2 → Nat) a + S3x125.size a ≤ S9x125.size a
  h_S3x125 : 0 < S3x125.numel
  shapeCasts_S3x125_S3x125 : S3x125.ShapeCasts S3x125
  inb_S9x125_S3x125_3_0 : ∀ a, (![3, 0] : Fin 2 → Nat) a + S3x125.size a ≤ S9x125.size a
  inb_S9x125_S3x125_6_0 : ∀ a, (![6, 0] : Fin 2 → Nat) a + S3x125.size a ≤ S9x125.size a
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x125_S1x125_0_0 : ∀ a, (![0, 0] : Fin 2 → Nat) a + S1x125.size a ≤ S1x125.size a
  slices_S1024x3_o0_0_S1024x1 : S1024x3.Slices ![0, 0] S1024x1
  inb_S3x125_S1x125_0_0 : ∀ a, (![0, 0] : Fin 2 → Nat) a + S1x125.size a ≤ S3x125.size a
  broadcasts_S1024x1_S1024x125 : S1024x1.Broadcasts S1024x125
  broadcasts_S1x125_S1024x125 : S1x125.Broadcasts S1024x125
  slices_S1024x3_o0_1_S1024x1 : S1024x3.Slices ![0, 1] S1024x1
  inb_S3x125_S1x125_1_0 : ∀ a, (![1, 0] : Fin 2 → Nat) a + S1x125.size a ≤ S3x125.size a
  slices_S1024x3_o0_2_S1024x1 : S1024x3.Slices ![0, 2] S1024x1
  inb_S3x125_S1x125_2_0 : ∀ a, (![2, 0] : Fin 2 → Nat) a + S1x125.size a ≤ S3x125.size a
  reduces_S1024x125_S1024 : S1024x125.Reduces [1] S1024
  shapeCasts_S1024_S1024x1 : S1024.ShapeCasts S1024x1
  reduces_S1024x125_S125 : S1024x125.Reduces [0] S125
  inb_S9x125_S1x125_0_0 : ∀ a, (![0, 0] : Fin 2 → Nat) a + S1x125.size a ≤ S9x125.size a
  inb_S9x125_S1x125_3_0 : ∀ a, (![3, 0] : Fin 2 → Nat) a + S1x125.size a ≤ S9x125.size a
  inb_S9x125_S1x125_6_0 : ∀ a, (![6, 0] : Fin 2 → Nat) a + S1x125.size a ≤ S9x125.size a
  inb_S9x125_S1x125_1_0 : ∀ a, (![1, 0] : Fin 2 → Nat) a + S1x125.size a ≤ S9x125.size a
  inb_S9x125_S1x125_4_0 : ∀ a, (![4, 0] : Fin 2 → Nat) a + S1x125.size a ≤ S9x125.size a
  inb_S9x125_S1x125_7_0 : ∀ a, (![7, 0] : Fin 2 → Nat) a + S1x125.size a ≤ S9x125.size a
  inb_S9x125_S1x125_2_0 : ∀ a, (![2, 0] : Fin 2 → Nat) a + S1x125.size a ≤ S9x125.size a
  inb_S9x125_S1x125_5_0 : ∀ a, (![5, 0] : Fin 2 → Nat) a + S1x125.size a ≤ S9x125.size a
  inb_S9x125_S1x125_8_0 : ∀ a, (![8, 0] : Fin 2 → Nat) a + S1x125.size a ≤ S9x125.size a
  inb_S2x125_S2x125_0_0 : ∀ a, (![0, 0] : Fin 2 → Nat) a + S2x125.size a ≤ S2x125.size a
  h_S2x125 : 0 < S2x125.numel
  reduces_S2x125_S2 : S2x125.Reduces [1] S2
  shapeCasts_S2_S2x1 : S2.ShapeCasts S2x1
  broadcasts_S2x1_S2x125 : S2x1.Broadcasts S2x125
  inb_S1x20x125_S1x2x125_0_0_0 : ∀ a, (![0, 0, 0] : Fin 3 → Nat) a + S1x2x125.size a ≤ S1x20x125.size a
  h_S1x2x125 : 0 < S1x2x125.numel
  shapeCasts_S1x2x125_S2x125 : S1x2x125.ShapeCasts S2x125
  shapeCasts_S2x125_S1x2x125 : S2x125.ShapeCasts S1x2x125
  inb_S9x125_S9x125_0_0 : ∀ a, (![0, 0] : Fin 2 → Nat) a + S9x125.size a ≤ S9x125.size a
  h_S9x125 : 0 < S9x125.numel
  reduces_S9x125_S9 : S9x125.Reduces [1] S9
  shapeCasts_S9_S9x1 : S9.ShapeCasts S9x1
  broadcasts_S9x1_S9x125 : S9x1.Broadcasts S9x125
  inb_S1x20x125_S1x9x125_0_2_0 : ∀ a, (![0, 2, 0] : Fin 3 → Nat) a + S1x9x125.size a ≤ S1x20x125.size a
  h_S1x9x125 : 0 < S1x9x125.numel
  shapeCasts_S1x9x125_S9x125 : S1x9x125.ShapeCasts S9x125
  shapeCasts_S9x125_S1x9x125 : S9x125.ShapeCasts S1x9x125
  inb_S1x20x125_S1x9x125_0_11_0 : ∀ a, (![0, 11, 0] : Fin 3 → Nat) a + S1x9x125.size a ≤ S1x20x125.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x8192x3.size a
  hwx0_0 : ∀ i : grid0.Coords, EltTy.bits .f32 = 32 ∨ (Rect.block (s := S16x8192x3) S1x1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x125.size a ≤ S3x125.size a
  hwx0_1 : ∀ i : grid0.Coords, EltTy.bits .f32 = 32 ∨ (Rect.block (s := S3x125) S3x125.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x125.size a ≤ S3x125.size a
  hwx0_2 : ∀ i : grid0.Coords, EltTy.bits .f32 = 32 ∨ (Rect.block (s := S3x125) S3x125.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x125.size a ≤ S1x125.size a
  hwx0_3 : ∀ i : grid0.Coords, EltTy.bits .f32 = 32 ∨ (Rect.block (s := S1x125) S1x125.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x125.size a ≤ S1x125.size a
  hwx0_4 : ∀ i : grid0.Coords, EltTy.bits .f32 = 32 ∨ (Rect.block (s := S1x125) S1x125.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x125.size a ≤ S1x125.size a
  hwx0_5 : ∀ i : grid0.Coords, EltTy.bits .f32 = 32 ∨ (Rect.block (s := S1x125) S1x125.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x125.size a ≤ S1x125.size a
  hwx0_6 : ∀ i : grid0.Coords, EltTy.bits .f32 = 32 ∨ (Rect.block (s := S1x125) S1x125.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x20x125.size a ≤ S16x20x125.size a
  hwx0_7 : ∀ i : grid0.Coords, EltTy.bits .f32 = 32 ∨ (Rect.block (s := S16x20x125) S1x20x125.size (cc0_transform_7 i) (hinb0_7 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x125.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x125.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x125.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x125.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x125.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x125.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x20x125.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16x8192x3 : Shape := ⟨3, ![16, 8192, 3]⟩
abbrev S125 : Shape := ⟨1, ![125]⟩
abbrev S125x3 : Shape := ⟨2, ![125, 3]⟩
abbrev S16x8192x1x3 : Shape := ⟨4, ![16, 8192, 1, 3]⟩
abbrev S1x1x125x3 : Shape := ⟨4, ![1, 1, 125, 3]⟩
abbrev S16x8192x125x3 : Shape := ⟨4, ![16, 8192, 125, 3]⟩
abbrev S_ : Shape := ⟨0, ![]⟩
abbrev S16x8192x125 : Shape := ⟨3, ![16, 8192, 125]⟩
abbrev S1x1x125 : Shape := ⟨3, ![1, 1, 125]⟩
abbrev S16x8192 : Shape := ⟨2, ![16, 8192]⟩
abbrev S16x8192x1 : Shape := ⟨3, ![16, 8192, 1]⟩
abbrev S16x8192x125x1 : Shape := ⟨4, ![16, 8192, 125, 1]⟩
abbrev S16x125x1 : Shape := ⟨3, ![16, 125, 1]⟩
abbrev S16x125x2 : Shape := ⟨3, ![16, 125, 2]⟩
abbrev S1x125x1 : Shape := ⟨3, ![1, 125, 1]⟩
abbrev S16x125x3 : Shape := ⟨3, ![16, 125, 3]⟩
abbrev S16x125x9 : Shape := ⟨3, ![16, 125, 9]⟩
abbrev S16x2 : Shape := ⟨2, ![16, 2]⟩
abbrev S16x1x2 : Shape := ⟨3, ![16, 1, 2]⟩
abbrev S16x9 : Shape := ⟨2, ![16, 9]⟩
abbrev S16x1x9 : Shape := ⟨3, ![16, 1, 9]⟩
abbrev S16x125x20 : Shape := ⟨3, ![16, 125, 20]⟩
abbrev S16x20x125 : Shape := ⟨3, ![16, 20, 125]⟩

abbrev nBuf : Space → Nat
  | .hbm => 152
  | .vmem => 0
  | .smem => 0
  | _ => 0

abbrev hbmTy0_0 (i : Nat) : BufTy := match i % 128 with
  | 0 => ⟨S16x8192x3, .f32⟩
  | 1 => ⟨S125, .f32⟩
  | 2 => ⟨S125x3, .f32⟩
  | 3 => ⟨S125x3, .f32⟩
  | 4 => ⟨S16x8192x1x3, .f32⟩
  | 5 => ⟨S1x1x125x3, .f32⟩
  | 6 => ⟨S16x8192x125x3, .f32⟩
  | 7 => ⟨S16x8192x125x3, .f32⟩
  | 8 => ⟨S16x8192x125x3, .f32⟩
  | 9 => ⟨S1x1x125x3, .f32⟩
  | 10 => ⟨S16x8192x125x3, .f32⟩
  | 11 => ⟨S16x8192x125x3, .f32⟩
  | 12 => ⟨S16x8192x125x3, .f32⟩
  | 13 => ⟨S_, .f32⟩
  | 14 => ⟨S16x8192x125, .f32⟩
  | 15 => ⟨S_, .f32⟩
  | 16 => ⟨S16x8192x125, .f32⟩
  | 17 => ⟨S16x8192x125, .f32⟩
  | 18 => ⟨S125x3, .f32⟩
  | 19 => ⟨S_, .f32⟩
  | 20 => ⟨S125, .f32⟩
  | 21 => ⟨S1x1x125, .f32⟩
  | 22 => ⟨S16x8192x125, .f32⟩
  | 23 => ⟨S16x8192x125, .f32⟩
  | 24 => ⟨S_, .f32⟩
  | 25 => ⟨S_, .f32⟩
  | 26 => ⟨S_, .f32⟩
  | 27 => ⟨S_, .f32⟩
  | 28 => ⟨S16x8192x125, .f32⟩
  | 29 => ⟨S16x8192x125, .f32⟩
  | 30 => ⟨S16x8192x125, .f32⟩
  | 31 => ⟨S1x1x125, .f32⟩
  | 32 => ⟨S16x8192x125, .f32⟩
  | 33 => ⟨S16x8192x125, .f32⟩
  | 34 => ⟨S_, .f32⟩
  | 35 => ⟨S16x8192, .f32⟩
  | 36 => ⟨S16x8192x1, .f32⟩
  | 37 => ⟨S16x8192x125, .f32⟩
  | 38 => ⟨S16x8192x125, .f32⟩
  | 39 => ⟨S1x1x125, .f32⟩
  | 40 => ⟨S16x8192x125, .f32⟩
  | 41 => ⟨S16x8192x125, .f32⟩
  | 42 => ⟨S125, .f32⟩
  | 43 => ⟨S1x1x125, .f32⟩
  | 44 => ⟨S_, .f32⟩
  | 45 => ⟨S1x1x125, .f32⟩
  | 46 => ⟨S1x1x125, .f32⟩
  | 47 => ⟨S16x8192x125, .f32⟩
  | 48 => ⟨S16x8192x125, .f32⟩
  | 49 => ⟨S16x8192x125x1, .f32⟩
  | 50 => ⟨S_, .f32⟩
  | 51 => ⟨S16x125x1, .f32⟩
  | 52 => ⟨S_, .f32⟩
  | 53 => ⟨S16x125x1, .f32⟩
  | 54 => ⟨S16x125x2, .f32⟩
  | 55 => ⟨S16x8192x125x1, .f32⟩
  | 56 => ⟨S16x8192x125x3, .f32⟩
  | 57 => ⟨S16x8192x125x3, .f32⟩
  | 58 => ⟨S125, .f32⟩
  | 59 => ⟨S_, .f32⟩
  | 60 => ⟨S125, .f32⟩
  | 61 => ⟨S125, .f32⟩
  | 62 => ⟨S1x125x1, .f32⟩
  | 63 => ⟨S_, .f32⟩
  | 64 => ⟨S1x125x1, .f32⟩
  | 65 => ⟨S1x125x1, .f32⟩
  | 66 => ⟨S_, .f32⟩
  | 67 => ⟨S16x125x3, .f32⟩
  | 68 => ⟨S_, .f32⟩
  | 69 => ⟨S16x125x3, .f32⟩
  | 70 => ⟨S_, .f32⟩
  | 71 => ⟨S16x125x3, .f32⟩
  | 72 => ⟨S16x125x9, .f32⟩
  | 73 => ⟨S16x125x9, .f32⟩
  | 74 => ⟨S16x125x9, .f32⟩
  | 75 => ⟨S16x8192x125x1, .f32⟩
  | 76 => ⟨S16x8192x125x3, .f32⟩
  | 77 => ⟨S_, .f32⟩
  | 78 => ⟨S16x8192x125x3, .f32⟩
  | 79 => ⟨S16x8192x125x3, .f32⟩
  | 80 => ⟨S16x8192x125x3, .f32⟩
  | 81 => ⟨S16x8192x125x3, .f32⟩
  | 82 => ⟨S_, .f32⟩
  | 83 => ⟨S125, .f32⟩
  | 84 => ⟨S125, .f32⟩
  | 85 => ⟨S125, .f32⟩
  | 86 => ⟨S_, .f32⟩
  | 87 => ⟨S125, .f32⟩
  | 88 => ⟨S125, .f32⟩
  | 89 => ⟨S1x125x1, .f32⟩
  | 90 => ⟨S_, .f32⟩
  | 91 => ⟨S1x125x1, .f32⟩
  | 92 => ⟨S1x125x1, .f32⟩
  | 93 => ⟨S_, .f32⟩
  | 94 => ⟨S16x125x3, .f32⟩
  | 95 => ⟨S_, .f32⟩
  | 96 => ⟨S16x125x3, .f32⟩
  | 97 => ⟨S_, .f32⟩
  | 98 => ⟨S16x125x3, .f32⟩
  | 99 => ⟨S16x125x9, .f32⟩
  | 100 => ⟨S16x125x9, .f32⟩
  | 101 => ⟨S16x125x9, .f32⟩
  | 102 => ⟨S16x125x2, .f32⟩
  | 103 => ⟨S16x125x2, .f32⟩
  | 104 => ⟨S_, .f32⟩
  | 105 => ⟨S16x125x2, .f32⟩
  | 106 => ⟨S16x125x2, .f32⟩
  | 107 => ⟨S16x125x2, .f32⟩
  | 108 => ⟨S16x125x2, .f32⟩
  | 109 => ⟨S_, .f32⟩
  | 110 => ⟨S16x2, .f32⟩
  | 111 => ⟨S16x1x2, .f32⟩
  | 112 => ⟨S_, .f32⟩
  | 113 => ⟨S16x1x2, .f32⟩
  | 114 => ⟨S16x1x2, .f32⟩
  | 115 => ⟨S16x1x2, .f32⟩
  | 116 => ⟨S16x125x2, .f32⟩
  | 117 => ⟨S16x125x2, .f32⟩
  | 118 => ⟨S16x125x9, .f32⟩
  | 119 => ⟨S16x125x9, .f32⟩
  | 120 => ⟨S_, .f32⟩
  | 121 => ⟨S16x125x9, .f32⟩
  | 122 => ⟨S16x125x9, .f32⟩
  | 123 => ⟨S16x125x9, .f32⟩
  | 124 => ⟨S16x125x9, .f32⟩
  | 125 => ⟨S_, .f32⟩
  | 126 => ⟨S16x9, .f32⟩
  | 127 => ⟨S16x1x9, .f32⟩
  | _ => ⟨S16x8192x3, .f32⟩

abbrev hbmTy0_1 (i : Nat) : BufTy := match i % 128 with
  | 0 => ⟨S_, .f32⟩
  | 1 => ⟨S16x1x9, .f32⟩
  | 2 => ⟨S16x1x9, .f32⟩
  | 3 => ⟨S16x1x9, .f32⟩
  | 4 => ⟨S16x125x9, .f32⟩
  | 5 => ⟨S16x125x9, .f32⟩
  | 6 => ⟨S16x125x9, .f32⟩
  | 7 => ⟨S16x125x9, .f32⟩
  | 8 => ⟨S_, .f32⟩
  | 9 => ⟨S16x125x9, .f32⟩
  | 10 => ⟨S16x125x9, .f32⟩
  | 11 => ⟨S16x125x9, .f32⟩
  | 12 => ⟨S16x125x9, .f32⟩
  | 13 => ⟨S_, .f32⟩
  | 14 => ⟨S16x9, .f32⟩
  | 15 => ⟨S16x1x9, .f32⟩
  | 16 => ⟨S_, .f32⟩
  | 17 => ⟨S16x1x9, .f32⟩
  | 18 => ⟨S16x1x9, .f32⟩
  | 19 => ⟨S16x1x9, .f32⟩
  | 20 => ⟨S16x125x9, .f32⟩
  | 21 => ⟨S16x125x9, .f32⟩
  | 22 => ⟨S16x125x20, .f32⟩
  | 23 => ⟨S16x20x125, .f32⟩
  | _ => ⟨S16x8192x3, .f32⟩

abbrev hbmTy (i : Nat) : BufTy := match i / 128 with
  | 0 => hbmTy0_0 i
  | 1 => hbmTy0_1 i
  | _ => ⟨S16x8192x3, .f32⟩

abbrev bufTy : (tb : Table) → Fin (tcTables nBuf tb) → BufTy
  | .hbm, ⟨i, _⟩ => hbmTy i
  | _, _ => ⟨S16x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_14 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_15 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_16 : Ref sig .tc := ⟨.hbm, 90, rfl⟩
abbrev main_v69 : Ref sig .tc := ⟨.hbm, 91, rfl⟩
abbrev main_v70 : Ref sig .tc := ⟨.hbm, 92, rfl⟩
abbrev main_cst_17 : Ref sig .tc := ⟨.hbm, 93, rfl⟩
abbrev main_v71 : Ref sig .tc := ⟨.hbm, 94, rfl⟩
abbrev main_cst_18 : Ref sig .tc := ⟨.hbm, 95, rfl⟩
abbrev main_v72 : Ref sig .tc := ⟨.hbm, 96, rfl⟩
abbrev main_cst_19 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_20 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_21 : Ref sig .tc := ⟨.hbm, 109, rfl⟩
abbrev main_v83 : Ref sig .tc := ⟨.hbm, 110, rfl⟩
abbrev main_v84 : Ref sig .tc := ⟨.hbm, 111, rfl⟩
abbrev main_cst_22 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_23 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_24 : Ref sig .tc := ⟨.hbm, 125, rfl⟩
abbrev main_v96 : Ref sig .tc := ⟨.hbm, 126, rfl⟩
abbrev main_v97 : Ref sig .tc := ⟨.hbm, 127, rfl⟩
abbrev main_cst_25 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_26 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_27 : Ref sig .tc := ⟨.hbm, 141, rfl⟩
abbrev main_v109 : Ref sig .tc := ⟨.hbm, 142, rfl⟩
abbrev main_v110 : Ref sig .tc := ⟨.hbm, 143, rfl⟩
abbrev main_cst_28 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩

abbrev nD : Nat := 1
abbrev τ : Topo := Topo.v7x

variable {F : FTy → Type} [FloatOps F]

class Facts₀ : Prop where
  bcast_S16x8192x3_S16x8192x1x3_0_1_3 : S16x8192x3.BroadcastsInDim S16x8192x1x3 (![0, 1, 3] : Fin 3 → Fin S16x8192x1x3.rank)
  bcast_S125x3_S1x1x125x3_2_3 : S125x3.BroadcastsInDim S1x1x125x3 (![2, 3] : Fin 2 → Fin S1x1x125x3.rank)
  bcast_S16x8192x1x3_S16x8192x125x3_0_1_2_3 : S16x8192x1x3.BroadcastsInDim S16x8192x125x3 (![0, 1, 2, 3] : Fin 4 → Fin S16x8192x125x3.rank)
  bcast_S1x1x125x3_S16x8192x125x3_0_1_2_3 : S1x1x125x3.BroadcastsInDim S16x8192x125x3 (![0, 1, 2, 3] : Fin 4 → Fin S16x8192x125x3.rank)
  reducesTo_S16x8192x125x3_S16x8192x125_d3 : S16x8192x125x3.ReducesTo [3] S16x8192x125
  h_S_ : 0 < S_.numel
  bcast_S_S16x8192x125 : S_.BroadcastsInDim S16x8192x125 (![] : Fin 0 → Fin S16x8192x125.rank)
  reducesTo_S125x3_S125_d1 : S125x3.ReducesTo [1] S125
  bcast_S125_S1x1x125_2 : S125.BroadcastsInDim S1x1x125 (![2] : Fin 1 → Fin S1x1x125.rank)
  bcast_S1x1x125_S16x8192x125_0_1_2 : S1x1x125.BroadcastsInDim S16x8192x125 (![0, 1, 2] : Fin 3 → Fin S16x8192x125.rank)
  reducesTo_S16x8192x125_S16x8192_d2 : S16x8192x125.ReducesTo [2] S16x8192
  bcast_S16x8192_S16x8192x1_0_1 : S16x8192.BroadcastsInDim S16x8192x1 (![0, 1] : Fin 2 → Fin S16x8192x1.rank)
  bcast_S16x8192x1_S16x8192x125_0_1_2 : S16x8192x1.BroadcastsInDim S16x8192x125 (![0, 1, 2] : Fin 3 → Fin S16x8192x125.rank)
  bcast_S_S1x1x125 : S_.BroadcastsInDim S1x1x125 (![] : Fin 0 → Fin S1x1x125.rank)
  bcast_S16x8192x125_S16x8192x125x1_0_1_2 : S16x8192x125.BroadcastsInDim S16x8192x125x1 (![0, 1, 2] : Fin 3 → Fin S16x8192x125x1.rank)
  reducesTo_S16x8192x125x1_S16x125x1_d1 : S16x8192x125x1.ReducesTo [1] S16x125x1
  concatenates_S16x125x1_S16x125x1_S16x125x2_d2 : Shape.Concatenates [S16x125x1, S16x125x1] S16x125x2 2
  bcast_S16x8192x125x1_S16x8192x125x3_0_1_2_3 : S16x8192x125x1.BroadcastsInDim S16x8192x125x3 (![0, 1, 2, 3] : Fin 4 → Fin S16x8192x125x3.rank)
  bcast_S_S125 : S_.BroadcastsInDim S125 (![] : Fin 0 → Fin S125.rank)
  bcast_S125_S1x125x1_1 : S125.BroadcastsInDim S1x125x1 (![1] : Fin 1 → Fin S1x125x1.rank)
  bcast_S_S1x125x1 : S_.BroadcastsInDim S1x125x1 (![] : Fin 0 → Fin S1x125x1.rank)
  reducesTo_S16x8192x125x3_S16x125x3_d1 : S16x8192x125x3.ReducesTo [1] S16x125x3
  concatenates_S16x125x3_S16x125x3_S16x125x3_S16x125x9_d2 : Shape.Concatenates [S16x125x3, S16x125x3, S16x125x3] S16x125x9 2
  bcast_S1x125x1_S16x125x9_0_1_2 : S1x125x1.BroadcastsInDim S16x125x9 (![0, 1, 2] : Fin 3 → Fin S16x125x9.rank)
  bcast_S_S16x8192x125x3 : S_.BroadcastsInDim S16x8192x125x3 (![] : Fin 0 → Fin S16x8192x125x3.rank)
  bcast_S_S16x125x2 : S_.BroadcastsInDim S16x125x2 (![] : Fin 0 → Fin S16x125x2.rank)
  reducesTo_S16x125x2_S16x2_d1 : S16x125x2.ReducesTo [1] S16x2
  bcast_S16x2_S16x1x2_0_2 : S16x2.BroadcastsInDim S16x1x2 (![0, 2] : Fin 2 → Fin S16x1x2.rank)
  bcast_S_S16x1x2 : S_.BroadcastsInDim S16x1x2 (![] : Fin 0 → Fin S16x1x2.rank)
  bcast_S16x1x2_S16x125x2_0_1_2 : S16x1x2.BroadcastsInDim S16x125x2 (![0, 1, 2] : Fin 3 → Fin S16x125x2.rank)
  bcast_S_S16x125x9 : S_.BroadcastsInDim S16x125x9 (![] : Fin 0 → Fin S16x125x9.rank)
  reducesTo_S16x125x9_S16x9_d1 : S16x125x9.ReducesTo [1] S16x9
  bcast_S16x9_S16x1x9_0_2 : S16x9.BroadcastsInDim S16x1x9 (![0, 2] : Fin 2 → Fin S16x1x9.rank)
  bcast_S_S16x1x9 : S_.BroadcastsInDim S16x1x9 (![] : Fin 0 → Fin S16x1x9.rank)
  bcast_S16x1x9_S16x125x9_0_1_2 : S16x1x9.BroadcastsInDim S16x125x9 (![0, 1, 2] : Fin 3 → Fin S16x125x9.rank)
  concatenates_S16x125x2_S16x125x9_S16x125x9_S16x125x20_d2 : Shape.Concatenates [S16x125x2, S16x125x9, S16x125x9] S16x125x20 2
  transposes_S16x125x20_S16x20x125_0_2_1 : S16x125x20.Transposes [0, 2, 1] S16x20x125

variable [Facts₀]

class Facts : Prop extends Facts₀ where

variable [Facts]
-- ==== Proof.Spec.lean ====
/-
  The Fisher-vector statistics of a point cloud under a diagonal Gaussian mixture, as ONE function of the four
  argument arrays, on the extended reals.

  For a batch `b`, a point `n`, a component `g` and a coordinate `d`:
    dev   = (P b n d − M g d) / Sg g d                               the standardised deviation
    sq    = Σ_d dev²,   lsig g = Σ_d log (Sg g d)
    logp0 = (−1/2)·sq + (−lsig g)                                   the log-density up to an additive constant
    resp  = exp logp0 · W g / Σ_g' exp logp0 · W g'                 the posterior weight of `g` at the point
  An additive constant in the log-density multiplies every `exp logp0` by one positive real, which the quotient
  forgets; that is why `resp` is stated with no constant at all.

  Over the 8192 points of a batch three statistics are taken per component: a maximum, a minimum and a sum
  (`agg`); for the mixing weights only a maximum and a sum (`aggPi`). Each is scaled by `1/(N·√w)` (or
  `1/(N·√(2w))`). The scale can be applied to every point's term before the statistic is taken (`…K`) or to the
  statistic afterwards (`…R`); for a positive real scale the two agree, since such a factor is monotone and
  distributes over any sum of extended reals.

  Each of the 20 rows of a batch is then power-normalised (sign·√|·|) and scaled to unit length over the 125
  components (`normRow`).
-/
import Idealize.ShloMosaic.PureOps.Ideal
import Idealize.ShloMosaic.Lib.ValueIdx

noncomputable section

namespace Cert.Fisher

open Idealize.ShloMosaic Idealize.ShloMosaic.ValueIdx

/-! ## The literals both programs carry -/

abbrev cZero : EReal := Ideal.ofBits .f32 0x00000000#32
abbrev cOne : EReal := Ideal.ofBits .f32 0x3F800000#32
abbrev cTwo : EReal := Ideal.ofBits .f32 0x40000000#32
abbrev cHalf : EReal := Ideal.ofBits .f32 0x3F000000#32
abbrev cNegHalf : EReal := Ideal.ofBits .f32 0xBF000000#32
abbrev cN : EReal := Ideal.ofBits .f32 0x46000000#32
abbrev cEps : EReal := Ideal.ofBits .f32 0x2B8CBCCC#32

/-! ## The arrays -/

abbrev Pts := (⟨3, ![16, 8192, 3]⟩ : Shape).Idx → EReal
abbrev Wts := (⟨1, ![125]⟩ : Shape).Idx → EReal
abbrev Cmp := (⟨2, ![125, 3]⟩ : Shape).Idx → EReal
abbrev Out := (⟨3, ![16, 20, 125]⟩ : Shape).Idx → EReal

variable (P : Pts) (W : Wts) (M Sg : Cmp)

/-- The standardised deviation of point `(b, n)` from component `g` along coordinate `d`. -/
def dev (b : Fin 16) (n : Fin 8192) (g : Fin 125) (d : Fin 3) : EReal :=
  Ideal.div (P (ix3 b n d) - M (ix2 g d)) (Sg (ix2 g d))

/-- The squared standardised distance. -/
def sq (b : Fin 16) (n : Fin 8192) (g : Fin 125) : EReal := ∑ d : Fin 3, dev P M Sg b n g d * dev P M Sg b n g d

/-- The sum of the logarithms of a component's three standard deviations. -/
def lsig (g : Fin 125) : EReal := ∑ d : Fin 3, Ideal.log (Sg (ix2 g d))

/-- The log-density of a component at a point, up to an additive constant. -/
def logp0 (b : Fin 16) (n : Fin 8192) (g : Fin 125) : EReal := cNegHalf * sq P M Sg b n g + -(lsig Sg g)

/-- The posterior weight of component `g` at point `(b, n)`. -/
def resp (b : Fin 16) (n : Fin 8192) (g : Fin 125) : EReal :=
  Ideal.div (Ideal.exp (logp0 P M Sg b n g) * W (ix1 g)) (∑ g' : Fin 125, Ideal.exp (logp0 P M Sg b n g') * W (ix1 g'))

/-- The scale of the mean statistics: `1/(N·√w)`. -/
def scMu (g : Fin 125) : EReal := Ideal.div cOne (cN * Ideal.sqrt (W (ix1 g)))

/-- The scale of the deviation statistics: `1/(N·√(2w))`. -/
def scSg (g : Fin 125) : EReal := Ideal.div cOne (cN * Ideal.sqrt (cTwo * W (ix1 g)))

/-- Maximum, minimum or sum over the points. -/
def agg (stat : Fin 3) (f : Fin 8192 → EReal) : EReal :=
  match stat with
  | 0 => Finset.univ.sup f
  | 1 => Finset.univ.inf f
  | 2 => ∑ n, f n

/-- Maximum or sum over the points. -/
def aggPi (stat : Fin 2) (f : Fin 8192 → EReal) : EReal :=
  match stat with
  | 0 => Finset.univ.sup f
  | 1 => ∑ n, f n

/-- The statistic and the coordinate that row `r` of a nine-row block holds: rows 0–2 the maxima, 3–5 the minima, 6–8 the sums. -/
abbrev statOf (r : Fin 9) : Fin 3 := ⟨r.val / 3, by omega⟩
abbrev coordOf (r : Fin 9) : Fin 3 := ⟨r.val % 3, by omega⟩

/-! ## The raw statistics, the scale applied after the statistic is taken -/

def rawPiR (b : Fin 16) (r : Fin 2) (g : Fin 125) : EReal :=
  aggPi r fun n => Ideal.div (resp P W M Sg b n g - W (ix1 g)) (Ideal.sqrt (W (ix1 g)) * cN)

def rawMuR (b : Fin 16) (r : Fin 9) (g : Fin 125) : EReal :=
  scMu W g * agg (statOf r) fun n => resp P W M Sg b n g * dev P M Sg b n g (coordOf r)

def rawSgR (b : Fin 16) (r : Fin 9) (g : Fin 125) : EReal :=
  scSg W g * agg (statOf r) fun n =>
    resp P W M Sg b n g * (dev P M Sg b n g (coordOf r) * dev P M Sg b n g (coordOf r) - cOne)

/-! ## The raw statistics, the scale applied to every point's term -/

def rawPiK (b : Fin 16) (r : Fin 2) (g : Fin 125) : EReal :=
  aggPi r fun n => (resp P W M Sg b n g - W (ix1 g)) * scMu W g

def rawMuK (b : Fin 16) (r : Fin 9) (g : Fin 125) : EReal :=
  agg (statOf r) fun n => resp P W M Sg b n g * dev P M Sg b n g (coordOf r) * scMu W g

def rawSgK (b : Fin 16) (r : Fin 9) (g : Fin 125) : EReal :=
  agg (statOf r) fun n =>
    resp P W M Sg b n g * (dev P M Sg b n g (coordOf r) * dev P M Sg b n g (coordOf r) - cOne) * scSg W g

/-! ## Power normalisation and unit length over the components -/

/-- sign·|·|^(1/2) of one entry. -/
def pw (x : EReal) : EReal := Ideal.sign x * Ideal.pow (max x (-x)) cHalf

/-- A row of 125 entries, power-normalised and scaled to unit length (the squared length floored at the small literal). -/
def normRow (v : Fin 125 → EReal) (g : Fin 125) : EReal :=
  pw (v g) * Ideal.rsqrt (max (∑ g' : Fin 125, pw (v g') * pw (v g')) cEps)

/-- The 20 rows of a batch: two for the mixing weights, nine for the means, nine for the deviations. -/
def rows (pi : Fin 2 → Fin 125 → EReal) (mu sg : Fin 9 → Fin 125 → EReal) (j : Fin 20) (g : Fin 125) : EReal :=
  if h : j.val < 2 then normRow (pi ⟨j.val, h⟩) g
  else if h' : j.val < 11 then normRow (mu ⟨j.val - 2, by omega⟩) g
  else normRow (sg ⟨j.val - 11, by omega⟩) g

/-- The result, the scales applied after the statistics. -/
def outR : Out := fun i =>
  rows (rawPiR P W M Sg (i 0)) (rawMuR P W M Sg (i 0)) (rawSgR P W M Sg (i 0)) (i 1) (i 2)

/-- The result, the scales applied point by point. -/
def outK : Out := fun i =>
  rows (rawPiK P W M Sg (i 0)) (rawMuK P W M Sg (i 0)) (rawSgK P W M Sg (i 0)) (i 1) (i 2)

end Cert.Fisher

end
-- ==== Proof.KHost.lean ====
/-
  What the region finds in the arrays the host prepared before the call, as functions of the four arguments:
  the means and the standard deviations transposed to [3,125]; the per-component additive term of the
  log-density, −Σ_d log σ − c with c the folded constant, as a row [1,125]; the weights as a row; and the two
  scales 1/(N·√w) and 1/(N·√(2w)) as rows.
-/
import proofs.«113572_j78245714199386_1_alg».proof.Proof.Gen.KernelIdeal.Frame
import proofs.«113572_j78245714199386_1_alg».proof.Proof.Spec
import Idealize.ShloMosaic.Lib.Pipeline.Value
import Idealize.ShloMosaic.Lib.StableHlo.Run
import Idealize.ShloMosaic.Lib.ValueIdx

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The means, transposed. -/
theorem V_v0 (c : Dev nD) : (V m c main_v0 : S3x125.Idx → EReal)
    = transpose S3x125 [1, 0] (m ((c : Thread nD τ).loc main_arg2)) transposes_S125x3_S3x125_1_0 := by
  dsimp only [Gen.V, Gen.hostOps0]; after_results

/-- The standard deviations, transposed. -/
theorem V_v1 (c : Dev nD) : (V m c main_v1 : S3x125.Idx → EReal)
    = transpose S3x125 [1, 0] (m ((c : Thread nD τ).loc main_arg3)) transposes_S125x3_S3x125_1_0 := by
  dsimp only [Gen.V, Gen.hostOps0]; after_results

/-- The additive term of the log-density, as a row. -/
theorem V_v7 (c : Dev nD) : (V m c main_v7 : S1x125.Idx → EReal)
    = shapeCast S1x125 (subf (Host.negf (Host.reduceAdd (Host.log (m ((c : Thread nD τ).loc main_arg3))) (constant (F := Ideal) S_ .f32 0x00000000#32) reducesTo_S125x3_S125_d1 h_S_))
        (broadcastInDim S125 ![] bcast_S_S125 (constant (F := Ideal) S_ .f32 0x40306FAB#32))) shapeCasts_S125_S1x125 := by
  dsimp only [Gen.V, Gen.hostOps0]; after_results; rfl

/-- The weights, as a row. -/
theorem V_v8 (c : Dev nD) : (V m c main_v8 : S1x125.Idx → EReal)
    = shapeCast S1x125 (m ((c : Thread nD τ).loc main_arg1)) shapeCasts_S125_S1x125 := by
  dsimp only [Gen.V, Gen.hostOps0]; after_results; rfl

/-- The scale of the mean statistics, as a row. -/
theorem V_v14 (c : Dev nD) : (V m c main_v14 : S1x125.Idx → EReal)
    = shapeCast S1x125 (Host.divf (broadcastInDim S125 ![] bcast_S_S125 (constant (F := Ideal) S_ .f32 0x3F800000#32))
        (mulf (broadcastInDim S125 ![] bcast_S_S125 (constant (F := Ideal) S_ .f32 0x46000000#32)) (Host.sqrt (m ((c : Thread nD τ).loc main_arg1))))) shapeCasts_S125_S1x125 := by
  dsimp only [Gen.V, Gen.hostOps0]; after_results; rfl

/-- The scale of the deviation statistics, as a row. -/
theorem V_v22 (c : Dev nD) : (V m c main_v22 : S1x125.Idx → EReal)
    = shapeCast S1x125 (Host.divf (broadcastInDim S125 ![] bcast_S_S125 (constant (F := Ideal) S_ .f32 0x3F800000#32))
        (mulf (broadcastInDim S125 ![] bcast_S_S125 (constant (F := Ideal) S_ .f32 0x46000000#32))
          (Host.sqrt (mulf (broadcastInDim S125 ![] bcast_S_S125 (constant (F := Ideal) S_ .f32 0x40000000#32)) (m ((c : Thread nD τ).loc main_arg1)))))) shapeCasts_S125_S1x125 := by
  dsimp only [Gen.V, Gen.hostOps0]; after_results; rfl

end Cert.KernelIdeal.HostValue

end
-- ==== Proof.TileSpec.lean ====
/-
  What ONE tile of 1024 points contributes, as functions of the seven blocks a grid point sees:
    x0 the tile's points [1,1024,3], x1 the means and x2 the standard deviations, transposed [3,125],
    x3 the per-component additive term of the log-density [1,125], x4 the weights [1,125],
    x5 the scale 1/(N·√w) and x6 the scale 1/(N·√(2w)) [1,125].
  Each accumulator row keeps a running maximum, minimum or sum over the points seen so far; a tile replaces the
  row's entry a by max a (sup over the tile), min a (inf over the tile) or a + (sum over the tile) of the
  per-point term (`upd`). Rows 0–2 of a nine-row accumulator hold the maxima of the three coordinates, rows 3–5 the minima,
  rows 6–8 the sums; the two-row accumulator holds a maximum and a sum.
-/
import proofs.«113572_j78245714199386_1_alg».proof.Proof.Spec

noncomputable section

namespace Cert.Fisher.Tile

open Idealize.ShloMosaic Idealize.ShloMosaic.ValueIdx Cert.Fisher

abbrev TPts := (⟨3, ![1, 1024, 3]⟩ : Shape).Idx → EReal
abbrev T3 := (⟨2, ![3, 125]⟩ : Shape).Idx → EReal
abbrev TRow := (⟨2, ![1, 125]⟩ : Shape).Idx → EReal
abbrev Acc2 := (⟨2, ![2, 125]⟩ : Shape).Idx → EReal
abbrev Acc9 := (⟨2, ![9, 125]⟩ : Shape).Idx → EReal
abbrev Blk20 := (⟨3, ![1, 20, 125]⟩ : Shape).Idx → EReal

variable (x0 : TPts) (x1 x2 : T3) (x3 x4 x5 x6 : TRow)

/-- The standardised deviation of the tile's point `n` from component `g` along coordinate `d`. -/
def tdev (n : Fin 1024) (g : Fin 125) (d : Fin 3) : EReal :=
  Ideal.div (x0 (ix3 0 n d) - x1 (ix2 d g)) (x2 (ix2 d g))

/-- The log-density, with the block's additive term. -/
def tlogp (n : Fin 1024) (g : Fin 125) : EReal :=
  cNegHalf * ((tdev x0 x1 x2 n g 0 * tdev x0 x1 x2 n g 0 + tdev x0 x1 x2 n g 1 * tdev x0 x1 x2 n g 1)
    + tdev x0 x1 x2 n g 2 * tdev x0 x1 x2 n g 2) + x3 (ix2 0 g)

/-- The posterior weight. -/
def tQ (n : Fin 1024) (g : Fin 125) : EReal :=
  Ideal.div (Ideal.exp (tlogp x0 x1 x2 x3 n g) * x4 (ix2 0 g))
    (∑ g' : Fin 125, Ideal.exp (tlogp x0 x1 x2 x3 n g') * x4 (ix2 0 g'))

/-- The per-point terms of the three families of statistics. -/
def tPi (n : Fin 1024) (g : Fin 125) : EReal := (tQ x0 x1 x2 x3 x4 n g - x4 (ix2 0 g)) * x5 (ix2 0 g)
def tMu (n : Fin 1024) (g : Fin 125) (d : Fin 3) : EReal := tQ x0 x1 x2 x3 x4 n g * tdev x0 x1 x2 n g d * x5 (ix2 0 g)
def tSg (n : Fin 1024) (g : Fin 125) (d : Fin 3) : EReal :=
  tQ x0 x1 x2 x3 x4 n g * (tdev x0 x1 x2 n g d * tdev x0 x1 x2 n g d - cOne) * x6 (ix2 0 g)

/-- A running maximum, minimum or sum `a` after a tile whose per-point terms are `f`. -/
def upd (stat : Fin 3) (a : EReal) (f : Fin 1024 → EReal) : EReal :=
  match stat with
  | 0 => max a (Finset.univ.sup f)
  | 1 => min a (Finset.univ.inf f)
  | 2 => a + ∑ n, f n

/-- The two-row accumulator (maximum, sum of the weight terms) after a tile. -/
def step0 (acc : Acc2) : Acc2 := fun y =>
  if (y 0).val = 0 then upd 0 (acc y) (fun n => tPi x0 x1 x2 x3 x4 x5 n (y 1))
  else upd 2 (acc y) (fun n => tPi x0 x1 x2 x3 x4 x5 n (y 1))

/-- The nine-row accumulator of the mean terms after a tile. -/
def step1 (acc : Acc9) : Acc9 := fun y =>
  upd (statOf (y 0)) (acc y) (fun n => tMu x0 x1 x2 x3 x4 x5 n (y 1) (coordOf (y 0)))

/-- The nine-row accumulator of the deviation terms after a tile. -/
def step2 (acc : Acc9) : Acc9 := fun y =>
  upd (statOf (y 0)) (acc y) (fun n => tSg x0 x1 x2 x3 x4 x6 n (y 1) (coordOf (y 0)))

/-- The accumulators before a batch's first tile: −∞ under a maximum, +∞ under a minimum, 0 under a sum. -/
def init0 : Acc2 := fun y => if (y 0).val = 0 then Ideal.ofBits .f32 0xFF800000#32 else cZero
def init9 : Acc9 := fun y =>
  if (y 0).val < 3 then Ideal.ofBits .f32 0xFF800000#32 else if (y 0).val < 6 then Ideal.ofBits .f32 0x7F800000#32 else cZero

/-- Power normalisation written as the body computes it: the sign by two comparisons, the root by a square root. -/
def pwK (x : EReal) : EReal :=
  (if 0 < max x (-x) then (if x < 0 then Ideal.ofBits .f32 0xBF800000#32 else cOne) else x) * Ideal.sqrt (max x (-x))

/-- A row of 125 entries normalised as the body does. -/
def normRowK (v : Fin 125 → EReal) (g : Fin 125) : EReal :=
  pwK (v g) * Ideal.rsqrt (max (∑ g' : Fin 125, pwK (v g') * pwK (v g')) cEps)

/-- The 20-row block written after a batch's last tile. -/
def finalBlock (a0 : Acc2) (a1 a2 : Acc9) : Blk20 := fun y =>
  if h : (y 1).val < 2 then normRowK (fun g => a0 (ix2 ⟨(y 1).val, h⟩ g)) (y 2)
  else if h' : (y 1).val < 11 then normRowK (fun g => a1 (ix2 ⟨(y 1).val - 2, by omega⟩ g)) (y 2)
  else normRowK (fun g => a2 (ix2 ⟨(y 1).val - 11, by have h20 : (y 1).val < 20 := (y 1).isLt; omega⟩ g)) (y 2)

end Cert.Fisher.Tile

end
-- ==== Proof.KBlocks.lean ====
/-
  The blocks a grid point sees, read at an index. Point t = 8·b + k of the grid is tile k of batch b: its points block is
  rows 1024·k … 1024·k + 1023 of batch b of the points array; the other six windows hold their whole arrays at every point.
-/
import proofs.«113572_j78245714199386_1_alg».proof.Proof.KHost
import proofs.«113572_j78245714199386_1_alg».proof.Proof.TileSpec

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.ValueIdx Cert.Fisher

variable (m : (ℓ : Loc nD τ sig) → Buf (Elt Ideal) ℓ)

/-- The four argument arrays as the device holds them at launch. -/
abbrev argP (c : Dev nD) : Pts := m ((c : Thread nD τ).loc main_arg0)
abbrev argW (c : Dev nD) : Wts := m ((c : Thread nD τ).loc main_arg1)
abbrev argM (c : Dev nD) : Cmp := m ((c : Thread nD τ).loc main_arg2)
abbrev argS (c : Dev nD) : Cmp := m ((c : Thread nD τ).loc main_arg3)

/-- The index maps over the grid: the points window follows (batch, tile), the others stay at block 0. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 8 ∧ win0_7.index t (1 : Fin 3) = 0 ∧ win0_7.index t (2 : Fin 3) = 0 :=
  (by decide +kernel : ∀ t : Fin grid0.N, _)

/-- The points block of tile `t`: its row `n` is point `1024·(t mod 8) + n` of batch `t / 8`. -/
theorem iblk0_apply (c : Dev nD) (t : Fin cfg0.N) (n : Fin 1024) (d : Fin 3) (b : Fin 16) (k : Fin 8192)
    (hb : b.val = t.val / 8) (hk : k.val = 1024 * (t.val % 8) + n.val) :
    (iblk m c 0 t : Vec Ideal S1x1024x3 .f32) (ix3 0 n d) = argP m c (ix3 b k d) := by
  obtain ⟨e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; rw [e0, hb]; omega
  | ⟨1, _⟩ => show win0_0.index t 1 * 1024 + 1 * n.val = k.val; rw [e1, hk]; omega
  | ⟨2, _⟩ => show win0_0.index t 2 * 3 + 1 * d.val = d.val; rw [e2]; omega

/-- The other windows' blocks are their whole arrays. -/
theorem iblk1_eq (c : Dev nD) (t : Fin cfg0.N) : (iblk m c 1 t : Vec Ideal S3x125 .f32) = (V m c main_v0 : S3x125.Idx → EReal) := by
  obtain ⟨-, -, -, e0, e1, -⟩ := idx_facts t
  funext y
  unfold iblk
  rw [View.read_apply]
  show V m c main_v0 _ = V m c main_v0 y
  congr 1
  funext a
  apply Fin.ext
  match a with
  | ⟨0, _⟩ => show win0_1.index t 0 * 3 + 1 * (y 0).val = (y 0).val; rw [e0]; omega
  | ⟨1, _⟩ => show win0_1.index t 1 * 125 + 1 * (y 1).val = (y 1).val; rw [e1]; omega

theorem iblk2_eq (c : Dev nD) (t : Fin cfg0.N) : (iblk m c 2 t : Vec Ideal S3x125 .f32) = (V m c main_v1 : S3x125.Idx → EReal) := by
  obtain ⟨-, -, -, -, -, e0, e1, -⟩ := idx_facts t
  funext y
  unfold iblk
  rw [View.read_apply]
  show V m c main_v1 _ = V m c main_v1 y
  congr 1
  funext a
  apply Fin.ext
  match a with
  | ⟨0, _⟩ => show win0_2.index t 0 * 3 + 1 * (y 0).val = (y 0).val; rw [e0]; omega
  | ⟨1, _⟩ => show win0_2.index t 1 * 125 + 1 * (y 1).val = (y 1).val; rw [e1]; omega

theorem iblk3_eq (c : Dev nD) (t : Fin cfg0.N) : (iblk m c 3 t : Vec Ideal S1x125 .f32) = (V m c main_v7 : S1x125.Idx → EReal) := by
  obtain ⟨-, -, -, -, -, -, -, e0, e1, -⟩ := idx_facts t
  funext y
  unfold iblk
  rw [View.read_apply]
  show V m c main_v7 _ = V m c main_v7 y
  congr 1
  funext a
  apply Fin.ext
  match a with
  | ⟨0, _⟩ => show win0_3.index t 0 * 1 + 1 * (y 0).val = (y 0).val; rw [e0]; omega
  | ⟨1, _⟩ => show win0_3.index t 1 * 125 + 1 * (y 1).val = (y 1).val; rw [e1]; omega

theorem iblk4_eq (c : Dev nD) (t : Fin cfg0.N) : (iblk m c 4 t : Vec Ideal S1x125 .f32) = (V m c main_v8 : S1x125.Idx → EReal) := by
  obtain ⟨-, -, -, -, -, -, -, -, -, e0, e1, -⟩ := idx_facts t
  funext y
  unfold iblk
  rw [View.read_apply]
  show V m c main_v8 _ = V m c main_v8 y
  congr 1
  funext a
  apply Fin.ext
  match a with
  | ⟨0, _⟩ => show win0_4.index t 0 * 1 + 1 * (y 0).val = (y 0).val; rw [e0]; omega
  | ⟨1, _⟩ => show win0_4.index t 1 * 125 + 1 * (y 1).val = (y 1).val; rw [e1]; omega

theorem iblk5_eq (c : Dev nD) (t : Fin cfg0.N) : (iblk m c 5 t : Vec Ideal S1x125 .f32) = (V m c main_v14 : S1x125.Idx → EReal) := by
  obtain ⟨-, -, -, -, -, -, -, -, -, -, -, e0, e1, -⟩ := idx_facts t
  funext y
  unfold iblk
  rw [View.read_apply]
  show V m c main_v14 _ = V m c main_v14 y
  congr 1
  funext a
  apply Fin.ext
  match a with
  | ⟨0, _⟩ => show win0_5.index t 0 * 1 + 1 * (y 0).val = (y 0).val; rw [e0]; omega
  | ⟨1, _⟩ => show win0_5.index t 1 * 125 + 1 * (y 1).val = (y 1).val; rw [e1]; omega

theorem iblk6_eq (c : Dev nD) (t : Fin cfg0.N) : (iblk m c 6 t : Vec Ideal S1x125 .f32) = (V m c main_v22 : S1x125.Idx → EReal) := by
  obtain ⟨-, -, -, -, -, -, -, -, -, -, -, -, -, e0, e1, -⟩ := idx_facts t
  funext y
  unfold iblk
  rw [View.read_apply]
  show V m c main_v22 _ = V m c main_v22 y
  congr 1
  funext a
  apply Fin.ext
  match a with
  | ⟨0, _⟩ => show win0_6.index t 0 * 1 + 1 * (y 0).val = (y 0).val; rw [e0]; omega
  | ⟨1, _⟩ => show win0_6.index t 1 * 125 + 1 * (y 1).val = (y 1).val; rw [e1]; omega

end Cert.KernelIdeal.BlockValue

end
-- ==== Proof.KHostAt.lean ====
/-
  The arrays the host prepared, read at an index: the transposed means and standard deviations at (d, g) are the
  arguments at (g, d); the additive term of the log-density at component g is −(0 + Σ_d log σ(g,d)) − c; the weight row is
  the weights; the two scale rows are 1/(N·√w) and 1/(N·√(2w)).
-/
import proofs.«113572_j78245714199386_1_alg».proof.Proof.KBlocks
import Idealize.ShloMosaic.Lib.IdealHost
import Idealize.ShloMosaic.Lib.ValueLayout
import Idealize.ShloMosaic.PureOps.Ideal.Laws

noncomputable section

namespace Cert.KernelIdeal.HostValue

open Cert.KernelIdeal Cert.KernelIdeal.Gen Cert.KernelIdeal.BlockValue Idealize.ShloMosaic Idealize.ShloMosaic.TcCoe Idealize.SL.Sem
open Idealize.ShloMosaic.ValueIdx Cert.Fisher

variable (m : (ℓ : Loc nD τ sig) → Buf (Elt Ideal) ℓ)

/-- A host sum over the three coordinates of a component. -/
theorem radd_sig (h' : S125x3.ReducesTo [1] S125) (hu : 0 < S_.numel)
    (x : S125x3.Idx → EReal) (init : S_.Idx → EReal) (g : Fin 125) :
    Host.reduceAdd (F := Ideal) (φ := .f32) x init h' hu (ix1 g) = init ix0 + ∑ d : Fin 3, x (ix2 g d) := by
  have h : S125x3.Reduces [1] S125 := by decide
  rw [hostReduceAdd_apply, Ideal.hostReduceAdd_single h' h]
  refine congrArg₂ (· + ·) (congrArg init (eq_ix0 _)) (Finset.sum_congr rfl fun d _ => congrArg x ?_)
  funext c
  match c with
  | ⟨0, _⟩ => rfl | ⟨1, _⟩ => rfl

/-- A vector of 125 entries viewed as a row. -/
theorem row_cast {α : Type} (v : S125.Idx → α) (h : S125.ShapeCasts S1x125) (g : Fin 125) :
    shapeCast S1x125 v h (ix2 0 g) = v (ix1 g) := by
  refine (shapeCast_addUnit_apply ![125] v h (ix2 0 g)).trans (congrArg v ?_)
  funext a
  match a with
  | ⟨0, _⟩ => rfl

theorem muT_at (c : Dev nD) (d : Fin 3) (g : Fin 125) : (V m c main_v0 : S3x125.Idx → EReal) (ix2 d g) = argM m c (ix2 g d) := by
  rw [V_v0]; exact transpose_ix2_apply _ _ d g

theorem sigT_at (c : Dev nD) (d : Fin 3) (g : Fin 125) : (V m c main_v1 : S3x125.Idx → EReal) (ix2 d g) = argS m c (ix2 g d) := by
  rw [V_v1]; exact transpose_ix2_apply _ _ d g

theorem w_at (c : Dev nD) (g : Fin 125) : (V m c main_v8 : S1x125.Idx → EReal) (ix2 0 g) = argW m c (ix1 g) := by
  rw [V_v8]; exact row_cast _ _ g

theorem bias_at (c : Dev nD) (g : Fin 125) : (V m c main_v7 : S1x125.Idx → EReal) (ix2 0 g)
    = -(cZero + ∑ d : Fin 3, Ideal.log (argS m c (ix2 g d))) - Ideal.ofBits .f32 0x40306FAB#32 := by
  rw [V_v7, row_cast]
  show -(Host.reduceAdd (F := Ideal) (φ := .f32) (Host.log (argS m c)) (constant (F := Ideal) S_ .f32 0x00000000#32) reducesTo_S125x3_S125_d1 h_S_ (ix1 g))
      - broadcastInDim S125 ![] bcast_S_S125 (constant (F := Ideal) S_ .f32 0x40306FAB#32) (ix1 g) = _
  rw [broadcastInDim_scalar_apply, radd_sig]
  rfl

theorem scMu_at (c : Dev nD) (g : Fin 125) : (V m c main_v14 : S1x125.Idx → EReal) (ix2 0 g) = scMu (argW m c) g := by
  rw [V_v14, row_cast, hostDivf_apply]
  show Ideal.div (broadcastInDim S125 ![] bcast_S_S125 (constant (F := Ideal) S_ .f32 0x3F800000#32) (ix1 g))
      (broadcastInDim S125 ![] bcast_S_S125 (constant (F := Ideal) S_ .f32 0x46000000#32) (ix1 g) * Ideal.sqrt (argW m c (ix1 g))) = _
  rw [broadcastInDim_scalar_apply, broadcastInDim_scalar_apply]
  rfl

theorem scSg_at (c : Dev nD) (g : Fin 125) : (V m c main_v22 : S1x125.Idx → EReal) (ix2 0 g) = scSg (argW m c) g := by
  rw [V_v22, row_cast, hostDivf_apply]
  show Ideal.div (broadcastInDim S125 ![] bcast_S_S125 (constant (F := Ideal) S_ .f32 0x3F800000#32) (ix1 g))
      (broadcastInDim S125 ![] bcast_S_S125 (constant (F := Ideal) S_ .f32 0x46000000#32) (ix1 g)
        * Ideal.sqrt (broadcastInDim S125 ![] bcast_S_S125 (constant (F := Ideal) S_ .f32 0x40000000#32) (ix1 g) * argW m c (ix1 g))) = _
  rw [broadcastInDim_scalar_apply, broadcastInDim_scalar_apply, broadcastInDim_scalar_apply]
  rfl

end Cert.KernelIdeal.HostValue

end
-- ==== Proof.LibPosScale.lean ====
/-
  Multiplication by a positive real on the extended reals.

  A positive real factor `c` is an order isomorphism of `[-∞, +∞]` that fixes both infinities, and it
  distributes over every sum of extended reals (the sum `⊤ + ⊥ = ⊥` included, because `c · ⊤ = ⊤` and
  `c · ⊥ = ⊥`). Hence it commutes with sums, binary and finite maxima and minima; a common positive real
  factor cancels from a quotient; and the exponential turns the addition of a real into the multiplication
  by a positive real.
-/
import Mathlib
import Idealize.ShloMosaic.PureOps.Ideal

noncomputable section

namespace Cert.LibPosScale

open Idealize.ShloMosaic

/-- A positive real, read as an extended real, is positive. -/
theorem coe_pos' (c : ℝ) (hc : 0 < c) : (0 : EReal) < (c : EReal) := by exact_mod_cast hc

/-- A positive real factor distributes over the sum of two extended reals, whatever they are. -/
theorem mul_add (c : ℝ) (hc : 0 < c) (a b : EReal) : (c : EReal) * (a + b) = c * a + c * b :=
  EReal.left_distrib_of_nonneg_of_ne_top (coe_pos' c hc).le (EReal.coe_ne_top c) a b

/-- A positive real factor distributes over a finite sum of extended reals. -/
theorem mul_sum {ι : Type*} (s : Finset ι) (c : ℝ) (hc : 0 < c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, mul_add c hc, ih]

/-- Multiplication by a positive real is monotone. -/
theorem mul_mono (c : ℝ) (hc : 0 < c) : Monotone fun x : EReal => (c : EReal) * x :=
  fun _ _ h => mul_le_mul_of_nonneg_left h (coe_pos' c hc).le

/-- A positive real factor commutes with the maximum of two extended reals. -/
theorem mul_max (c : ℝ) (hc : 0 < c) (a b : EReal) : (c : EReal) * max a b = max (c * a) (c * b) :=
  (mul_mono c hc).map_max

/-- A positive real factor commutes with the minimum of two extended reals. -/
theorem mul_min (c : ℝ) (hc : 0 < c) (a b : EReal) : (c : EReal) * min a b = min (c * a) (c * b) :=
  (mul_mono c hc).map_min

/-- A positive real factor commutes with a finite supremum; the empty supremum `⊥` is fixed. -/
theorem mul_sup {ι : Type*} (s : Finset ι) (c : ℝ) (hc : 0 < c) (f : ι → EReal) :
    (c : EReal) * s.sup f = s.sup fun i => (c : EReal) * f i :=
  Finset.comp_sup_eq_sup_comp_of_is_total (fun x : EReal => (c : EReal) * x) (mul_mono c hc)
    (EReal.coe_mul_bot_of_pos hc)

/-- A positive real factor commutes with a finite infimum; the empty infimum `⊤` is fixed. -/
theorem mul_inf {ι : Type*} (s : Finset ι) (c : ℝ) (hc : 0 < c) (f : ι → EReal) :
    (c : EReal) * s.inf f = s.inf fun i => (c : EReal) * f i :=
  Finset.comp_inf_eq_inf_comp_of_is_total (fun x : EReal => (c : EReal) * x) (mul_mono c hc)
    (EReal.coe_mul_top_of_pos hc)

/-- A positive real times its reciprocal is one, in the extended reals. -/
theorem coe_mul_inv_cancel (k : ℝ) (hk : 0 < k) : (k : EReal) * (k : EReal)⁻¹ = 1 := by
  rw [← EReal.coe_inv, ← EReal.coe_mul, mul_inv_cancel₀ hk.ne']; rfl

/-- A common positive real factor cancels from a quotient, at every corner of the division: a zero
    divisor stays zero and the dividend keeps its sign; off zero the factor meets its reciprocal. -/
theorem div_mul_cancel (k : ℝ) (hk : 0 < k) (u s : EReal) :
    Ideal.div ((k : EReal) * u) ((k : EReal) * s) = Ideal.div u s := by
  have hk0 : (k : EReal) ≠ 0 := (coe_pos' k hk).ne'
  by_cases hs : s = 0
  · subst hs
    have hpos : (0 : EReal) < (k : EReal) * u ↔ 0 < u := by
      rw [EReal.mul_pos_iff]
      constructor
      · rintro (⟨_, h⟩ | ⟨h, _⟩)
        · exact h
        · exact absurd h (not_lt.mpr (coe_pos' k hk).le)
      · exact fun h => Or.inl ⟨coe_pos' k hk, h⟩
    simp only [Ideal.div, mul_zero, if_true, hpos]
  · have hks : (k : EReal) * s ≠ 0 := mul_ne_zero hk0 hs
    rw [Ideal.div, if_neg hks, Ideal.div, if_neg hs, EReal.mul_inv, mul_mul_mul_comm,
      coe_mul_inv_cancel k hk, one_mul]

/-- Multiplying by the reciprocal of a positive real is dividing by it. -/
theorem mul_div_one (x : EReal) (y : ℝ) (hy : 0 < y) :
    x * Ideal.div 1 (y : EReal) = Ideal.div x (y : EReal) := by
  rw [Ideal.div_coe hy.ne', Ideal.div_coe hy.ne', one_mul]

/-- The exponential of a sum with a real is the exponential times a positive real: `e^(A + r) = e^A · e^r`,
    with `e^⊥ = 0` and `e^⊤ = ⊤`. -/
theorem exp_add_coe (A : EReal) (r : ℝ) :
    Ideal.exp (A + (r : EReal)) = Ideal.exp A * ((Real.exp r : ℝ) : EReal) := by
  induction A using EReal.rec with
  | bot => simp
  | top =>
    rw [EReal.top_add_coe, Ideal.exp_top, EReal.top_mul_coe_of_pos (Real.exp_pos r)]
  | coe a =>
    rw [← EReal.coe_add, Ideal.exp_coe, Ideal.exp_coe, Real.exp_add, EReal.coe_mul]

end Cert.LibPosScale

end
-- ==== Proof.Algebra.lean ====
/-
  The algebra of the Fisher-vector statistics on the extended reals: the values of the literals, the
  invariance of the posterior weights under an additive real constant in the log-densities, the agreement of
  the two placements of a positive real scale, and the power normalisation written with a square root.
-/
import Mathlib
import proofs.«113572_j78245714199386_1_alg».proof.Proof.Spec
import proofs.«113572_j78245714199386_1_alg».proof.Proof.LibPosScale

noncomputable section

namespace Cert.Fisher

open Idealize.ShloMosaic Idealize.ShloMosaic.ValueIdx Cert.LibPosScale

/-! ## The literals -/

/-- The all-zero word is zero. -/
theorem cZero_eq : cZero = 0 := by
  simp [cZero, Ideal.ofBits, Ideal.ieee]

/-- The word of `1.0`. -/
theorem cOne_eq : cOne = 1 := by
  rw [show (1 : EReal) = ((1 : ℝ) : EReal) by norm_cast]
  simp [cOne, Ideal.ofBits, Ideal.ieee, -EReal.coe_mul]; norm_num

/-- The word of `2.0`. -/
theorem cTwo_eq : cTwo = ((2 : ℝ) : EReal) := by
  simp [cTwo, Ideal.ofBits, Ideal.ieee, -EReal.coe_mul]; norm_num

/-- The word of `0.5`. -/
theorem cHalf_eq : cHalf = ((1 / 2 : ℝ) : EReal) := by
  simp [cHalf, Ideal.ofBits, Ideal.ieee, -EReal.coe_mul]; norm_num

/-- The word of `-0.5`. -/
theorem cNegHalf_eq : cNegHalf = ((-(1 / 2) : ℝ) : EReal) := by
  simp [cNegHalf, Ideal.ofBits, Ideal.ieee, -EReal.coe_mul, -EReal.coe_neg]; norm_num

/-- The word of `8192.0`, the number of points of a batch. -/
theorem cN_eq : cN = ((8192 : ℝ) : EReal) := by
  simp [cN, Ideal.ofBits, Ideal.ieee, -EReal.coe_mul]; norm_num

/-- The word of `-1.0`. -/
theorem negOne_eq : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- The word of `+∞`. -/
theorem posInf_eq : Ideal.ofBits .f32 0x7F800000#32 = ⊤ := by
  simp [Ideal.ofBits, Ideal.ieee]

/-- The word of `-∞`. -/
theorem negInf_eq : Ideal.ofBits .f32 0xFF800000#32 = ⊥ := by
  simp [Ideal.ofBits, Ideal.ieee]

/-- The word `0x40306FAB` is the dyadic rational `11562923 / 2^22`. -/
theorem shiftK_val : Ideal.ofBits .f32 0x40306FAB#32 = ((11562923 / 4194304 : ℝ) : EReal) := by
  simp [Ideal.ofBits, Ideal.ieee, -EReal.coe_mul]; norm_num

/-- The word `0x40306FAB` is a real number. -/
theorem shiftK_real : ∃ r : ℝ, Ideal.ofBits .f32 0x40306FAB#32 = (r : EReal) := ⟨_, shiftK_val⟩

/-- The word of `1.5`. -/
theorem threeHalves_eq : Ideal.ofBits .f32 0x3FC00000#32 = ((3 / 2 : ℝ) : EReal) := by
  simp [Ideal.ofBits, Ideal.ieee, -EReal.coe_mul]; norm_num

/-- The word `0x40C90FDB` is the dyadic rational `13176795 / 2^21`, a positive real. -/
theorem twoPi_val : Ideal.ofBits .f32 0x40C90FDB#32 = ((13176795 / 2097152 : ℝ) : EReal) := by
  simp [Ideal.ofBits, Ideal.ieee, -EReal.coe_mul]; norm_num

/-- `1.5 · log` of the positive real word `0x40C90FDB` is a real number. -/
theorem shiftR_real : ∃ r : ℝ,
    Ideal.ofBits .f32 0x3FC00000#32 * Ideal.log (Ideal.ofBits .f32 0x40C90FDB#32) = (r : EReal) := by
  refine ⟨3 / 2 * Real.log (13176795 / 2097152), ?_⟩
  rw [threeHalves_eq, twoPi_val, Ideal.log_coe, if_neg (by norm_num), EReal.coe_mul]

/-! ## An additive real constant in the log-densities -/

/-- Subtracting one real `s` from every log-density multiplies every `exp` by the positive real `e^(-s)`,
    which the quotient forgets: the posterior weights are unchanged, whatever the weights and densities. -/
theorem resp_shift {ι : Type*} [Fintype ι] (a w : ι → EReal) (s : ℝ) (g : ι) :
    Ideal.div (Ideal.exp (a g + (-(s : EReal))) * w g) (∑ g', Ideal.exp (a g' + (-(s : EReal))) * w g')
      = Ideal.div (Ideal.exp (a g) * w g) (∑ g', Ideal.exp (a g') * w g') := by
  have hk : 0 < Real.exp (-s) := Real.exp_pos _
  have h : ∀ j, Ideal.exp (a j + (-(s : EReal))) * w j
      = ((Real.exp (-s) : ℝ) : EReal) * (Ideal.exp (a j) * w j) := by
    intro j
    rw [← EReal.coe_neg, exp_add_coe, mul_comm (Ideal.exp (a j)), mul_assoc]
  simp only [h]
  rw [← mul_sum Finset.univ _ hk, div_mul_cancel _ hk]

/-! ## The two placements of the scale -/

/-- For a positive real weight `w` the scale of the means is the positive real `1 / (8192 · √w)`. -/
theorem scMu_eq (W : Wts) (g : Fin 125) (w : ℝ) (hw : 0 < w) (hWg : W (ix1 g) = (w : EReal)) :
    scMu W g = ((1 / (8192 * Real.sqrt w) : ℝ) : EReal) := by
  have hs : 0 < Real.sqrt w := Real.sqrt_pos.mpr hw
  have hy : (8192 * Real.sqrt w : ℝ) ≠ 0 := by positivity
  rw [scMu, hWg, cOne_eq, cN_eq, Ideal.sqrt_coe, if_neg (not_lt.mpr hw.le), ← EReal.coe_mul,
    Ideal.div_coe hy, one_mul]

/-- For a positive real weight `w` the scale of the deviations is the positive real `1 / (8192 · √(2w))`. -/
theorem scSg_eq (W : Wts) (g : Fin 125) (w : ℝ) (hw : 0 < w) (hWg : W (ix1 g) = (w : EReal)) :
    scSg W g = ((1 / (8192 * Real.sqrt (2 * w)) : ℝ) : EReal) := by
  have h2 : 0 < 2 * w := by positivity
  have hs : 0 < Real.sqrt (2 * w) := Real.sqrt_pos.mpr h2
  have hy : (8192 * Real.sqrt (2 * w) : ℝ) ≠ 0 := by positivity
  rw [scSg, hWg, cOne_eq, cN_eq, cTwo_eq, ← EReal.coe_mul, Ideal.sqrt_coe, if_neg (not_lt.mpr h2.le),
    ← EReal.coe_mul, Ideal.div_coe hy, one_mul]

/-- A positive real factor applied to every point's term can be taken out of the maximum, the minimum and the
    sum over the points. -/
theorem agg_mul_const (stat : Fin 3) (c : ℝ) (hc : 0 < c) (f : Fin 8192 → EReal) :
    agg stat (fun n => f n * (c : EReal)) = (c : EReal) * agg stat f := by
  have hf : (fun n => f n * (c : EReal)) = fun n => (c : EReal) * f n := funext fun n => mul_comm _ _
  rw [hf]
  fin_cases stat
  · exact (mul_sup _ c hc f).symm
  · exact (mul_inf _ c hc f).symm
  · exact (mul_sum _ c hc f).symm

/-- The mixing-weight statistics: multiplying a term by `1 / (8192 · √w)` is dividing it by `√w · 8192`. -/
theorem rawPiK_eq (P : Pts) (W : Wts) (M Sg : Cmp)
    (hW : ∀ g : Fin 125, ∃ r : ℝ, 0 < r ∧ W (ix1 g) = (r : EReal)) (b : Fin 16) (r : Fin 2) (g : Fin 125) :
    rawPiK P W M Sg b r g = rawPiR P W M Sg b r g := by
  obtain ⟨w, hw, hWg⟩ := hW g
  have hs : 0 < Real.sqrt w := Real.sqrt_pos.mpr hw
  have hy : (0 : ℝ) < 8192 * Real.sqrt w := by positivity
  have hden : Ideal.sqrt (W (ix1 g)) * cN = ((8192 * Real.sqrt w : ℝ) : EReal) := by
    rw [hWg, cN_eq, Ideal.sqrt_coe, if_neg (not_lt.mpr hw.le), ← EReal.coe_mul, mul_comm]
  have hsc : scMu W g = Ideal.div 1 ((8192 * Real.sqrt w : ℝ) : EReal) := by
    rw [scMu_eq W g w hw hWg, Ideal.div_coe hy.ne', one_mul]
  rw [rawPiK, rawPiR, hsc, hden]
  congr 1
  funext n
  exact mul_div_one _ _ hy

/-- The mean statistics. -/
theorem rawMuK_eq (P : Pts) (W : Wts) (M Sg : Cmp)
    (hW : ∀ g : Fin 125, ∃ r : ℝ, 0 < r ∧ W (ix1 g) = (r : EReal)) (b : Fin 16) (r : Fin 9) (g : Fin 125) :
    rawMuK P W M Sg b r g = rawMuR P W M Sg b r g := by
  obtain ⟨w, hw, hWg⟩ := hW g
  have hs : 0 < Real.sqrt w := Real.sqrt_pos.mpr hw
  have hc : (0 : ℝ) < 1 / (8192 * Real.sqrt w) := by positivity
  rw [rawMuK, rawMuR, scMu_eq W g w hw hWg]
  exact agg_mul_const _ _ hc _

/-- The deviation statistics. -/
theorem rawSgK_eq (P : Pts) (W : Wts) (M Sg : Cmp)
    (hW : ∀ g : Fin 125, ∃ r : ℝ, 0 < r ∧ W (ix1 g) = (r : EReal)) (b : Fin 16) (r : Fin 9) (g : Fin 125) :
    rawSgK P W M Sg b r g = rawSgR P W M Sg b r g := by
  obtain ⟨w, hw, hWg⟩ := hW g
  have h2 : 0 < 2 * w := by positivity
  have hs : 0 < Real.sqrt (2 * w) := Real.sqrt_pos.mpr h2
  have hc : (0 : ℝ) < 1 / (8192 * Real.sqrt (2 * w)) := by positivity
  rw [rawSgK, rawSgR, scSg_eq W g w hw hWg]
  exact agg_mul_const _ _ hc _

/-- With every weight a positive real, the result does not depend on where the scales are applied. -/
theorem outK_eq (P : Pts) (W : Wts) (M Sg : Cmp)
    (hW : ∀ g : Fin 125, ∃ r : ℝ, 0 < r ∧ W (ix1 g) = (r : EReal)) :
    outK P W M Sg = outR P W M Sg := by
  funext i
  have h1 : rawPiK P W M Sg (i 0) = rawPiR P W M Sg (i 0) := by
    funext r g; exact rawPiK_eq P W M Sg hW _ r g
  have h2 : rawMuK P W M Sg (i 0) = rawMuR P W M Sg (i 0) := by
    funext r g; exact rawMuK_eq P W M Sg hW _ r g
  have h3 : rawSgK P W M Sg (i 0) = rawSgR P W M Sg (i 0) := by
    funext r g; exact rawSgK_eq P W M Sg hW _ r g
  rw [outK, outR, h1, h2, h3]

/-! ## The power normalisation -/

/-- The absolute value of a real, as a maximum in the extended reals. -/
theorem max_coe_neg (r : ℝ) : max (r : EReal) (-(r : EReal)) = ((|r| : ℝ) : EReal) := by
  rw [← EReal.coe_neg, ← EReal.coe_strictMono.monotone.map_max]; rfl

/-- `sign · |x|^(1/2)` is `sign · √|x|`: the power with exponent one half of a nonnegative extended real is its
    square root, at `+∞` too. -/
theorem pw_eq_sqrt (x : EReal) : pw x = Ideal.sign x * Ideal.sqrt (max x (-x)) := by
  rw [pw, cHalf_eq]
  congr 1
  have hhalf : (0 : EReal) < ((1 / 2 : ℝ) : EReal) := by exact_mod_cast (by norm_num : (0 : ℝ) < 1 / 2)
  induction x using EReal.rec with
  | bot => simp [hhalf]
  | top => simp [hhalf]
  | coe r =>
    rw [max_coe_neg, Ideal.pow_coe_coe, Ideal.sqrt_coe, if_neg (not_lt.mpr (abs_nonneg r)),
      Real.rpow_eq_pow, ← Real.sqrt_eq_rpow]

/-- The sign written with two comparisons: off zero it is `∓1` by the order, and at zero it is zero. -/
theorem sign_eq_select (x : EReal) :
    Ideal.sign x = if 0 < max x (-x) then (if x < 0 then (-1 : EReal) else 1) else x := by
  induction x using EReal.rec with
  | bot => simp
  | top => simp
  | coe r =>
    rw [max_coe_neg, Ideal.sign_coe]
    rcases lt_trichotomy r 0 with h | h | h
    · have h1 : (0 : EReal) < ((|r| : ℝ) : EReal) := by exact_mod_cast abs_pos.mpr h.ne
      have h2 : (r : EReal) < 0 := by exact_mod_cast h
      rw [if_pos h1, if_pos h2, sign_neg h]; simp
    · subst h; simp
    · have h1 : (0 : EReal) < ((|r| : ℝ) : EReal) := by exact_mod_cast abs_pos.mpr h.ne'
      have h2 : ¬ (r : EReal) < 0 := by exact_mod_cast not_lt.mpr h.le
      rw [if_pos h1, if_neg h2, sign_pos h]; simp

end Cert.Fisher

end
-- ==== Proof.LibTileAgg.lean ====
/-
  Running aggregates over tiles of consecutive points.

  The points `0, 1, …, N − 1` are cut into tiles of `T` consecutive points. The first `k + 1` tiles are the first
  `k` tiles together with tile `k`, which is the image of `Fin T` under `a ↦ T·k + a`; the two parts are disjoint.
  Hence a supremum, an infimum or a sum over the first `k + 1` tiles is the one over the first `k` tiles combined
  with the one over the new tile. Over no tile the index set is empty, and `K` tiles with `T·K = N` hold every point.
-/
import Mathlib

namespace Cert.LibTileAgg

open Finset

variable {N T k : ℕ}

/-- A map that sends `a` to the point `T·k + a` is injective. -/
theorem tile_injective (e : Fin T → Fin N) (he : ∀ a, (e a).val = T * k + a.val) : Function.Injective e := by
  intro a b hab
  have h := congrArg Fin.val hab
  rw [he, he] at h
  exact Fin.ext (by omega)

/-- The points below `T·(k + 1)` are the points below `T·k` together with tile `k`. -/
theorem filter_succ (e : Fin T → Fin N) (he : ∀ a, (e a).val = T * k + a.val) :
    (univ.filter fun n : Fin N => n.val < T * (k + 1))
      = (univ.filter fun n : Fin N => n.val < T * k) ∪ univ.image e := by
  ext n
  simp only [mem_filter, mem_univ, true_and, mem_union, mem_image]
  constructor
  · intro hn
    by_cases h : n.val < T * k
    · exact Or.inl h
    · have hlt : n.val - T * k < T := by rw [Nat.mul_succ] at hn; omega
      refine Or.inr ⟨⟨n.val - T * k, hlt⟩, Fin.ext ?_⟩
      rw [he]
      show T * k + (n.val - T * k) = n.val
      omega
  · rintro (h | ⟨a, rfl⟩)
    · rw [Nat.mul_succ]; omega
    · rw [he, Nat.mul_succ]; have := a.isLt; omega

/-- Tile `k` holds no point below `T·k`. -/
theorem disjoint_tile (e : Fin T → Fin N) (he : ∀ a, (e a).val = T * k + a.val) :
    Disjoint (univ.filter fun n : Fin N => n.val < T * k) (univ.image e) := by
  rw [Finset.disjoint_left]
  intro n hn hn'
  simp only [mem_filter, mem_univ, true_and] at hn
  simp only [mem_image, mem_univ, true_and] at hn'
  obtain ⟨a, rfl⟩ := hn'
  rw [he] at hn
  omega

/-- The supremum over the first `k + 1` tiles is the supremum over the first `k` joined with the one over tile `k`. -/
theorem sup_succ' {α : Type*} [SemilatticeSup α] [OrderBot α] (f : Fin N → α) (e : Fin T → Fin N)
    (he : ∀ a, (e a).val = T * k + a.val) :
    ((univ.filter fun n : Fin N => n.val < T * k).sup f) ⊔ (univ.sup fun a : Fin T => f (e a))
      = (univ.filter fun n : Fin N => n.val < T * (k + 1)).sup f := by
  rw [filter_succ e he, Finset.sup_union, Finset.sup_image]
  rfl

/-- The infimum over the first `k + 1` tiles is the infimum over the first `k` met with the one over tile `k`. -/
theorem inf_succ' {α : Type*} [SemilatticeInf α] [OrderTop α] (f : Fin N → α) (e : Fin T → Fin N)
    (he : ∀ a, (e a).val = T * k + a.val) :
    ((univ.filter fun n : Fin N => n.val < T * k).inf f) ⊓ (univ.inf fun a : Fin T => f (e a))
      = (univ.filter fun n : Fin N => n.val < T * (k + 1)).inf f := by
  rw [filter_succ e he, Finset.inf_union, Finset.inf_image]
  rfl

/-- In a complete linear order: the running maximum over the first `k` tiles, extended by tile `k`. -/
theorem sup_succ {α : Type*} [CompleteLinearOrder α] (f : Fin N → α) (e : Fin T → Fin N)
    (he : ∀ a, (e a).val = T * k + a.val) :
    max ((univ.filter fun n : Fin N => n.val < T * k).sup f) (univ.sup fun a : Fin T => f (e a))
      = (univ.filter fun n : Fin N => n.val < T * (k + 1)).sup f := by
  exact sup_succ' f e he

/-- In a complete linear order: the running minimum over the first `k` tiles, extended by tile `k`. -/
theorem inf_succ {α : Type*} [CompleteLinearOrder α] (f : Fin N → α) (e : Fin T → Fin N)
    (he : ∀ a, (e a).val = T * k + a.val) :
    min ((univ.filter fun n : Fin N => n.val < T * k).inf f) (univ.inf fun a : Fin T => f (e a))
      = (univ.filter fun n : Fin N => n.val < T * (k + 1)).inf f := by
  exact inf_succ' f e he

/-- The running sum over the first `k` tiles, extended by tile `k`. -/
theorem sum_succ {M : Type*} [AddCommMonoid M] (f : Fin N → M) (e : Fin T → Fin N)
    (he : ∀ a, (e a).val = T * k + a.val) :
    (∑ n ∈ univ.filter fun n : Fin N => n.val < T * k, f n) + ∑ a : Fin T, f (e a)
      = ∑ n ∈ univ.filter fun n : Fin N => n.val < T * (k + 1), f n := by
  rw [filter_succ e he, Finset.sum_union (disjoint_tile e he),
    Finset.sum_image fun a _ b _ hab => tile_injective e he hab]

/-- Before the first tile there is no point. -/
theorem filter_zero : (univ.filter fun n : Fin N => n.val < T * 0) = ∅ := by
  ext n
  simp

/-- `K` tiles with `T·K = N` hold every point. -/
theorem filter_all {K : ℕ} (hK : T * K = N) : (univ.filter fun n : Fin N => n.val < T * K) = univ := by
  ext n
  simp only [mem_filter, mem_univ, true_and, iff_true]
  rw [hK]
  exact n.isLt

end Cert.LibTileAgg
-- ==== Proof.TileGlobal.lean ====
/-
  One tile of 1024 consecutive points, in terms of the global per-point quantities.

  When the seven blocks a tile sees are the corresponding pieces of the four argument arrays — the tile's points,
  the transposed means and standard deviations, the additive term `−Σ_d log σ − c` of the log-density with `c` a
  real constant, the weights and the two scales — the tile's standardised deviation, posterior weight and
  per-point terms are the global ones at the point `1024·k + n`. The additive real constant `c` disappears from the
  posterior weight, which is a quotient of exponentials.

  A running maximum, minimum or sum over the first `k` tiles (`part`), updated by tile `k`, is the one over the
  first `k + 1` tiles; over no tile it is the neutral element, and over all eight tiles it is the statistic over
  the 8192 points. Hence the accumulators after `k` tiles are the partial statistics of the global per-point terms
  (`accG0`, `accG1`, `accG2`), a tile advances them from `k` to `k + 1`, and after the last tile they are the raw
  statistics with the scale applied point by point.
-/
import proofs.«113572_j78245714199386_1_alg».proof.Proof.TileSpec
import proofs.«113572_j78245714199386_1_alg».proof.Proof.Algebra
import proofs.«113572_j78245714199386_1_alg».proof.Proof.LibTileAgg

noncomputable section

namespace Cert.Fisher.Tile

open Idealize.ShloMosaic Idealize.ShloMosaic.ValueIdx Cert.Fisher Cert.LibTileAgg

/-- Point `n` of tile `k` among the 8192 points of a batch. -/
def pt (k : ℕ) (hk : k < 8) (n : Fin 1024) : Fin 8192 := ⟨1024 * k + n.val, by omega⟩

theorem pt_val (k : ℕ) (hk : k < 8) (n : Fin 1024) : (pt k hk n).val = 1024 * k + n.val := rfl

/-- The seven blocks of tile `k` of batch `b` are the corresponding pieces of the argument arrays. -/
structure IsTile (P : Pts) (W : Wts) (M Sg : Cmp) (b : Fin 16) (k : ℕ) (hk : k < 8)
    (x0 : TPts) (x1 x2 : T3) (x3 x4 x5 x6 : TRow) : Prop where
  h0 : ∀ (n : Fin 1024) (d : Fin 3), x0 (ix3 0 n d) = P (ix3 b (pt k hk n) d)
  h1 : ∀ (d : Fin 3) (g : Fin 125), x1 (ix2 d g) = M (ix2 g d)
  h2 : ∀ (d : Fin 3) (g : Fin 125), x2 (ix2 d g) = Sg (ix2 g d)
  h3 : ∀ g : Fin 125, x3 (ix2 0 g)
      = -(cZero + ∑ d : Fin 3, Ideal.log (Sg (ix2 g d))) - Ideal.ofBits .f32 0x40306FAB#32
  h4 : ∀ g : Fin 125, x4 (ix2 0 g) = W (ix1 g)
  h5 : ∀ g : Fin 125, x5 (ix2 0 g) = scMu W g
  h6 : ∀ g : Fin 125, x6 (ix2 0 g) = scSg W g

section PerPoint

variable {P : Pts} {W : Wts} {M Sg : Cmp} {b : Fin 16} {k : ℕ} {hk : k < 8}
  {x0 : TPts} {x1 x2 : T3} {x3 x4 x5 x6 : TRow}

/-- The tile's standardised deviation is the global one at the tile's point. -/
theorem tdev_eq (h : IsTile P W M Sg b k hk x0 x1 x2 x3 x4 x5 x6) (n : Fin 1024) (g : Fin 125) (d : Fin 3) :
    tdev x0 x1 x2 n g d = dev P M Sg b (pt k hk n) g d := by
  unfold tdev dev
  rw [h.h0, h.h1, h.h2]

/-- The tile's log-density is the global one less the real constant of its additive term. -/
theorem tlogp_eq (h : IsTile P W M Sg b k hk x0 x1 x2 x3 x4 x5 x6) (s : ℝ)
    (hs : Ideal.ofBits .f32 0x40306FAB#32 = (s : EReal)) (n : Fin 1024) (g : Fin 125) :
    tlogp x0 x1 x2 x3 n g = logp0 P M Sg b (pt k hk n) g + -(s : EReal) := by
  unfold tlogp logp0 sq lsig
  rw [h.h3, tdev_eq h, tdev_eq h, tdev_eq h,
    Fin.sum_univ_three (fun d => dev P M Sg b (pt k hk n) g d * dev P M Sg b (pt k hk n) g d), cZero_eq, zero_add, hs,
    sub_eq_add_neg]
  exact (add_assoc _ _ _).symm

/-- The tile's posterior weight is the global one: the real constant cancels in the quotient. -/
theorem tQ_eq (h : IsTile P W M Sg b k hk x0 x1 x2 x3 x4 x5 x6) (n : Fin 1024) (g : Fin 125) :
    tQ x0 x1 x2 x3 x4 n g = resp P W M Sg b (pt k hk n) g := by
  obtain ⟨s, hs⟩ := shiftK_real
  unfold tQ resp
  simp only [tlogp_eq h s hs, h.h4]
  exact resp_shift (fun g' => logp0 P M Sg b (pt k hk n) g') (fun g' => W (ix1 g')) s g

/-- The tile's mixing-weight term. -/
theorem tPi_eq (h : IsTile P W M Sg b k hk x0 x1 x2 x3 x4 x5 x6) (n : Fin 1024) (g : Fin 125) :
    tPi x0 x1 x2 x3 x4 x5 n g = (resp P W M Sg b (pt k hk n) g - W (ix1 g)) * scMu W g := by
  unfold tPi
  rw [tQ_eq h, h.h4, h.h5]

/-- The tile's mean term. -/
theorem tMu_eq (h : IsTile P W M Sg b k hk x0 x1 x2 x3 x4 x5 x6) (n : Fin 1024) (g : Fin 125) (d : Fin 3) :
    tMu x0 x1 x2 x3 x4 x5 n g d
      = resp P W M Sg b (pt k hk n) g * dev P M Sg b (pt k hk n) g d * scMu W g := by
  unfold tMu
  rw [tQ_eq h, tdev_eq h, h.h5]

/-- The tile's deviation term. -/
theorem tSg_eq (h : IsTile P W M Sg b k hk x0 x1 x2 x3 x4 x5 x6) (n : Fin 1024) (g : Fin 125) (d : Fin 3) :
    tSg x0 x1 x2 x3 x4 x6 n g d
      = resp P W M Sg b (pt k hk n) g
          * (dev P M Sg b (pt k hk n) g d * dev P M Sg b (pt k hk n) g d - cOne) * scSg W g := by
  unfold tSg
  rw [tQ_eq h, tdev_eq h, h.h6]

end PerPoint

/-! ## The running statistics over the first `k` tiles -/

/-- The maximum, minimum or sum of `f` over the points of the first `k` tiles. -/
def part (stat : Fin 3) (k : ℕ) (f : Fin 8192 → EReal) : EReal :=
  match stat with
  | 0 => (Finset.univ.filter fun n : Fin 8192 => n.val < 1024 * k).sup f
  | 1 => (Finset.univ.filter fun n : Fin 8192 => n.val < 1024 * k).inf f
  | 2 => ∑ n ∈ Finset.univ.filter fun n : Fin 8192 => n.val < 1024 * k, f n

theorem part_zero_max (f : Fin 8192 → EReal) : part 0 0 f = Ideal.ofBits .f32 0xFF800000#32 := by
  show (Finset.univ.filter fun n : Fin 8192 => n.val < 1024 * 0).sup f = _
  rw [filter_zero, Finset.sup_empty, negInf_eq]

theorem part_zero_min (f : Fin 8192 → EReal) : part 1 0 f = Ideal.ofBits .f32 0x7F800000#32 := by
  show (Finset.univ.filter fun n : Fin 8192 => n.val < 1024 * 0).inf f = _
  rw [filter_zero, Finset.inf_empty, posInf_eq]

theorem part_zero_sum (f : Fin 8192 → EReal) : part 2 0 f = cZero := by
  show (∑ n ∈ Finset.univ.filter fun n : Fin 8192 => n.val < 1024 * 0, f n) = _
  rw [filter_zero, Finset.sum_empty, cZero_eq]

/-- Tile `k` extends the statistic over the first `k` tiles to the one over the first `k + 1`. -/
theorem upd_part (stat : Fin 3) (k : ℕ) (hk : k < 8) (f : Fin 8192 → EReal) :
    upd stat (part stat k f) (fun n => f (pt k hk n)) = part stat (k + 1) f :=
  match stat with
  | 0 => sup_succ f (pt k hk) (fun _ => rfl)
  | 1 => inf_succ f (pt k hk) (fun _ => rfl)
  | 2 => sum_succ f (pt k hk) (fun _ => rfl)

/-- Eight tiles hold every point. -/
theorem part_eight (stat : Fin 3) (f : Fin 8192 → EReal) : part stat 8 f = agg stat f :=
  match stat with
  | 0 => by
    show (Finset.univ.filter fun n : Fin 8192 => n.val < 1024 * 8).sup f = Finset.univ.sup f
    rw [filter_all (by norm_num : 1024 * 8 = 8192)]
  | 1 => by
    show (Finset.univ.filter fun n : Fin 8192 => n.val < 1024 * 8).inf f = Finset.univ.inf f
    rw [filter_all (by norm_num : 1024 * 8 = 8192)]
  | 2 => by
    show (∑ n ∈ Finset.univ.filter fun n : Fin 8192 => n.val < 1024 * 8, f n) = ∑ n, f n
    rw [filter_all (by norm_num : 1024 * 8 = 8192)]

/-! ## The accumulators after `k` tiles, as functions of the argument arrays -/

section Acc

variable (P : Pts) (W : Wts) (M Sg : Cmp)

/-- The two-row accumulator after `k` tiles: the partial maximum and the partial sum of the weight terms. -/
def accG0 (b : Fin 16) (k : ℕ) : Acc2 := fun y =>
  if (y 0).val = 0 then part 0 k (fun n => (resp P W M Sg b n (y 1) - W (ix1 (y 1))) * scMu W (y 1))
  else part 2 k (fun n => (resp P W M Sg b n (y 1) - W (ix1 (y 1))) * scMu W (y 1))

/-- The nine-row accumulator of the mean terms after `k` tiles. -/
def accG1 (b : Fin 16) (k : ℕ) : Acc9 := fun y =>
  part (statOf (y 0)) k (fun n => resp P W M Sg b n (y 1) * dev P M Sg b n (y 1) (coordOf (y 0)) * scMu W (y 1))

/-- The nine-row accumulator of the deviation terms after `k` tiles. -/
def accG2 (b : Fin 16) (k : ℕ) : Acc9 := fun y =>
  part (statOf (y 0)) k (fun n => resp P W M Sg b n (y 1)
    * (dev P M Sg b n (y 1) (coordOf (y 0)) * dev P M Sg b n (y 1) (coordOf (y 0)) - cOne) * scSg W (y 1))

theorem init0_eq (b : Fin 16) : init0 = accG0 P W M Sg b 0 := by
  funext y
  unfold init0 accG0
  by_cases h0 : (y 0).val = 0
  · rw [if_pos h0, if_pos h0, part_zero_max]
  · rw [if_neg h0, if_neg h0, part_zero_sum]

/-- Rows 0–2 start at −∞, rows 3–5 at +∞, rows 6–8 at 0: the statistic over no point. -/
theorem init9_eq_part (y : (⟨2, ![9, 125]⟩ : Shape).Idx) (f : Fin 8192 → EReal) :
    init9 y = part (statOf (y 0)) 0 f := by
  have h9 : (y 0).val < 9 := (y 0).isLt
  have h3 : (y 0).val / 3 = 0 ∨ (y 0).val / 3 = 1 ∨ (y 0).val / 3 = 2 := by omega
  unfold init9
  rcases h3 with h | h | h
  · have hs : statOf (y 0) = 0 := Fin.ext h
    rw [hs, if_pos (by omega), part_zero_max]
  · have hs : statOf (y 0) = 1 := Fin.ext h
    rw [hs, if_neg (by omega), if_pos (by omega), part_zero_min]
  · have hs : statOf (y 0) = 2 := Fin.ext h
    rw [hs, if_neg (by omega), if_neg (by omega), part_zero_sum]

theorem init9_eq1 (b : Fin 16) : init9 = accG1 P W M Sg b 0 := by
  funext y
  exact init9_eq_part y _

theorem init9_eq2 (b : Fin 16) : init9 = accG2 P W M Sg b 0 := by
  funext y
  exact init9_eq_part y _

variable {P W M Sg} {b : Fin 16} {k : ℕ} {hk : k < 8} {x0 : TPts} {x1 x2 : T3} {x3 x4 x5 x6 : TRow}

/-- A tile advances the two-row accumulator from `k` to `k + 1` tiles. -/
theorem step0_eq (h : IsTile P W M Sg b k hk x0 x1 x2 x3 x4 x5 x6) :
    step0 x0 x1 x2 x3 x4 x5 (accG0 P W M Sg b k) = accG0 P W M Sg b (k + 1) := by
  funext y
  have e : (fun n => tPi x0 x1 x2 x3 x4 x5 n (y 1))
      = fun n => (resp P W M Sg b (pt k hk n) (y 1) - W (ix1 (y 1))) * scMu W (y 1) :=
    funext fun n => tPi_eq h n (y 1)
  unfold step0 accG0
  by_cases h0 : (y 0).val = 0
  · rw [if_pos h0, if_pos h0, if_pos h0, e]
    exact upd_part 0 k hk (fun n => (resp P W M Sg b n (y 1) - W (ix1 (y 1))) * scMu W (y 1))
  · rw [if_neg h0, if_neg h0, if_neg h0, e]
    exact upd_part 2 k hk (fun n => (resp P W M Sg b n (y 1) - W (ix1 (y 1))) * scMu W (y 1))

/-- A tile advances the accumulator of the mean terms. -/
theorem step1_eq (h : IsTile P W M Sg b k hk x0 x1 x2 x3 x4 x5 x6) :
    step1 x0 x1 x2 x3 x4 x5 (accG1 P W M Sg b k) = accG1 P W M Sg b (k + 1) := by
  funext y
  exact (congrArg (upd (statOf (y 0)) (accG1 P W M Sg b k y))
      (funext fun n => tMu_eq h n (y 1) (coordOf (y 0)))).trans
    (upd_part (statOf (y 0)) k hk
      (fun n => resp P W M Sg b n (y 1) * dev P M Sg b n (y 1) (coordOf (y 0)) * scMu W (y 1)))

/-- A tile advances the accumulator of the deviation terms. -/
theorem step2_eq (h : IsTile P W M Sg b k hk x0 x1 x2 x3 x4 x5 x6) :
    step2 x0 x1 x2 x3 x4 x6 (accG2 P W M Sg b k) = accG2 P W M Sg b (k + 1) := by
  funext y
  exact (congrArg (upd (statOf (y 0)) (accG2 P W M Sg b k y))
      (funext fun n => tSg_eq h n (y 1) (coordOf (y 0)))).trans
    (upd_part (statOf (y 0)) k hk
      (fun n => resp P W M Sg b n (y 1)
        * (dev P M Sg b n (y 1) (coordOf (y 0)) * dev P M Sg b n (y 1) (coordOf (y 0)) - cOne) * scSg W (y 1)))

variable (P W M Sg) (b)

/-- After the eighth tile the two-row accumulator holds the mixing-weight statistics, scaled point by point. -/
theorem accG0_eight (r : Fin 2) (g : Fin 125) : accG0 P W M Sg b 8 (ix2 r g) = rawPiK P W M Sg b r g := by
  show (if r.val = 0 then part 0 8 (fun n => (resp P W M Sg b n g - W (ix1 g)) * scMu W g)
      else part 2 8 (fun n => (resp P W M Sg b n g - W (ix1 g)) * scMu W g))
    = aggPi r (fun n => (resp P W M Sg b n g - W (ix1 g)) * scMu W g)
  have h2 : r.val = 0 ∨ r.val = 1 := by omega
  rcases h2 with h | h
  · have hr : r = 0 := Fin.ext h
    rw [if_pos h, part_eight, hr]
    rfl
  · have hr : r = 1 := Fin.ext h
    rw [if_neg (by omega), part_eight, hr]
    rfl

/-- After the eighth tile the accumulator of the mean terms holds the mean statistics, scaled point by point. -/
theorem accG1_eight (r : Fin 9) (g : Fin 125) : accG1 P W M Sg b 8 (ix2 r g) = rawMuK P W M Sg b r g :=
  part_eight (statOf r) _

/-- After the eighth tile the accumulator of the deviation terms holds the deviation statistics, scaled point by point. -/
theorem accG2_eight (r : Fin 9) (g : Fin 125) : accG2 P W M Sg b 8 (ix2 r g) = rawSgK P W M Sg b r g :=
  part_eight (statOf r) _

end Acc

/-! ## The power normalisation as the body writes it -/

theorem pwK_eq (x : EReal) : pwK x = pw x := by
  unfold pwK
  rw [pw_eq_sqrt, sign_eq_select, negOne_eq, cOne_eq]

theorem normRowK_eq (v : Fin 125 → EReal) (g : Fin 125) : normRowK v g = normRow v g := by
  unfold normRowK normRow
  simp only [pwK_eq]

end Cert.Fisher.Tile

end
-- ==== Proof.KTileQ.lean ====
/-
  The body's arithmetic for one tile, read at one point and one component: the standardised deviations, the
  posterior weight, the weight term and what a tile adds to the two-row accumulator.
-/
import proofs.«113572_j78245714199386_1_alg».proof.Proof.Gen.KernelIdeal.Skeleton
import proofs.«113572_j78245714199386_1_alg».proof.Proof.TileSpec
import proofs.«113572_j78245714199386_1_alg».proof.Proof.Algebra
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileValue

open Idealize.ShloMosaic Idealize.ShloMosaic.ValueIdx Idealize.SL.Sem
open Cert.KernelIdeal Cert.KernelIdeal.Gen Cert.Fisher Cert.Fisher.Tile

/-! ## Layout at an index -/

/-- Row `d` of an `[R, 125]` array, loaded as a `[1, 125]` vector, reads the array at `(d, g)`. -/
theorem ld_row {R : Nat} (x : Vec Ideal ⟨2, ![R, 125]⟩ .f32) (d : Nat) (hd : d < R)
    (inb : ∀ a, (![d, 0] : Fin 2 → Nat) a + (![1, 125] : Fin 2 → Nat) a ≤ (⟨2, ![R, 125]⟩ : Shape).size a)
    (g : Fin 125) :
    View.ld x (Rect.unit ![d, 0] ![1, 125] inb) (ix2 0 g) = x (ix2 ⟨d, hd⟩ g) := by
  show x _ = x _
  refine congrArg x (funext fun a => Fin.ext ?_)
  match a with
  | ⟨0, _⟩ => show d + 1 * 0 = d; omega
  | ⟨1, _⟩ => show 0 + 1 * g.val = g.val; omega

/-- The three rows of a `[3, 125]` block. -/
theorem ld_row3_0 (x : Vec Ideal S3x125 .f32) (g : Fin 125) : (View.ld x (Rect.unit ![0, 0] ![1, 125] inb_S3x125_S1x125_0_0)) (ix2 0 g) = x (ix2 0 g) :=
  ld_row x 0 (by omega) _ g
theorem ld_row3_1 (x : Vec Ideal S3x125 .f32) (g : Fin 125) : (View.ld x (Rect.unit ![1, 0] ![1, 125] inb_S3x125_S1x125_1_0)) (ix2 0 g) = x (ix2 1 g) :=
  ld_row x 1 (by omega) _ g
theorem ld_row3_2 (x : Vec Ideal S3x125 .f32) (g : Fin 125) : (View.ld x (Rect.unit ![2, 0] ![1, 125] inb_S3x125_S1x125_2_0)) (ix2 0 g) = x (ix2 2 g) :=
  ld_row x 2 (by omega) _ g

/-- A column broadcast along the rows reads its entry of the same row. -/
theorem bcast_col {α : Type} (v : S1024x1.Idx → α) (h : S1024x1.Broadcasts S1024x125) (n : Fin 1024) (g : Fin 125) :
    broadcastTo S1024x125 v h (ix2 n g) = v (ix2 n 0) := by
  refine broadcastTo_apply v h (ix2 n g) (ix2 n 0) fun ax => ?_
  match ax with
  | ⟨0, _⟩ => rfl
  | ⟨1, _⟩ => rfl

/-- A row broadcast along the columns reads its entry of the same column. -/
theorem bcast_row {α : Type} (v : S1x125.Idx → α) (h : S1x125.Broadcasts S1024x125) (n : Fin 1024) (g : Fin 125) :
    broadcastTo S1024x125 v h (ix2 n g) = v (ix2 0 g) :=
  broadcastTo_1b_ab_apply v h n g

/-- A vector of 1024 entries read as a column. -/
theorem cast_col {α : Type} (v : S1024.Idx → α) (h : S1024.ShapeCasts S1024x1) (n : Fin 1024) :
    shapeCast S1024x1 v h (ix2 n 0) = v (ix1 n) :=
  shapeCast_apply v h _ _ (by
    rw [Shape.rowMajor_val_two, Shape.rowMajor_val_one]
    show n.val = n.val * 1 + 0
    omega)

/-- A vector of 125 entries read as a row. -/
theorem cast_row {α : Type} (v : S125.Idx → α) (h : S125.ShapeCasts S1x125) (g : Fin 125) :
    shapeCast S1x125 v h (ix2 0 g) = v (ix1 g) :=
  shapeCast_a_1a_apply v h 0 g

/-- The tile's points without their leading unit axis. -/
theorem pay16_apply (x0 : Vec Ideal S1x1024x3 .f32) (n : Fin 1024) (d : Fin 3) :
    k0_pay16 (F := Ideal) x0 (ix2 n d) = x0 (ix3 0 n d) :=
  shapeCast_1ab_ab_apply x0 _ n d

/-- Column `c` of the points, as a `[1024, 1]` slice. -/
theorem slice_col (v : FVec Ideal S1024x3 .f32) (c : Nat) (hc : c < 3) (h : S1024x3.Slices ![0, c] S1024x1) (n : Fin 1024) :
    extractStridedSlice S1024x1 ![0, c] v h (ix2 n 0) = v (ix2 n ⟨c, hc⟩) :=
  slice2_axis1_apply c v h n 0 ⟨c, hc⟩ rfl

/-- The index a reduction over the points inserts. -/
theorem lift_pts (j : S125.Idx) (n : Fin 1024) :
    reduces_S1024x125_S125.lift j n = ix2 n (j 0) := by
  funext a; match a with | ⟨0, _⟩ => rfl | ⟨1, _⟩ => rfl

/-- The index a reduction over the components inserts. -/
theorem lift_cmp (j : S1024.Idx) (g : Fin 125) :
    reduces_S1024x125_S1024.lift j g = ix2 (j 0) g := by
  funext a; match a with | ⟨0, _⟩ => rfl | ⟨1, _⟩ => rfl

/-! ## The standardised deviations -/

/-- The shape of the three deviation computations: a column of the points minus a row, over a row. -/
theorem dev_shape (v4 : FVec Ideal S1024x3 .f32) (c : Nat) (hc : c < 3) (hs : S1024x3.Slices ![0, c] S1024x1)
    (a b : Vec Ideal S1x125 .f32) (n : Fin 1024) (g : Fin 125) :
    divf (subf (broadcastTo S1024x125 (extractStridedSlice S1024x1 ![0, c] v4 hs) broadcasts_S1024x1_S1024x125)
        (broadcastTo S1024x125 (shapeCast S1x125 a shapeCasts_S1x125_S1x125) broadcasts_S1x125_S1024x125))
      (broadcastTo S1024x125 (shapeCast S1x125 b shapeCasts_S1x125_S1x125) broadcasts_S1x125_S1024x125) (ix2 n g)
      = Ideal.div (v4 (ix2 n ⟨c, hc⟩) - a (ix2 0 g)) (b (ix2 0 g)) := by
  rw [divf_apply, subf_apply, bcast_col, bcast_row, bcast_row, shapeCast_self, shapeCast_self, slice_col v4 c hc]

theorem pay21_apply (x0 : Vec Ideal S1x1024x3 .f32) (x1 x2 : Vec Ideal S3x125 .f32) (n : Fin 1024) (g : Fin 125) :
    k0_pay21 (F := Ideal) x0 (View.ld x1 (Rect.unit ![0, 0] ![1, 125] inb_S3x125_S1x125_0_0)) (View.ld x2 (Rect.unit ![0, 0] ![1, 125] inb_S3x125_S1x125_0_0)) (ix2 n g) = tdev x0 x1 x2 n g 0 := by
  unfold k0_pay21 tdev
  refine (dev_shape _ 0 (by omega) _ _ _ n g).trans ?_
  rw [pay16_apply, ld_row3_0, ld_row3_0]; rfl

theorem pay22_apply (x0 : Vec Ideal S1x1024x3 .f32) (x1 x2 : Vec Ideal S3x125 .f32) (n : Fin 1024) (g : Fin 125) :
    k0_pay22 (F := Ideal) x0 (View.ld x1 (Rect.unit ![1, 0] ![1, 125] inb_S3x125_S1x125_1_0)) (View.ld x2 (Rect.unit ![1, 0] ![1, 125] inb_S3x125_S1x125_1_0)) (ix2 n g) = tdev x0 x1 x2 n g 1 := by
  unfold k0_pay22 tdev
  refine (dev_shape _ 1 (by omega) _ _ _ n g).trans ?_
  rw [pay16_apply, ld_row3_1, ld_row3_1]; rfl

theorem pay24_apply (x0 : Vec Ideal S1x1024x3 .f32) (x1 x2 : Vec Ideal S3x125 .f32) (n : Fin 1024) (g : Fin 125) :
    k0_pay24 (F := Ideal) (k0_pay16 x0) (View.ld x1 (Rect.unit ![2, 0] ![1, 125] inb_S3x125_S1x125_2_0)) (View.ld x2 (Rect.unit ![2, 0] ![1, 125] inb_S3x125_S1x125_2_0)) (ix2 n g) = tdev x0 x1 x2 n g 2 := by
  unfold k0_pay24 tdev
  refine (dev_shape _ 2 (by omega) _ _ _ n g).trans ?_
  rw [pay16_apply, ld_row3_2, ld_row3_2]; rfl

/-! ## The posterior weight -/

/-- The exponential of a vector, at an index. -/
theorem exp_apply {s : Shape} {φ : FTy} (v : FVec Ideal s φ) (i : s.Idx) : exp v i = Ideal.exp (v i) := rfl

/-- The unnormalised posterior term `exp(logp) · w` of every point and component, as the body computes it. -/
def numer (x0 : Vec Ideal S1x1024x3 .f32) (x1 x2 : Vec Ideal S3x125 .f32) (x3 x4 : Vec Ideal S1x125 .f32) : FVec Ideal S1024x125 .f32 :=
  (mulf (exp (addf (mulf (broadcast S1024x125 (Scalar.ofBits (F := Ideal) .f32 0xBF000000#32))
        (addf (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (mulf (k0_pay24 (k0_pay16 x0) (View.ld x1 (Rect.unit ![2, 0] ![1, 125] inb_S3x125_S1x125_2_0)) (View.ld x2 (Rect.unit ![2, 0] ![1, 125] inb_S3x125_S1x125_2_0))) (k0_pay24 (k0_pay16 x0) (View.ld x1 (Rect.unit ![2, 0] ![1, 125] inb_S3x125_S1x125_2_0)) (View.ld x2 (Rect.unit ![2, 0] ![1, 125] inb_S3x125_S1x125_2_0))))))
      (broadcastTo S1024x125 (k0_pay18 x3) broadcasts_S1x125_S1024x125)))
    (broadcastTo S1024x125 (k0_pay17 x4) broadcasts_S1x125_S1024x125))

/-- Read at a point and a component it is `exp` of the log-density times the weight. -/
theorem numer_apply (x0 : Vec Ideal S1x1024x3 .f32) (x1 x2 : Vec Ideal S3x125 .f32) (x3 x4 : Vec Ideal S1x125 .f32) (n : Fin 1024) (g : Fin 125) :
    numer x0 x1 x2 x3 x4 (ix2 n g) = Ideal.exp (tlogp x0 x1 x2 x3 n g) * x4 (ix2 0 g) := by
  unfold numer tlogp k0_pay23 k0_pay18 k0_pay17
  dsimp only
  rw [mulf_apply, bcast_row, shapeCast_self x4, exp_apply]
  refine congrArg (fun t => Ideal.exp t * x4 (ix2 0 g)) ?_
  rw [addf_apply, bcast_row, shapeCast_self x3, mulf_apply, addf_apply, addf_apply, mulf_apply, mulf_apply, mulf_apply,
    pay21_apply, pay22_apply, pay24_apply]
  rfl

/-- The posterior weight is the term over its sum across the components. -/
theorem pay25_eq (x0 : Vec Ideal S1x1024x3 .f32) (x1 x2 : Vec Ideal S3x125 .f32) (x3 x4 : Vec Ideal S1x125 .f32) :
    k0_pay25 (F := Ideal) (k0_pay16 x0) (k0_pay17 x4) (k0_pay18 x3) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0))
      = divf (numer x0 x1 x2 x3 x4)
          (broadcastTo S1024x125 (shapeCast S1024x1
            (multiReduction .add [1] S1024 (numer x0 x1 x2 x3 x4) 0x00000000#32 reduces_S1024x125_S1024 (.inl rfl) rfl)
            shapeCasts_S1024_S1024x1) broadcasts_S1024x1_S1024x125) := rfl

theorem pay25_apply (x0 : Vec Ideal S1x1024x3 .f32) (x1 x2 : Vec Ideal S3x125 .f32) (x3 x4 : Vec Ideal S1x125 .f32) (n : Fin 1024) (g : Fin 125) :
    k0_pay25 (F := Ideal) (k0_pay16 x0) (k0_pay17 x4) (k0_pay18 x3) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0)) (ix2 n g) = tQ x0 x1 x2 x3 x4 n g := by
  rw [pay25_eq, divf_apply, bcast_col, cast_col, numer_apply]
  unfold tQ
  refine congrArg (Ideal.div _) ?_
  refine (Ideal.multiReduction_add_single (numer x0 x1 x2 x3 x4) _ reduces_S1024x125_S1024 _ _ (ix1 n)).trans ?_
  refine Finset.sum_congr rfl fun (g' : Fin 125) _ => ?_
  rw [lift_cmp]
  exact numer_apply x0 x1 x2 x3 x4 n g'

/-! ## The weight term and the two-row accumulator -/

theorem pay26_apply (x0 : Vec Ideal S1x1024x3 .f32) (x1 x2 : Vec Ideal S3x125 .f32) (x3 x4 : Vec Ideal S1x125 .f32) (x5 : Vec Ideal S1x125 .f32) (n : Fin 1024) (g : Fin 125) :
    k0_pay26 (F := Ideal) (k0_pay16 x0) (k0_pay17 x4) (k0_pay18 x3) (k0_pay19 x5) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0)) (ix2 n g) = tPi x0 x1 x2 x3 x4 x5 n g := by
  unfold k0_pay26 tPi
  rw [mulf_apply, subf_apply, pay25_apply, bcast_row, bcast_row]
  unfold k0_pay17 k0_pay19
  rw [shapeCast_self, shapeCast_self]

/-- A fold of `max` from `-∞` over all of a finite index set is the supremum. -/
theorem fold_max_bot {N : Nat} (f : Fin N → EReal) : (Finset.univ : Finset (Fin N)).fold max ⊥ f = Finset.univ.sup f := rfl

/-- Row 0: the running maximum of the weight term. -/
theorem pay27_apply (x0 : Vec Ideal S1x1024x3 .f32) (x1 x2 : Vec Ideal S3x125 .f32) (x3 x4 : Vec Ideal S1x125 .f32) (x5 acc : Vec Ideal S1x125 .f32) (g : Fin 125) :
    k0_pay27 (F := Ideal) (k0_pay16 x0) (k0_pay17 x4) (k0_pay18 x3) (k0_pay19 x5) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0)) acc (ix2 0 g) = upd 0 (acc (ix2 0 g)) (fun n => tPi x0 x1 x2 x3 x4 x5 n g) := by
  unfold k0_pay27
  rw [shapeCast_self, maximumf_apply, cast_row]
  refine congrArg (max (acc (ix2 0 g))) ?_
  refine (Ideal.multiReduction_maximumf_single _ _ reduces_S1024x125_S125 _ _ (ix1 g)).trans ?_
  rw [Ideal.ofBits_def, negInf_eq, fold_max_bot]
  refine congrArg (Finset.sup Finset.univ) (funext fun (n : Fin 1024) => ?_)
  show k0_pay26 (F := Ideal) (k0_pay16 x0) (k0_pay17 x4) (k0_pay18 x3) (k0_pay19 x5) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0)) (reduces_S1024x125_S125.lift (ix1 g) n) = _
  rw [lift_pts]
  exact pay26_apply x0 x1 x2 x3 x4 x5 n g

/-- Row 1: the running sum of the weight term. -/
theorem pay28_apply (x0 : Vec Ideal S1x1024x3 .f32) (x1 x2 : Vec Ideal S3x125 .f32) (x3 x4 : Vec Ideal S1x125 .f32) (x5 acc : Vec Ideal S1x125 .f32) (g : Fin 125) :
    k0_pay28 (F := Ideal) (k0_pay16 x0) (k0_pay17 x4) (k0_pay18 x3) (k0_pay19 x5) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0)) acc (ix2 0 g) = upd 2 (acc (ix2 0 g)) (fun n => tPi x0 x1 x2 x3 x4 x5 n g) := by
  unfold k0_pay28
  rw [shapeCast_self, addf_apply, cast_row]
  refine congrArg (acc (ix2 0 g) + ·) ?_
  refine (Ideal.multiReduction_add_single _ _ reduces_S1024x125_S125 _ _ (ix1 g)).trans ?_
  refine Finset.sum_congr rfl fun (n : Fin 1024) _ => ?_
  rw [lift_pts]
  exact pay26_apply x0 x1 x2 x3 x4 x5 n g

end Cert.KernelIdeal.TileValue

end
-- ==== Proof.KRow.lean ====
/-
  Rows of a two-axis array of 125 columns: where a row's entries sit in the array, and what the contents left by
  a list of row writes read at an entry of a given row.
-/
import Idealize.ShloMosaic.Lib.ValueIdx
import Idealize.ShloMosaic.Lib.Pipeline.Value

noncomputable section

namespace Cert.KernelIdeal.TileValue

open Idealize.ShloMosaic Idealize.ShloMosaic.ValueIdx Idealize.SL.Sem

/-- Entry `g` of row `d` sits at `(d, g)`. -/
theorem emb_row {R : Nat} (d : Nat) (hd : d < R) (inb : ∀ a, (![d, 0] : Fin 2 → Nat) a + (![1, 125] : Fin 2 → Nat) a ≤ (⟨2, ![R, 125]⟩ : Shape).size a) (g : Fin 125) :
    (Rect.unit (s := ⟨2, ![R, 125]⟩) ![d, 0] ![1, 125] inb).emb (ix2 0 g) = ix2 ⟨d, hd⟩ g := by
  funext a
  refine Fin.ext ?_
  match a with
  | ⟨0, _⟩ => show d + 1 * 0 = d; omega
  | ⟨1, _⟩ => show 0 + 1 * g.val = g.val; omega

/-- An entry of another row is not in row `d`. -/
theorem not_mem_row {R : Nat} (d : Nat) (inb : ∀ a, (![d, 0] : Fin 2 → Nat) a + (![1, 125] : Fin 2 → Nat) a ≤ (⟨2, ![R, 125]⟩ : Shape).size a) (r : Fin R) (g : Fin 125) (h : r.val ≠ d) :
    ix2 r g ∉ (Rect.unit (s := ⟨2, ![R, 125]⟩) ![d, 0] ![1, 125] inb).set := by
  rw [Rect.mem_set_unit]
  intro hm
  have h0 := hm (⟨0, by decide⟩ : Fin 2)
  have h1 : d ≤ r.val ∧ r.val < d + 1 := h0
  omega

/-- After a last write to row `d`, an entry of row `d` reads that write's payload. -/
theorem canon_row_hit {Val : EltTy → Type} [∀ e, Nonempty (Val e)] {e : EltTy} {R : Nat} (d : Nat) (hd : d < R) (inb : ∀ a, (![d, 0] : Fin 2 → Nat) a + (![1, 125] : Fin 2 → Nat) a ≤ (⟨2, ![R, 125]⟩ : Shape).size a)
    (w : (Rect.unit (s := ⟨2, ![R, 125]⟩) ![d, 0] ![1, 125] inb).shape.Idx → Val e)
    (L : List (View.Piece Val ⟨2, ![R, 125]⟩ e)) (g : Fin 125) :
    View.canon (⟨Rect.unit (s := ⟨2, ![R, 125]⟩) ![d, 0] ![1, 125] inb, w⟩ :: L) (ix2 ⟨d, hd⟩ g) = w (ix2 0 g) := by
  rw [← emb_row d hd inb g]
  exact View.canon_cons_emb _ w L _

/-- After a last write to row `d`, an entry of another row reads what the earlier writes left. -/
theorem canon_row_miss {Val : EltTy → Type} [∀ e, Nonempty (Val e)] {e : EltTy} {R : Nat} (d : Nat) (inb : ∀ a, (![d, 0] : Fin 2 → Nat) a + (![1, 125] : Fin 2 → Nat) a ≤ (⟨2, ![R, 125]⟩ : Shape).size a)
    (w : (Rect.unit (s := ⟨2, ![R, 125]⟩) ![d, 0] ![1, 125] inb).shape.Idx → Val e)
    (L : List (View.Piece Val ⟨2, ![R, 125]⟩ e)) (r : Fin R) (g : Fin 125) (h : r.val ≠ d) :
    View.canon (⟨Rect.unit (s := ⟨2, ![R, 125]⟩) ![d, 0] ![1, 125] inb, w⟩ :: L) (ix2 r g) = View.canon L (ix2 r g) :=
  View.canon_cons_of_not_mem _ L (not_mem_row d inb r g h)

end Cert.KernelIdeal.TileValue

end
-- ==== Proof.KPiece0.lean ====
/-
  What one grid point leaves in the two-row accumulator (a running maximum and a running sum of the weight
  term): the accumulator it found, advanced by the tile; at a batch's first tile, the initial accumulator advanced.
-/
import proofs.«113572_j78245714199386_1_alg».proof.Proof.Gen.KernelIdeal.Frame
import proofs.«113572_j78245714199386_1_alg».proof.Proof.KTileQ
import proofs.«113572_j78245714199386_1_alg».proof.Proof.KRow
import Idealize.ShloMosaic.Lib.Pipeline.Value
import Idealize.ShloMosaic.Lib.Tactic

set_option maxRecDepth 16384

noncomputable section

namespace Cert.KernelIdeal.TileValue

open Idealize.ShloMosaic Idealize.ShloMosaic.TcCoe Idealize.ShloMosaic.Tactic Idealize.SL.Sem Idealize.ShloMosaic.ValueIdx
open Cert.KernelIdeal Cert.KernelIdeal.Gen Cert.Fisher Cert.Fisher.Tile

theorem hz2 : (![0, 0] : Fin 2 → Nat) = fun _ => 0 := funext fun a => by fin_cases a <;> rfl
theorem hz3 : (![0, 0, 0] : Fin 3 → Nat) = fun _ => 0 := funext fun a => by fin_cases a <;> rfl

/-- Entry `g` of row `d` is in row `d`. -/
theorem mem_row {R : Nat} (d : Nat) (hd : d < R)
    (inb : ∀ a, (![d, 0] : Fin 2 → Nat) a + (![1, 125] : Fin 2 → Nat) a ≤ (⟨2, ![R, 125]⟩ : Shape).size a) (g : Fin 125) :
    ix2 ⟨d, hd⟩ g ∈ (Rect.unit (s := ⟨2, ![R, 125]⟩) ![d, 0] ![1, 125] inb).set := by
  rw [← emb_row d hd inb g]
  exact LoadRect.idx_mem _ _

/-- Writes to both rows of a two-row array cover it. -/
theorem cover_rows2 {Val : EltTy → Type} {e : EltTy} (L : List (View.Piece Val S2x125 e))
    (w0 : (Rect.unit (s := S2x125) ![0, 0] ![1, 125] inb_S2x125_S1x125_0_0).shape.Idx → Val e) (w1 : (Rect.unit (s := S2x125) ![1, 0] ![1, 125] inb_S2x125_S1x125_1_0).shape.Idx → Val e)
    (h0 : (⟨(Rect.unit (s := S2x125) ![0, 0] ![1, 125] inb_S2x125_S1x125_0_0), w0⟩ : View.Piece Val S2x125 e) ∈ L)
    (h1 : (⟨(Rect.unit (s := S2x125) ![1, 0] ![1, 125] inb_S2x125_S1x125_1_0), w1⟩ : View.Piece Val S2x125 e) ∈ L) (y : S2x125.Idx) :
    ∃ p ∈ L, y ∈ p.1.set := by
  obtain ⟨r, g, rfl⟩ : ∃ (r : Fin 2) (g : Fin 125), y = ix2 r g := ⟨y 0, y 1, eq_ix2 y⟩
  fin_cases r
  · exact ⟨_, h0, mem_row 0 (by omega) inb_S2x125_S1x125_0_0 g⟩
  · exact ⟨_, h1, mem_row 1 (by omega) inb_S2x125_S1x125_1_0 g⟩

/-- A row loaded back after writes that cover the array reads what the writes left there. -/
theorem readCov_row {sig : RefSig} {κ : Kind} {sp : Space} {R : Nat} (v : View sig κ sp ⟨2, ![R, 125]⟩ .f32)
    (L : List (View.Piece (Elt Ideal) ⟨2, ![R, 125]⟩ .f32)) (d : Nat) (hd : d < R)
    (inb : ∀ a, (![d, 0] : Fin 2 → Nat) a + (![1, 125] : Fin 2 → Nat) a ≤ (⟨2, ![R, 125]⟩ : Shape).size a)
    (hcov : ∀ y, ∃ p ∈ L, y ∈ p.1.set) (g : Fin 125) :
    v.readCov L (Rect.unit (s := ⟨2, ![R, 125]⟩) ![d, 0] ![1, 125] inb).toLoadRect (ix2 (0 : Fin 1) g)
      = View.canon L (ix2 ⟨d, hd⟩ g) := by
  rw [View.readCov_eq_canon_ld v L _ hcov]
  exact ld_row (View.canon L) d hd inb g

/-- The initial rows: `-∞` under the maximum, `0` under the sum. -/
theorem pay5_apply (g : Fin 125) : k0_pay5 (F := Ideal) (ix2 0 g) = Ideal.ofBits .f32 0xFF800000#32 := rfl
theorem pay6_apply (g : Fin 125) : k0_pay6 (F := Ideal) (ix2 0 g) = cZero := rfl

/-- The two writes that set the accumulator at a batch's first tile (the later one first). -/
abbrev initPieces : List (View.Piece (Elt Ideal) S2x125 .f32) :=
  [⟨(Rect.unit (s := S2x125) ![1, 0] ![1, 125] inb_S2x125_S1x125_1_0), k0_pay6 (F := Ideal)⟩, ⟨(Rect.unit (s := S2x125) ![0, 0] ![1, 125] inb_S2x125_S1x125_0_0), k0_pay5 (F := Ideal)⟩]

/-- Row 0 read back after them is `-∞`. -/
theorem init_row0 {sig : RefSig} {κ : Kind} {sp : Space} (v : View sig κ sp S2x125 .f32) (g : Fin 125) :
    v.readCov initPieces (Rect.unit (s := S2x125) ![0, 0] ![1, 125] inb_S2x125_S1x125_0_0).toLoadRect (ix2 (0 : Fin 1) g) = Ideal.ofBits .f32 0xFF800000#32 := by
  rw [readCov_row v initPieces 0 (by omega) inb_S2x125_S1x125_0_0
    (cover_rows2 _ (k0_pay5 (F := Ideal)) (k0_pay6 (F := Ideal)) (by simp) (by simp)) g]
  rw [canon_row_miss 1 _ _ _ (⟨0, by omega⟩ : Fin 2) g (by decide), canon_row_hit 0 (by omega) _ _ _ g, pay5_apply]

/-- Row 1 read back after them, and after any later write to row 0, is `0`. -/
theorem init_row1 {sig : RefSig} {κ : Kind} {sp : Space} (v : View sig κ sp S2x125 .f32)
    (w0 : (Rect.unit (s := S2x125) ![0, 0] ![1, 125] inb_S2x125_S1x125_0_0).shape.Idx → Elt Ideal .f32) (g : Fin 125) :
    v.readCov (⟨(Rect.unit (s := S2x125) ![0, 0] ![1, 125] inb_S2x125_S1x125_0_0), w0⟩ :: initPieces) (Rect.unit (s := S2x125) ![1, 0] ![1, 125] inb_S2x125_S1x125_1_0).toLoadRect (ix2 (0 : Fin 1) g) = cZero := by
  rw [readCov_row v _ 1 (by omega) inb_S2x125_S1x125_1_0
    (cover_rows2 _ w0 (k0_pay6 (F := Ideal)) (by simp) (by simp)) g]
  rw [canon_row_miss 0 _ _ _ (⟨1, by omega⟩ : Fin 2) g (by decide), canon_row_hit 1 (by omega) _ _ _ g, pay6_apply]

/-- A batch's first tile advances the initial accumulator. -/
theorem sout0_A_0_eq (c : Dev nD) (i : grid0.Coords) (arg2 : Memref sig .tc .vmem S1x1024x3 .f32) (harg2 : arg2.IsWhole) (arg3 : Memref sig .tc .vmem S3x125 .f32) (harg3 : arg3.IsWhole) (arg4 : Memref sig .tc .vmem S3x125 .f32) (harg4 : arg4.IsWhole) (arg5 : Memref sig .tc .vmem S1x125 .f32) (harg5 : arg5.IsWhole) (arg6 : Memref sig .tc .vmem S1x125 .f32) (harg6 : arg6.IsWhole) (arg7 : Memref sig .tc .vmem S1x125 .f32) (harg7 : arg7.IsWhole) (arg8 : Memref sig .tc .vmem S1x125 .f32) (harg8 : arg8.IsWhole) (arg9 : Memref sig .tc .vmem S1x20x125 .f32) (harg9 : arg9.IsWhole) (arg10 : Memref sig .tc .vmem S2x125 .f32) (harg10 : arg10.IsWhole) (arg11 : Memref sig .tc .vmem S9x125 .f32) (harg11 : arg11.IsWhole) (arg12 : Memref sig .tc .vmem S9x125 .f32) (harg12 : arg12.IsWhole) (hc0 : cond0_0 i) (hc1 : ¬cond0_1 i) (x0 : Vec Ideal S1x1024x3 .f32) (x1 : Vec Ideal S3x125 .f32) (x2 : Vec Ideal S3x125 .f32) (x3 : Vec Ideal S1x125 .f32) (x4 : Vec Ideal S1x125 .f32) (x5 : Vec Ideal S1x125 .f32) (x6 : Vec Ideal S1x125 .f32) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = step0 x0 x1 x2 x3 x4 x5 init0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg10.read_unread, harg11.read_unread, harg12.read_unread,
    View.ld_unit_zero (S := S1x1024x3) hz3, View.ld_unit_zero (S := S1x125) hz2, View.ld_unit_zero (S := S2x125) hz2]
  funext y
  obtain ⟨r, g, rfl⟩ : ∃ (r : Fin 2) (g : Fin 125), y = ix2 r g := ⟨y 0, y 1, eq_ix2 y⟩
  fin_cases r
  · refine (canon_row_miss 1 _ _ _ (0 : Fin 2) g (by decide)).trans ?_
    refine (canon_row_hit 0 (by omega) _ _ _ g).trans ?_
    refine (pay27_apply x0 x1 x2 x3 x4 x5 _ g).trans ?_
    rw [init_row0]; rfl
  · refine (canon_row_hit 1 (by omega) _ _ _ g).trans ?_
    refine (pay28_apply x0 x1 x2 x3 x4 x5 _ g).trans ?_
    rw [init_row1]; rfl

/-- A middle tile of a batch advances the accumulator it found. -/
theorem sout0_B_0_eq (c : Dev nD) (i : grid0.Coords) (arg2 : Memref sig .tc .vmem S1x1024x3 .f32) (harg2 : arg2.IsWhole) (arg3 : Memref sig .tc .vmem S3x125 .f32) (harg3 : arg3.IsWhole) (arg4 : Memref sig .tc .vmem S3x125 .f32) (harg4 : arg4.IsWhole) (arg5 : Memref sig .tc .vmem S1x125 .f32) (harg5 : arg5.IsWhole) (arg6 : Memref sig .tc .vmem S1x125 .f32) (harg6 : arg6.IsWhole) (arg7 : Memref sig .tc .vmem S1x125 .f32) (harg7 : arg7.IsWhole) (arg8 : Memref sig .tc .vmem S1x125 .f32) (harg8 : arg8.IsWhole) (arg9 : Memref sig .tc .vmem S1x20x125 .f32) (harg9 : arg9.IsWhole) (arg10 : Memref sig .tc .vmem S2x125 .f32) (harg10 : arg10.IsWhole) (arg11 : Memref sig .tc .vmem S9x125 .f32) (harg11 : arg11.IsWhole) (arg12 : Memref sig .tc .vmem S9x125 .f32) (harg12 : arg12.IsWhole) (hc0 : ¬cond0_0 i) (hc1 : ¬cond0_1 i) (x0 : Vec Ideal S1x1024x3 .f32) (x1 : Vec Ideal S3x125 .f32) (x2 : Vec Ideal S3x125 .f32) (x3 : Vec Ideal S1x125 .f32) (x4 : Vec Ideal S1x125 .f32) (x5 : Vec Ideal S1x125 .f32) (x6 : Vec Ideal S1x125 .f32) (xs0 : Vec Ideal S2x125 .f32) (xs1 : Vec Ideal S9x125 .f32) (xs2 : Vec Ideal S9x125 .f32) :
    sout0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = step0 x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread, harg12.read_unread,
    View.ld_unit_zero (S := S1x1024x3) hz3, View.ld_unit_zero (S := S1x125) hz2, View.ld_unit_zero (S := S2x125) hz2]
  funext y
  obtain ⟨r, g, rfl⟩ : ∃ (r : Fin 2) (g : Fin 125), y = ix2 r g := ⟨y 0, y 1, eq_ix2 y⟩
  fin_cases r
  · refine (canon_row_miss 1 _ _ _ (0 : Fin 2) g (by decide)).trans ?_
    refine (canon_row_hit 0 (by omega) _ _ _ g).trans ?_
    refine (pay27_apply x0 x1 x2 x3 x4 x5 _ g).trans ?_
    rw [ld_row xs0 0 (by omega) _ g]; rfl
  · refine (canon_row_hit 1 (by omega) _ _ _ g).trans ?_
    refine (pay28_apply x0 x1 x2 x3 x4 x5 _ g).trans ?_
    rw [ld_row xs0 1 (by omega) _ g]; rfl

/-- So does a batch's last tile. -/
theorem sout0_C_0_eq (c : Dev nD) (i : grid0.Coords) (arg2 : Memref sig .tc .vmem S1x1024x3 .f32) (harg2 : arg2.IsWhole) (arg3 : Memref sig .tc .vmem S3x125 .f32) (harg3 : arg3.IsWhole) (arg4 : Memref sig .tc .vmem S3x125 .f32) (harg4 : arg4.IsWhole) (arg5 : Memref sig .tc .vmem S1x125 .f32) (harg5 : arg5.IsWhole) (arg6 : Memref sig .tc .vmem S1x125 .f32) (harg6 : arg6.IsWhole) (arg7 : Memref sig .tc .vmem S1x125 .f32) (harg7 : arg7.IsWhole) (arg8 : Memref sig .tc .vmem S1x125 .f32) (harg8 : arg8.IsWhole) (arg9 : Memref sig .tc .vmem S1x20x125 .f32) (harg9 : arg9.IsWhole) (arg10 : Memref sig .tc .vmem S2x125 .f32) (harg10 : arg10.IsWhole) (arg11 : Memref sig .tc .vmem S9x125 .f32) (harg11 : arg11.IsWhole) (arg12 : Memref sig .tc .vmem S9x125 .f32) (harg12 : arg12.IsWhole) (hc0 : ¬cond0_0 i) (hc1 : cond0_1 i) (x0 : Vec Ideal S1x1024x3 .f32) (x1 : Vec Ideal S3x125 .f32) (x2 : Vec Ideal S3x125 .f32) (x3 : Vec Ideal S1x125 .f32) (x4 : Vec Ideal S1x125 .f32) (x5 : Vec Ideal S1x125 .f32) (x6 : Vec Ideal S1x125 .f32) (xs0 : Vec Ideal S2x125 .f32) (xs1 : Vec Ideal S9x125 .f32) (xs2 : Vec Ideal S9x125 .f32) :
    sout0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = step0 x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg10.read_unread, harg11.read_unread, harg12.read_unread,
    View.ld_unit_zero (S := S1x1024x3) hz3, View.ld_unit_zero (S := S1x125) hz2, View.ld_unit_zero (S := S2x125) hz2]
  funext y
  obtain ⟨r, g, rfl⟩ : ∃ (r : Fin 2) (g : Fin 125), y = ix2 r g := ⟨y 0, y 1, eq_ix2 y⟩
  fin_cases r
  · refine (canon_row_miss 1 _ _ _ (0 : Fin 2) g (by decide)).trans ?_
    refine (canon_row_hit 0 (by omega) _ _ _ g).trans ?_
    refine (pay27_apply x0 x1 x2 x3 x4 x5 _ g).trans ?_
    rw [ld_row xs0 0 (by omega) _ g]; rfl
  · refine (canon_row_hit 1 (by omega) _ _ _ g).trans ?_
    refine (pay28_apply x0 x1 x2 x3 x4 x5 _ g).trans ?_
    rw [ld_row xs0 1 (by omega) _ g]; rfl

end Cert.KernelIdeal.TileValue

end
-- ==== Proof.KTile1.lean ====
/-
  The mean-term accumulator of one tile, payload by payload: a reduction over the 1024 points of a column read as
  a supremum, an infimum or a finite sum; a row of 125 broadcast down the points; and each stored row read at a
  component as the running maximum, minimum or sum updated by the tile's per-point terms.
-/
import proofs.«113572_j78245714199386_1_alg».proof.Proof.Gen.KernelIdeal.Skeleton
import proofs.«113572_j78245714199386_1_alg».proof.Proof.TileSpec
import proofs.«113572_j78245714199386_1_alg».proof.Proof.Algebra
import Idealize.ShloMosaic.Lib.ValueIdx
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx Cert.Fisher Cert.Fisher.Tile

/-! ## Folds of max and min over a finite type are its supremum and infimum -/

theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

theorem fold_min_top_eq_inf {ι : Type} (s : Finset ι) (f : ι → EReal) : s.fold min ⊤ f = s.inf f := by
  classical
  induction s using Finset.induction_on with
  | empty => simp
  | insert a s ha ih => rw [Finset.fold_insert ha, Finset.inf_insert, ih]

/-! ## A column of a 1024 × 125 block -/

/-- The index `g` of a row of 125 with the point `n` put back on the leading axis is `(n, g)`. -/
theorem lift_col (g : Fin 125) (n : Fin 1024) :
    reduces_S1024x125_S125.lift (ix1 g) n = ix2 n g := by
  funext a
  match a with
  | ⟨0, _⟩ => exact Fin.ext rfl
  | ⟨1, _⟩ => exact Fin.ext rfl

/-- The maximum over the points of column `g`. -/
theorem redMax_apply (src : FVec Ideal S1024x125 .f32) (g : Fin 125) :
    multiReduction (F := Ideal) .maximumf [0] S125 src 0xFF800000#32 reduces_S1024x125_S125 (.inl rfl) rfl (ix1 g)
      = Finset.univ.sup (fun n : Fin 1024 => src (ix2 n g)) := by
  refine (Ideal.multiReduction_maximumf_single src _ reduces_S1024x125_S125 (.inl rfl) rfl (ix1 g)).trans ?_
  show (Finset.univ : Finset (Fin 1024)).fold (max : EReal → EReal → EReal) (Ideal.ofBits .f32 0xFF800000#32)
    (fun n : Fin 1024 => src (reduces_S1024x125_S125.lift (ix1 g) n)) = _
  rw [negInf_eq]
  refine (fold_max_bot_eq_sup _ _).trans ?_
  refine Finset.sup_congr rfl fun n _ => ?_
  rw [lift_col]

/-- The minimum over the points of column `g`. -/
theorem redMin_apply (src : FVec Ideal S1024x125 .f32) (g : Fin 125) :
    multiReduction (F := Ideal) .minimumf [0] S125 src 0x7F800000#32 reduces_S1024x125_S125 (.inl rfl) rfl (ix1 g)
      = Finset.univ.inf (fun n : Fin 1024 => src (ix2 n g)) := by
  refine (multiReduction_minimumf_eq_fold src _ reduces_S1024x125_S125 (.inl rfl) rfl (ix1 g)).trans ?_
  refine (reduces_S1024x125_S125.fold_filter_drop_single _ _ src (ix1 g)).trans ?_
  show (Finset.univ : Finset (Fin 1024)).fold (min : EReal → EReal → EReal) (Ideal.ofBits .f32 0x7F800000#32)
    (fun n : Fin 1024 => src (reduces_S1024x125_S125.lift (ix1 g) n)) = _
  rw [posInf_eq]
  refine (fold_min_top_eq_inf _ _).trans ?_
  refine Finset.inf_congr rfl fun n _ => ?_
  rw [lift_col]

/-- The sum over the points of column `g`. -/
theorem redAdd_apply (src : FVec Ideal S1024x125 .f32) (g : Fin 125) :
    multiReduction (F := Ideal) .add [0] S125 src 0x00000000#32 reduces_S1024x125_S125 (.inl rfl) rfl (ix1 g)
      = ∑ n : Fin 1024, src (ix2 n g) := by
  refine (Ideal.multiReduction_add_single src _ reduces_S1024x125_S125 (.inl rfl) rfl (ix1 g)).trans ?_
  show ∑ n : Fin 1024, src (reduces_S1024x125_S125.lift (ix1 g) n) = _
  refine Finset.sum_congr rfl fun n _ => ?_
  rw [lift_col]

/-! ## Rows, broadcasts and the three running statistics -/

/-- A row of 125 repeated down the 1024 points. -/
theorem bcRow_apply (v : FVec Ideal S1x125 .f32) (n : Fin 1024) (g : Fin 125) :
    broadcastTo S1024x125 v broadcasts_S1x125_S1024x125 (ix2 n g) = v (ix2 0 g) :=
  broadcastTo_apply v _ (ix2 n g) (ix2 0 g) fun a => match a with | ⟨0, _⟩ => rfl | ⟨1, _⟩ => rfl

/-- A vector of 125 read as a row. -/
theorem castRow_apply (v : FVec Ideal S125 .f32) (g : Fin 125) :
    shapeCast S1x125 v shapeCasts_S125_S1x125 (ix2 0 g) = v (ix1 g) :=
  shapeCast_apply v _ (ix2 0 g) (ix1 g) (by
    rw [Shape.rowMajor_val_one, Shape.rowMajor_val_two]
    show g.val = 0 * 125 + g.val
    omega)

/-- The running maximum of a row after a tile. -/
theorem rowMax_apply (src : FVec Ideal S1024x125 .f32) (acc : Vec Ideal S1x125 .f32) (g : Fin 125) :
    shapeCast S1x125 (maximumf acc (shapeCast S1x125
        (multiReduction (F := Ideal) .maximumf [0] S125 src 0xFF800000#32 reduces_S1024x125_S125 (.inl rfl) rfl)
        shapeCasts_S125_S1x125)) shapeCasts_S1x125_S1x125 (ix2 0 g)
      = upd 0 (acc (ix2 0 g)) (fun n => src (ix2 n g)) := by
  rw [shapeCast_self]
  show max (acc (ix2 0 g)) (shapeCast S1x125 _ shapeCasts_S125_S1x125 (ix2 0 g)) = _
  rw [castRow_apply, redMax_apply]
  rfl

/-- The running minimum of a row after a tile. -/
theorem rowMin_apply (src : FVec Ideal S1024x125 .f32) (acc : Vec Ideal S1x125 .f32) (g : Fin 125) :
    shapeCast S1x125 (minimumf acc (shapeCast S1x125
        (multiReduction (F := Ideal) .minimumf [0] S125 src 0x7F800000#32 reduces_S1024x125_S125 (.inl rfl) rfl)
        shapeCasts_S125_S1x125)) shapeCasts_S1x125_S1x125 (ix2 0 g)
      = upd 1 (acc (ix2 0 g)) (fun n => src (ix2 n g)) := by
  rw [shapeCast_self]
  show min (acc (ix2 0 g)) (shapeCast S1x125 _ shapeCasts_S125_S1x125 (ix2 0 g)) = _
  rw [castRow_apply, redMin_apply]
  rfl

/-- The running sum of a row after a tile. -/
theorem rowAdd_apply (src : FVec Ideal S1024x125 .f32) (acc : Vec Ideal S1x125 .f32) (g : Fin 125) :
    shapeCast S1x125 (addf acc (shapeCast S1x125
        (multiReduction (F := Ideal) .add [0] S125 src 0x00000000#32 reduces_S1024x125_S125 (.inl rfl) rfl)
        shapeCasts_S125_S1x125)) shapeCasts_S1x125_S1x125 (ix2 0 g)
      = upd 2 (acc (ix2 0 g)) (fun n => src (ix2 n g)) := by
  rw [shapeCast_self]
  show acc (ix2 0 g) + shapeCast S1x125 _ shapeCasts_S125_S1x125 (ix2 0 g) = _
  rw [castRow_apply, redAdd_apply]
  rfl

/-! ## The payloads of the mean terms -/

/-- The posterior weight times the deviation along coordinate 0. -/
theorem pay29_apply (v4 : FVec Ideal S1024x3 .f32) (v6 v8 : FVec Ideal S1x125 .f32) (v22 v35 : FVec Ideal S1024x125 .f32)
    (v37 v39 : Vec Ideal S1x125 .f32) (n : Fin 1024) (g : Fin 125) :
    k0_pay29 (F := Ideal) v4 v6 v8 v22 v35 v37 v39 (ix2 n g)
      = k0_pay25 (F := Ideal) v4 v6 v8 v35 v37 v39 (ix2 n g) * v22 (ix2 n g) := rfl

/-- A per-point term times the scale row. -/
theorem pay30_apply (v10 : FVec Ideal S1x125 .f32) (v77 : FVec Ideal S1024x125 .f32) (n : Fin 1024) (g : Fin 125) :
    k0_pay30 (F := Ideal) v10 v77 (ix2 n g) = v77 (ix2 n g) * v10 (ix2 0 g) := by
  unfold k0_pay30
  show v77 (ix2 n g) * broadcastTo S1024x125 v10 broadcasts_S1x125_S1024x125 (ix2 n g) = _
  rw [bcRow_apply]

theorem pay38_apply (v10 : FVec Ideal S1x125 .f32) (v33 v58 : FVec Ideal S1024x125 .f32) (n : Fin 1024) (g : Fin 125) :
    k0_pay38 (F := Ideal) v10 v33 v58 (ix2 n g) = v58 (ix2 n g) * v33 (ix2 n g) * v10 (ix2 0 g) := by
  unfold k0_pay38
  show v58 (ix2 n g) * v33 (ix2 n g) * broadcastTo S1024x125 v10 broadcasts_S1x125_S1024x125 (ix2 n g) = _
  rw [bcRow_apply]

theorem pay46_apply (v10 : FVec Ideal S1x125 .f32) (v45 v58 : FVec Ideal S1024x125 .f32) (n : Fin 1024) (g : Fin 125) :
    k0_pay46 (F := Ideal) v10 v45 v58 (ix2 n g) = v58 (ix2 n g) * v45 (ix2 n g) * v10 (ix2 0 g) := by
  unfold k0_pay46
  show v58 (ix2 n g) * v45 (ix2 n g) * broadcastTo S1024x125 v10 broadcasts_S1x125_S1024x125 (ix2 n g) = _
  rw [bcRow_apply]

/-- Coordinate 0: the maximum, minimum and sum rows. -/
theorem pay31_apply (v10 : FVec Ideal S1x125 .f32) (v77 : FVec Ideal S1024x125 .f32) (acc : Vec Ideal S1x125 .f32) (g : Fin 125) :
    k0_pay31 (F := Ideal) v10 v77 acc (ix2 0 g) = upd 0 (acc (ix2 0 g)) (fun n => v77 (ix2 n g) * v10 (ix2 0 g)) := by
  refine (rowMax_apply (k0_pay30 v10 v77) acc g).trans ?_
  simp only [pay30_apply]

theorem pay32_apply (v10 : FVec Ideal S1x125 .f32) (v77 : FVec Ideal S1024x125 .f32) (acc : Vec Ideal S1x125 .f32) (g : Fin 125) :
    k0_pay32 (F := Ideal) v10 v77 acc (ix2 0 g) = upd 1 (acc (ix2 0 g)) (fun n => v77 (ix2 n g) * v10 (ix2 0 g)) := by
  refine (rowMin_apply (k0_pay30 v10 v77) acc g).trans ?_
  simp only [pay30_apply]

theorem pay33_apply (v10 : FVec Ideal S1x125 .f32) (v77 : FVec Ideal S1024x125 .f32) (acc : Vec Ideal S1x125 .f32) (g : Fin 125) :
    k0_pay33 (F := Ideal) v10 v77 acc (ix2 0 g) = upd 2 (acc (ix2 0 g)) (fun n => v77 (ix2 n g) * v10 (ix2 0 g)) := by
  refine (rowAdd_apply (k0_pay30 v10 v77) acc g).trans ?_
  simp only [pay30_apply]

/-- Coordinate 1. -/
theorem pay39_apply (v10 : FVec Ideal S1x125 .f32) (v33 v58 : FVec Ideal S1024x125 .f32) (acc : Vec Ideal S1x125 .f32) (g : Fin 125) :
    k0_pay39 (F := Ideal) v10 v33 v58 acc (ix2 0 g)
      = upd 0 (acc (ix2 0 g)) (fun n => v58 (ix2 n g) * v33 (ix2 n g) * v10 (ix2 0 g)) := by
  refine (rowMax_apply (k0_pay38 v10 v33 v58) acc g).trans ?_
  simp only [pay38_apply]

theorem pay40_apply (v10 : FVec Ideal S1x125 .f32) (v33 v58 : FVec Ideal S1024x125 .f32) (acc : Vec Ideal S1x125 .f32) (g : Fin 125) :
    k0_pay40 (F := Ideal) v10 v33 v58 acc (ix2 0 g)
      = upd 1 (acc (ix2 0 g)) (fun n => v58 (ix2 n g) * v33 (ix2 n g) * v10 (ix2 0 g)) := by
  refine (rowMin_apply (k0_pay38 v10 v33 v58) acc g).trans ?_
  simp only [pay38_apply]

theorem pay41_apply (v130 : FVec Ideal S1024x125 .f32) (acc : Vec Ideal S1x125 .f32) (g : Fin 125) :
    k0_pay41 (F := Ideal) v130 acc (ix2 0 g) = upd 2 (acc (ix2 0 g)) (fun n => v130 (ix2 n g)) :=
  rowAdd_apply v130 acc g

/-- Coordinate 2. -/
theorem pay47_apply (v181 : FVec Ideal S1024x125 .f32) (acc : Vec Ideal S1x125 .f32) (g : Fin 125) :
    k0_pay47 (F := Ideal) v181 acc (ix2 0 g) = upd 0 (acc (ix2 0 g)) (fun n => v181 (ix2 n g)) :=
  rowMax_apply v181 acc g

theorem pay48_apply (v181 : FVec Ideal S1024x125 .f32) (acc : Vec Ideal S1x125 .f32) (g : Fin 125) :
    k0_pay48 (F := Ideal) v181 acc (ix2 0 g) = upd 1 (acc (ix2 0 g)) (fun n => v181 (ix2 n g)) :=
  rowMin_apply v181 acc g

theorem pay49_apply (v181 : FVec Ideal S1024x125 .f32) (acc : Vec Ideal S1x125 .f32) (g : Fin 125) :
    k0_pay49 (F := Ideal) v181 acc (ix2 0 g) = upd 2 (acc (ix2 0 g)) (fun n => v181 (ix2 n g)) :=
  rowAdd_apply v181 acc g

end Cert.KernelIdeal.TileValue
end
-- ==== Proof.KPiece1.lean ====
/-
  The nine-row accumulator of the mean terms after one tile, read off the run's stored pieces: each row of the
  stored block is one row payload applied to what the row held before; composed with the posterior-weight chain it is
  the running maximum, minimum or sum of the row updated by the tile's per-point mean terms. A batch's first tile
  reads back the initial values it has just stored (−∞ under the maxima, +∞ under the minima, 0 under the sums).
-/
import proofs.«113572_j78245714199386_1_alg».proof.Proof.Gen.KernelIdeal.Frame
import proofs.«113572_j78245714199386_1_alg».proof.Proof.KTile1
import proofs.«113572_j78245714199386_1_alg».proof.Proof.KTileQ
import proofs.«113572_j78245714199386_1_alg».proof.Proof.KRow
import Idealize.ShloMosaic.Lib.Pipeline.Value
import Idealize.ShloMosaic.Lib.Tactic

set_option maxRecDepth 16384

noncomputable section

namespace Cert.KernelIdeal.TileValue

open Cert.KernelIdeal Cert.KernelIdeal.Gen Idealize.ShloMosaic Idealize.ShloMosaic.TcCoe Idealize.ShloMosaic.Tactic Idealize.SL.Sem
open Idealize.ShloMosaic.ValueIdx Cert.Fisher Cert.Fisher.Tile

/-! ## The per-point mean terms the run feeds the row payloads -/

/-- The scale row passes through its reshaping unchanged. -/
theorem pay19_eq (x : Vec Ideal S1x125 .f32) : k0_pay19 (F := Ideal) x = x := shapeCast_self _ _

/-- Coordinate 0: posterior weight times deviation, times the scale. -/
theorem mu0_apply (x0 : Vec Ideal S1x1024x3 .f32) (x1 x2 : Vec Ideal S3x125 .f32) (x3 x4 x5 : Vec Ideal S1x125 .f32) (n : Fin 1024) (g : Fin 125) :
    (k0_pay29 (F := Ideal) (k0_pay16 x0) (k0_pay17 x4) (k0_pay18 x3) (k0_pay21 x0 (View.ld x1 (Rect.unit ![0, 0] ![1, 125] inb_S3x125_S1x125_0_0)) (View.ld x2 (Rect.unit ![0, 0] ![1, 125] inb_S3x125_S1x125_0_0))) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0))) (ix2 n g) * k0_pay19 (F := Ideal) x5 (ix2 0 g) = tMu x0 x1 x2 x3 x4 x5 n g 0 := by
  rw [pay29_apply, pay25_apply, pay21_apply, pay19_eq]
  rfl

/-- Coordinate 1. -/
theorem mu1_apply (x0 : Vec Ideal S1x1024x3 .f32) (x1 x2 : Vec Ideal S3x125 .f32) (x3 x4 x5 : Vec Ideal S1x125 .f32) (n : Fin 1024) (g : Fin 125) :
    (k0_pay25 (F := Ideal) (k0_pay16 x0) (k0_pay17 x4) (k0_pay18 x3) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0))) (ix2 n g) * (k0_pay22 (F := Ideal) x0 (View.ld x1 (Rect.unit ![1, 0] ![1, 125] inb_S3x125_S1x125_1_0)) (View.ld x2 (Rect.unit ![1, 0] ![1, 125] inb_S3x125_S1x125_1_0))) (ix2 n g) * k0_pay19 (F := Ideal) x5 (ix2 0 g) = tMu x0 x1 x2 x3 x4 x5 n g 1 := by
  rw [pay25_apply, pay22_apply, pay19_eq]
  rfl

/-- Coordinate 2. -/
theorem mu2_apply (x0 : Vec Ideal S1x1024x3 .f32) (x1 x2 : Vec Ideal S3x125 .f32) (x3 x4 x5 : Vec Ideal S1x125 .f32) (n : Fin 1024) (g : Fin 125) :
    (k0_pay25 (F := Ideal) (k0_pay16 x0) (k0_pay17 x4) (k0_pay18 x3) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0))) (ix2 n g) * (k0_pay24 (F := Ideal) (k0_pay16 x0) (View.ld x1 (Rect.unit ![2, 0] ![1, 125] inb_S3x125_S1x125_2_0)) (View.ld x2 (Rect.unit ![2, 0] ![1, 125] inb_S3x125_S1x125_2_0))) (ix2 n g) * k0_pay19 (F := Ideal) x5 (ix2 0 g) = tMu x0 x1 x2 x3 x4 x5 n g 2 := by
  rw [pay25_apply, pay24_apply, pay19_eq]
  rfl

/-! ## Each stored row, as the run composes it -/

theorem row0_apply (x0 : Vec Ideal S1x1024x3 .f32) (x1 x2 : Vec Ideal S3x125 .f32) (x3 x4 x5 : Vec Ideal S1x125 .f32) (acc : Vec Ideal S1x125 .f32) (g : Fin 125) :
    k0_pay31 (F := Ideal) (k0_pay19 x5) (k0_pay29 (k0_pay16 x0) (k0_pay17 x4) (k0_pay18 x3) (k0_pay21 x0 (View.ld x1 (Rect.unit ![0, 0] ![1, 125] inb_S3x125_S1x125_0_0)) (View.ld x2 (Rect.unit ![0, 0] ![1, 125] inb_S3x125_S1x125_0_0))) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0))) acc (ix2 0 g) = upd 0 (acc (ix2 0 g)) (fun n => tMu x0 x1 x2 x3 x4 x5 n g 0) := by
  rw [pay31_apply]
  refine congrArg (upd 0 (acc (ix2 0 g))) (funext fun n => ?_)
  exact mu0_apply x0 x1 x2 x3 x4 x5 n g

theorem row3_apply (x0 : Vec Ideal S1x1024x3 .f32) (x1 x2 : Vec Ideal S3x125 .f32) (x3 x4 x5 : Vec Ideal S1x125 .f32) (acc : Vec Ideal S1x125 .f32) (g : Fin 125) :
    k0_pay32 (F := Ideal) (k0_pay19 x5) (k0_pay29 (k0_pay16 x0) (k0_pay17 x4) (k0_pay18 x3) (k0_pay21 x0 (View.ld x1 (Rect.unit ![0, 0] ![1, 125] inb_S3x125_S1x125_0_0)) (View.ld x2 (Rect.unit ![0, 0] ![1, 125] inb_S3x125_S1x125_0_0))) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0))) acc (ix2 0 g) = upd 1 (acc (ix2 0 g)) (fun n => tMu x0 x1 x2 x3 x4 x5 n g 0) := by
  rw [pay32_apply]
  refine congrArg (upd 1 (acc (ix2 0 g))) (funext fun n => ?_)
  exact mu0_apply x0 x1 x2 x3 x4 x5 n g

theorem row6_apply (x0 : Vec Ideal S1x1024x3 .f32) (x1 x2 : Vec Ideal S3x125 .f32) (x3 x4 x5 : Vec Ideal S1x125 .f32) (acc : Vec Ideal S1x125 .f32) (g : Fin 125) :
    k0_pay33 (F := Ideal) (k0_pay19 x5) (k0_pay29 (k0_pay16 x0) (k0_pay17 x4) (k0_pay18 x3) (k0_pay21 x0 (View.ld x1 (Rect.unit ![0, 0] ![1, 125] inb_S3x125_S1x125_0_0)) (View.ld x2 (Rect.unit ![0, 0] ![1, 125] inb_S3x125_S1x125_0_0))) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0))) acc (ix2 0 g) = upd 2 (acc (ix2 0 g)) (fun n => tMu x0 x1 x2 x3 x4 x5 n g 0) := by
  rw [pay33_apply]
  refine congrArg (upd 2 (acc (ix2 0 g))) (funext fun n => ?_)
  exact mu0_apply x0 x1 x2 x3 x4 x5 n g

theorem row1_apply (x0 : Vec Ideal S1x1024x3 .f32) (x1 x2 : Vec Ideal S3x125 .f32) (x3 x4 x5 : Vec Ideal S1x125 .f32) (acc : Vec Ideal S1x125 .f32) (g : Fin 125) :
    k0_pay39 (F := Ideal) (k0_pay19 x5) (k0_pay22 x0 (View.ld x1 (Rect.unit ![1, 0] ![1, 125] inb_S3x125_S1x125_1_0)) (View.ld x2 (Rect.unit ![1, 0] ![1, 125] inb_S3x125_S1x125_1_0))) (k0_pay25 (k0_pay16 x0) (k0_pay17 x4) (k0_pay18 x3) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0))) acc (ix2 0 g) = upd 0 (acc (ix2 0 g)) (fun n => tMu x0 x1 x2 x3 x4 x5 n g 1) := by
  rw [pay39_apply]
  refine congrArg (upd 0 (acc (ix2 0 g))) (funext fun n => ?_)
  exact mu1_apply x0 x1 x2 x3 x4 x5 n g

theorem row4_apply (x0 : Vec Ideal S1x1024x3 .f32) (x1 x2 : Vec Ideal S3x125 .f32) (x3 x4 x5 : Vec Ideal S1x125 .f32) (acc : Vec Ideal S1x125 .f32) (g : Fin 125) :
    k0_pay40 (F := Ideal) (k0_pay19 x5) (k0_pay22 x0 (View.ld x1 (Rect.unit ![1, 0] ![1, 125] inb_S3x125_S1x125_1_0)) (View.ld x2 (Rect.unit ![1, 0] ![1, 125] inb_S3x125_S1x125_1_0))) (k0_pay25 (k0_pay16 x0) (k0_pay17 x4) (k0_pay18 x3) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0))) acc (ix2 0 g) = upd 1 (acc (ix2 0 g)) (fun n => tMu x0 x1 x2 x3 x4 x5 n g 1) := by
  rw [pay40_apply]
  refine congrArg (upd 1 (acc (ix2 0 g))) (funext fun n => ?_)
  exact mu1_apply x0 x1 x2 x3 x4 x5 n g

theorem row7_apply (x0 : Vec Ideal S1x1024x3 .f32) (x1 x2 : Vec Ideal S3x125 .f32) (x3 x4 x5 : Vec Ideal S1x125 .f32) (acc : Vec Ideal S1x125 .f32) (g : Fin 125) :
    k0_pay41 (F := Ideal) (k0_pay38 (k0_pay19 x5) (k0_pay22 x0 (View.ld x1 (Rect.unit ![1, 0] ![1, 125] inb_S3x125_S1x125_1_0)) (View.ld x2 (Rect.unit ![1, 0] ![1, 125] inb_S3x125_S1x125_1_0))) (k0_pay25 (k0_pay16 x0) (k0_pay17 x4) (k0_pay18 x3) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0)))) acc (ix2 0 g) = upd 2 (acc (ix2 0 g)) (fun n => tMu x0 x1 x2 x3 x4 x5 n g 1) := by
  rw [pay41_apply]
  refine congrArg (upd 2 (acc (ix2 0 g))) (funext fun n => ?_)
  rw [pay38_apply]
  exact mu1_apply x0 x1 x2 x3 x4 x5 n g

theorem row2_apply (x0 : Vec Ideal S1x1024x3 .f32) (x1 x2 : Vec Ideal S3x125 .f32) (x3 x4 x5 : Vec Ideal S1x125 .f32) (acc : Vec Ideal S1x125 .f32) (g : Fin 125) :
    k0_pay47 (F := Ideal) (k0_pay46 (k0_pay19 x5) (k0_pay24 (k0_pay16 x0) (View.ld x1 (Rect.unit ![2, 0] ![1, 125] inb_S3x125_S1x125_2_0)) (View.ld x2 (Rect.unit ![2, 0] ![1, 125] inb_S3x125_S1x125_2_0))) (k0_pay25 (k0_pay16 x0) (k0_pay17 x4) (k0_pay18 x3) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0)))) acc (ix2 0 g) = upd 0 (acc (ix2 0 g)) (fun n => tMu x0 x1 x2 x3 x4 x5 n g 2) := by
  rw [pay47_apply]
  refine congrArg (upd 0 (acc (ix2 0 g))) (funext fun n => ?_)
  rw [pay46_apply]
  exact mu2_apply x0 x1 x2 x3 x4 x5 n g

theorem row5_apply (x0 : Vec Ideal S1x1024x3 .f32) (x1 x2 : Vec Ideal S3x125 .f32) (x3 x4 x5 : Vec Ideal S1x125 .f32) (acc : Vec Ideal S1x125 .f32) (g : Fin 125) :
    k0_pay48 (F := Ideal) (k0_pay46 (k0_pay19 x5) (k0_pay24 (k0_pay16 x0) (View.ld x1 (Rect.unit ![2, 0] ![1, 125] inb_S3x125_S1x125_2_0)) (View.ld x2 (Rect.unit ![2, 0] ![1, 125] inb_S3x125_S1x125_2_0))) (k0_pay25 (k0_pay16 x0) (k0_pay17 x4) (k0_pay18 x3) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0)))) acc (ix2 0 g) = upd 1 (acc (ix2 0 g)) (fun n => tMu x0 x1 x2 x3 x4 x5 n g 2) := by
  rw [pay48_apply]
  refine congrArg (upd 1 (acc (ix2 0 g))) (funext fun n => ?_)
  rw [pay46_apply]
  exact mu2_apply x0 x1 x2 x3 x4 x5 n g

theorem row8_apply (x0 : Vec Ideal S1x1024x3 .f32) (x1 x2 : Vec Ideal S3x125 .f32) (x3 x4 x5 : Vec Ideal S1x125 .f32) (acc : Vec Ideal S1x125 .f32) (g : Fin 125) :
    k0_pay49 (F := Ideal) (k0_pay46 (k0_pay19 x5) (k0_pay24 (k0_pay16 x0) (View.ld x1 (Rect.unit ![2, 0] ![1, 125] inb_S3x125_S1x125_2_0)) (View.ld x2 (Rect.unit ![2, 0] ![1, 125] inb_S3x125_S1x125_2_0))) (k0_pay25 (k0_pay16 x0) (k0_pay17 x4) (k0_pay18 x3) (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0)))) acc (ix2 0 g) = upd 2 (acc (ix2 0 g)) (fun n => tMu x0 x1 x2 x3 x4 x5 n g 2) := by
  rw [pay49_apply]
  refine congrArg (upd 2 (acc (ix2 0 g))) (funext fun n => ?_)
  rw [pay46_apply]
  exact mu2_apply x0 x1 x2 x3 x4 x5 n g

/-! ## Splitting by the row -/

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- A statement about the nine rows holds if it holds of each. -/
private theorem fin9_cases {P : Fin 9 → Prop} (h0 : P 0) (h1 : P 1) (h2 : P 2) (h3 : P 3) (h4 : P 4) (h5 : P 5)
    (h6 : P 6) (h7 : P 7) (h8 : P 8) : ∀ r, P r
  | ⟨0, _⟩ => h0 | ⟨1, _⟩ => h1 | ⟨2, _⟩ => h2 | ⟨3, _⟩ => h3 | ⟨4, _⟩ => h4 | ⟨5, _⟩ => h5
  | ⟨6, _⟩ => h6 | ⟨7, _⟩ => h7 | ⟨8, _⟩ => h8

/-- The updated accumulator at an entry of row `r`. -/
private theorem step1_row (x0 : TPts) (x1 x2 : T3) (x3 x4 x5 : TRow) (acc : Acc9) (r : Fin 9) (g : Fin 125) :
    step1 x0 x1 x2 x3 x4 x5 acc (ix2 r g)
      = upd (statOf r) (acc (ix2 r g)) (fun n => tMu x0 x1 x2 x3 x4 x5 n g (coordOf r)) := rfl

/-! ## A block of three rows, a load after a list of writes, and the initial values -/

/-- After a last write to the three rows from `d`, an entry of row `d + k` reads that write's payload at row `k`. -/
private theorem canon_blk3_hit {Val : EltTy → Type} [∀ e, Nonempty (Val e)] {e : EltTy} (d : Nat)
    (inb : ∀ a, (![d, 0] : Fin 2 → Nat) a + (![3, 125] : Fin 2 → Nat) a ≤ (⟨2, ![9, 125]⟩ : Shape).size a)
    (w : (Rect.unit (s := ⟨2, ![9, 125]⟩) ![d, 0] ![3, 125] inb).shape.Idx → Val e)
    (L : List (View.Piece Val ⟨2, ![9, 125]⟩ e)) (r : Fin 9) (k : Fin 3) (hr : r.val = d + k.val) (g : Fin 125) :
    View.canon (⟨Rect.unit (s := ⟨2, ![9, 125]⟩) ![d, 0] ![3, 125] inb, w⟩ :: L) (ix2 r g) = w (ix2 k g) := by
  have e : ix2 r g = (Rect.unit (s := ⟨2, ![9, 125]⟩) ![d, 0] ![3, 125] inb).emb (ix2 k g) := by
    funext a
    refine Fin.ext ?_
    match a with
    | ⟨0, _⟩ => show r.val = d + 1 * k.val; omega
    | ⟨1, _⟩ => show g.val = 0 + 1 * g.val; omega
  rw [e]
  exact View.canon_cons_emb _ w L _

/-- An entry of a row outside the three reads what the earlier writes left. -/
private theorem canon_blk3_miss {Val : EltTy → Type} [∀ e, Nonempty (Val e)] {e : EltTy} (d : Nat)
    (inb : ∀ a, (![d, 0] : Fin 2 → Nat) a + (![3, 125] : Fin 2 → Nat) a ≤ (⟨2, ![9, 125]⟩ : Shape).size a)
    (w : (Rect.unit (s := ⟨2, ![9, 125]⟩) ![d, 0] ![3, 125] inb).shape.Idx → Val e)
    (L : List (View.Piece Val ⟨2, ![9, 125]⟩ e)) (r : Fin 9) (g : Fin 125) (h : r.val < d ∨ d + 3 ≤ r.val) :
    View.canon (⟨Rect.unit (s := ⟨2, ![9, 125]⟩) ![d, 0] ![3, 125] inb, w⟩ :: L) (ix2 r g) = View.canon L (ix2 r g) := by
  refine View.canon_cons_of_not_mem _ L ?_
  rw [Rect.mem_set_unit]
  intro hm
  have h0 := hm (⟨0, by decide⟩ : Fin 2)
  have h1 : d ≤ r.val ∧ r.val < d + 3 := h0
  omega

/-- A load of row `d` after a list of writes reads what they left at that row. -/
private theorem readCov_row {sg : RefSig} {κ : Kind} {sp : Space} {Val : EltTy → Type} [∀ e, Nonempty (Val e)] {e : EltTy} {R : Nat}
    (v : View sg κ sp ⟨2, ![R, 125]⟩ e) (L : List (View.Piece Val ⟨2, ![R, 125]⟩ e)) (d : Nat) (hd : d < R)
    (inb : ∀ a, (![d, 0] : Fin 2 → Nat) a + (![1, 125] : Fin 2 → Nat) a ≤ (⟨2, ![R, 125]⟩ : Shape).size a) (g : Fin 125) :
    v.readCov L (Rect.unit (s := ⟨2, ![R, 125]⟩) ![d, 0] ![1, 125] inb).toLoadRect (ix2 0 g) = View.canon L (ix2 ⟨d, hd⟩ g) := by
  rw [View.readCov_eq_canon']
  show View.canon L _ = _
  refine congrArg (View.canon L) ?_
  exact emb_row d hd inb g

private theorem pay7_apply (j : S3x125.Idx) : k0_pay7 (F := Ideal) j = Ideal.ofBits .f32 0xFF800000#32 := by
  have h : k0_pay7 (F := Ideal) = broadcast S3x125 (Scalar.ofBits .f32 0xFF800000#32) := shapeCast_self _ _
  rw [h]; rfl
private theorem pay8_apply (j : S3x125.Idx) : k0_pay8 (F := Ideal) j = Ideal.ofBits .f32 0x7F800000#32 := by
  have h : k0_pay8 (F := Ideal) = broadcast S3x125 (Scalar.ofBits .f32 0x7F800000#32) := shapeCast_self _ _
  rw [h]; rfl
private theorem pay9_apply (j : S3x125.Idx) : k0_pay9 (F := Ideal) j = cZero := by
  have h : k0_pay9 (F := Ideal) = broadcast S3x125 (Scalar.ofBits .f32 0x00000000#32) := shapeCast_self _ _
  rw [h]; rfl

private theorem init9_lo (r : Fin 9) (g : Fin 125) (h : r.val < 3) : init9 (ix2 r g) = Ideal.ofBits .f32 0xFF800000#32 := if_pos h
private theorem init9_mid (r : Fin 9) (g : Fin 125) (h1 : ¬ r.val < 3) (h2 : r.val < 6) :
    init9 (ix2 r g) = Ideal.ofBits .f32 0x7F800000#32 := (if_neg h1).trans (if_pos h2)
private theorem init9_hi (r : Fin 9) (g : Fin 125) (h1 : ¬ r.val < 3) (h2 : ¬ r.val < 6) : init9 (ix2 r g) = cZero :=
  (if_neg h1).trans (if_neg h2)

/-- A batch's first tile starts the nine rows of mean terms from their initial values and updates them by the tile's
    per-point terms. -/
theorem sout0_A_1_eq (c : Dev nD) (i : grid0.Coords) (arg2 : Memref sig .tc .vmem S1x1024x3 .f32) (harg2 : arg2.IsWhole) (arg3 : Memref sig .tc .vmem S3x125 .f32) (harg3 : arg3.IsWhole) (arg4 : Memref sig .tc .vmem S3x125 .f32) (harg4 : arg4.IsWhole) (arg5 : Memref sig .tc .vmem S1x125 .f32) (harg5 : arg5.IsWhole) (arg6 : Memref sig .tc .vmem S1x125 .f32) (harg6 : arg6.IsWhole) (arg7 : Memref sig .tc .vmem S1x125 .f32) (harg7 : arg7.IsWhole) (arg8 : Memref sig .tc .vmem S1x125 .f32) (harg8 : arg8.IsWhole) (arg9 : Memref sig .tc .vmem S1x20x125 .f32) (harg9 : arg9.IsWhole) (arg10 : Memref sig .tc .vmem S2x125 .f32) (harg10 : arg10.IsWhole) (arg11 : Memref sig .tc .vmem S9x125 .f32) (harg11 : arg11.IsWhole) (arg12 : Memref sig .tc .vmem S9x125 .f32) (harg12 : arg12.IsWhole) (hc0 : cond0_0 i) (hc1 : ¬cond0_1 i)
    (x0 : Vec Ideal S1x1024x3 .f32) (x1 : Vec Ideal S3x125 .f32) (x2 : Vec Ideal S3x125 .f32) (x3 : Vec Ideal S1x125 .f32) (x4 : Vec Ideal S1x125 .f32) (x5 : Vec Ideal S1x125 .f32) (x6 : Vec Ideal S1x125 .f32) :
    sout0_A_1 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = step1 x0 x1 x2 x3 x4 x5 init9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg10.read_unread, harg11.read_unread, harg12.read_unread,
    View.ld_unit_zero (S := S1x1024x3) zeros3, View.ld_unit_zero (S := S1x125) zeros2, View.ld_unit_zero (S := S2x125) zeros2]
  funext y
  obtain ⟨r, g, rfl⟩ : ∃ r g, y = ix2 r g := ⟨y 0, y 1, eq_ix2 y⟩
  revert r
  refine fin9_cases ?_ ?_ ?_ ?_ ?_ ?_ ?_ ?_ ?_
  · -- row 0
    try simp (disch := decide) only [canon_row_miss]
    refine (canon_row_hit 0 (by omega) _ _ _ g).trans ?_
    refine (row0_apply x0 x1 x2 x3 x4 x5 _ g).trans ?_
    rw [readCov_row (R := 9) _ _ 0 (by omega) _ g]
    try simp (disch := decide) only [canon_row_miss, canon_blk3_miss]
    rw [canon_blk3_hit 0 _ _ _ ⟨0, by omega⟩ 0 (by decide) g, pay7_apply, ← init9_lo 0 g (by decide)]
    refine Eq.trans ?_ (step1_row x0 x1 x2 x3 x4 x5 init9 0 g).symm
    rw [show statOf (0 : Fin 9) = 0 from by decide, show coordOf (0 : Fin 9) = 0 from by decide]
  · -- row 1
    try simp (disch := decide) only [canon_row_miss]
    refine (canon_row_hit 1 (by omega) _ _ _ g).trans ?_
    refine (row1_apply x0 x1 x2 x3 x4 x5 _ g).trans ?_
    rw [readCov_row (R := 9) _ _ 1 (by omega) _ g]
    try simp (disch := decide) only [canon_row_miss, canon_blk3_miss]
    rw [canon_blk3_hit 0 _ _ _ ⟨1, by omega⟩ 1 (by decide) g, pay7_apply, ← init9_lo 1 g (by decide)]
    refine Eq.trans ?_ (step1_row x0 x1 x2 x3 x4 x5 init9 1 g).symm
    rw [show statOf (1 : Fin 9) = 0 from by decide, show coordOf (1 : Fin 9) = 1 from by decide]
  · -- row 2
    try simp (disch := decide) only [canon_row_miss]
    refine (canon_row_hit 2 (by omega) _ _ _ g).trans ?_
    refine (row2_apply x0 x1 x2 x3 x4 x5 _ g).trans ?_
    rw [readCov_row (R := 9) _ _ 2 (by omega) _ g]
    try simp (disch := decide) only [canon_row_miss, canon_blk3_miss]
    rw [canon_blk3_hit 0 _ _ _ ⟨2, by omega⟩ 2 (by decide) g, pay7_apply, ← init9_lo 2 g (by decide)]
    refine Eq.trans ?_ (step1_row x0 x1 x2 x3 x4 x5 init9 2 g).symm
    rw [show statOf (2 : Fin 9) = 0 from by decide, show coordOf (2 : Fin 9) = 2 from by decide]
  · -- row 3
    try simp (disch := decide) only [canon_row_miss]
    refine (canon_row_hit 3 (by omega) _ _ _ g).trans ?_
    refine (row3_apply x0 x1 x2 x3 x4 x5 _ g).trans ?_
    rw [readCov_row (R := 9) _ _ 3 (by omega) _ g]
    try simp (disch := decide) only [canon_row_miss, canon_blk3_miss]
    rw [canon_blk3_hit 3 _ _ _ ⟨3, by omega⟩ 0 (by decide) g, pay8_apply, ← init9_mid 3 g (by decide) (by decide)]
    refine Eq.trans ?_ (step1_row x0 x1 x2 x3 x4 x5 init9 3 g).symm
    rw [show statOf (3 : Fin 9) = 1 from by decide, show coordOf (3 : Fin 9) = 0 from by decide]
  · -- row 4
    try simp (disch := decide) only [canon_row_miss]
    refine (canon_row_hit 4 (by omega) _ _ _ g).trans ?_
    refine (row4_apply x0 x1 x2 x3 x4 x5 _ g).trans ?_
    rw [readCov_row (R := 9) _ _ 4 (by omega) _ g]
    try simp (disch := decide) only [canon_row_miss, canon_blk3_miss]
    rw [canon_blk3_hit 3 _ _ _ ⟨4, by omega⟩ 1 (by decide) g, pay8_apply, ← init9_mid 4 g (by decide) (by decide)]
    refine Eq.trans ?_ (step1_row x0 x1 x2 x3 x4 x5 init9 4 g).symm
    rw [show statOf (4 : Fin 9) = 1 from by decide, show coordOf (4 : Fin 9) = 1 from by decide]
  · -- row 5
    try simp (disch := decide) only [canon_row_miss]
    refine (canon_row_hit 5 (by omega) _ _ _ g).trans ?_
    refine (row5_apply x0 x1 x2 x3 x4 x5 _ g).trans ?_
    rw [readCov_row (R := 9) _ _ 5 (by omega) _ g]
    try simp (disch := decide) only [canon_row_miss, canon_blk3_miss]
    rw [canon_blk3_hit 3 _ _ _ ⟨5, by omega⟩ 2 (by decide) g, pay8_apply, ← init9_mid 5 g (by decide) (by decide)]
    refine Eq.trans ?_ (step1_row x0 x1 x2 x3 x4 x5 init9 5 g).symm
    rw [show statOf (5 : Fin 9) = 1 from by decide, show coordOf (5 : Fin 9) = 2 from by decide]
  · -- row 6
    try simp (disch := decide) only [canon_row_miss]
    refine (canon_row_hit 6 (by omega) _ _ _ g).trans ?_
    refine (row6_apply x0 x1 x2 x3 x4 x5 _ g).trans ?_
    rw [readCov_row (R := 9) _ _ 6 (by omega) _ g]
    try simp (disch := decide) only [canon_row_miss, canon_blk3_miss]
    rw [canon_blk3_hit 6 _ _ _ ⟨6, by omega⟩ 0 (by decide) g, pay9_apply, ← init9_hi 6 g (by decide) (by decide)]
    refine Eq.trans ?_ (step1_row x0 x1 x2 x3 x4 x5 init9 6 g).symm
    rw [show statOf (6 : Fin 9) = 2 from by decide, show coordOf (6 : Fin 9) = 0 from by decide]
  · -- row 7
    try simp (disch := decide) only [canon_row_miss]
    refine (canon_row_hit 7 (by omega) _ _ _ g).trans ?_
    refine (row7_apply x0 x1 x2 x3 x4 x5 _ g).trans ?_
    rw [readCov_row (R := 9) _ _ 7 (by omega) _ g]
    try simp (disch := decide) only [canon_row_miss, canon_blk3_miss]
    rw [canon_blk3_hit 6 _ _ _ ⟨7, by omega⟩ 1 (by decide) g, pay9_apply, ← init9_hi 7 g (by decide) (by decide)]
    refine Eq.trans ?_ (step1_row x0 x1 x2 x3 x4 x5 init9 7 g).symm
    rw [show statOf (7 : Fin 9) = 2 from by decide, show coordOf (7 : Fin 9) = 1 from by decide]
  · -- row 8
    try simp (disch := decide) only [canon_row_miss]
    refine (canon_row_hit 8 (by omega) _ _ _ g).trans ?_
    refine (row8_apply x0 x1 x2 x3 x4 x5 _ g).trans ?_
    rw [readCov_row (R := 9) _ _ 8 (by omega) _ g]
    try simp (disch := decide) only [canon_row_miss, canon_blk3_miss]
    rw [canon_blk3_hit 6 _ _ _ ⟨8, by omega⟩ 2 (by decide) g, pay9_apply, ← init9_hi 8 g (by decide) (by decide)]
    refine Eq.trans ?_ (step1_row x0 x1 x2 x3 x4 x5 init9 8 g).symm
    rw [show statOf (8 : Fin 9) = 2 from by decide, show coordOf (8 : Fin 9) = 2 from by decide]

/-- A middle tile updates the nine rows of mean terms by the tile's per-point terms. -/
theorem sout0_B_1_eq (c : Dev nD) (i : grid0.Coords) (arg2 : Memref sig .tc .vmem S1x1024x3 .f32) (harg2 : arg2.IsWhole) (arg3 : Memref sig .tc .vmem S3x125 .f32) (harg3 : arg3.IsWhole) (arg4 : Memref sig .tc .vmem S3x125 .f32) (harg4 : arg4.IsWhole) (arg5 : Memref sig .tc .vmem S1x125 .f32) (harg5 : arg5.IsWhole) (arg6 : Memref sig .tc .vmem S1x125 .f32) (harg6 : arg6.IsWhole) (arg7 : Memref sig .tc .vmem S1x125 .f32) (harg7 : arg7.IsWhole) (arg8 : Memref sig .tc .vmem S1x125 .f32) (harg8 : arg8.IsWhole) (arg9 : Memref sig .tc .vmem S1x20x125 .f32) (harg9 : arg9.IsWhole) (arg10 : Memref sig .tc .vmem S2x125 .f32) (harg10 : arg10.IsWhole) (arg11 : Memref sig .tc .vmem S9x125 .f32) (harg11 : arg11.IsWhole) (arg12 : Memref sig .tc .vmem S9x125 .f32) (harg12 : arg12.IsWhole) (hc0 : ¬cond0_0 i) (hc1 : ¬cond0_1 i)
    (x0 : Vec Ideal S1x1024x3 .f32) (x1 : Vec Ideal S3x125 .f32) (x2 : Vec Ideal S3x125 .f32) (x3 : Vec Ideal S1x125 .f32) (x4 : Vec Ideal S1x125 .f32) (x5 : Vec Ideal S1x125 .f32) (x6 : Vec Ideal S1x125 .f32) (xs0 : Vec Ideal S2x125 .f32) (xs1 : Vec Ideal S9x125 .f32) (xs2 : Vec Ideal S9x125 .f32) :
    sout0_B_1 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = step1 x0 x1 x2 x3 x4 x5 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread, harg12.read_unread,
    View.ld_unit_zero (S := S1x1024x3) zeros3, View.ld_unit_zero (S := S1x125) zeros2, View.ld_unit_zero (S := S2x125) zeros2]
  funext y
  obtain ⟨r, g, rfl⟩ : ∃ r g, y = ix2 r g := ⟨y 0, y 1, eq_ix2 y⟩
  revert r
  refine fin9_cases ?_ ?_ ?_ ?_ ?_ ?_ ?_ ?_ ?_
  · -- row 0
    try simp (disch := decide) only [canon_row_miss]
    refine (canon_row_hit 0 (by omega) _ _ _ g).trans ?_
    refine (row0_apply x0 x1 x2 x3 x4 x5 _ g).trans ?_
    rw [ld_row xs1 0 (by omega) _ g]
    refine Eq.trans ?_ (step1_row x0 x1 x2 x3 x4 x5 xs1 0 g).symm
    rw [show statOf (0 : Fin 9) = 0 from by decide, show coordOf (0 : Fin 9) = 0 from by decide]
    rfl
  · -- row 1
    try simp (disch := decide) only [canon_row_miss]
    refine (canon_row_hit 1 (by omega) _ _ _ g).trans ?_
    refine (row1_apply x0 x1 x2 x3 x4 x5 _ g).trans ?_
    rw [ld_row xs1 1 (by omega) _ g]
    refine Eq.trans ?_ (step1_row x0 x1 x2 x3 x4 x5 xs1 1 g).symm
    rw [show statOf (1 : Fin 9) = 0 from by decide, show coordOf (1 : Fin 9) = 1 from by decide]
    rfl
  · -- row 2
    try simp (disch := decide) only [canon_row_miss]
    refine (canon_row_hit 2 (by omega) _ _ _ g).trans ?_
    refine (row2_apply x0 x1 x2 x3 x4 x5 _ g).trans ?_
    rw [ld_row xs1 2 (by omega) _ g]
    refine Eq.trans ?_ (step1_row x0 x1 x2 x3 x4 x5 xs1 2 g).symm
    rw [show statOf (2 : Fin 9) = 0 from by decide, show coordOf (2 : Fin 9) = 2 from by decide]
    rfl
  · -- row 3
    try simp (disch := decide) only [canon_row_miss]
    refine (canon_row_hit 3 (by omega) _ _ _ g).trans ?_
    refine (row3_apply x0 x1 x2 x3 x4 x5 _ g).trans ?_
    rw [ld_row xs1 3 (by omega) _ g]
    refine Eq.trans ?_ (step1_row x0 x1 x2 x3 x4 x5 xs1 3 g).symm
    rw [show statOf (3 : Fin 9) = 1 from by decide, show coordOf (3 : Fin 9) = 0 from by decide]
    rfl
  · -- row 4
    try simp (disch := decide) only [canon_row_miss]
    refine (canon_row_hit 4 (by omega) _ _ _ g).trans ?_
    refine (row4_apply x0 x1 x2 x3 x4 x5 _ g).trans ?_
    rw [ld_row xs1 4 (by omega) _ g]
    refine Eq.trans ?_ (step1_row x0 x1 x2 x3 x4 x5 xs1 4 g).symm
    rw [show statOf (4 : Fin 9) = 1 from by decide, show coordOf (4 : Fin 9) = 1 from by decide]
    rfl
  · -- row 5
    try simp (disch := decide) only [canon_row_miss]
    refine (canon_row_hit 5 (by omega) _ _ _ g).trans ?_
    refine (row5_apply x0 x1 x2 x3 x4 x5 _ g).trans ?_
    rw [ld_row xs1 5 (by omega) _ g]
    refine Eq.trans ?_ (step1_row x0 x1 x2 x3 x4 x5 xs1 5 g).symm
    rw [show statOf (5 : Fin 9) = 1 from by decide, show coordOf (5 : Fin 9) = 2 from by decide]
    rfl
  · -- row 6
    try simp (disch := decide) only [canon_row_miss]
    refine (canon_row_hit 6 (by omega) _ _ _ g).trans ?_
    refine (row6_apply x0 x1 x2 x3 x4 x5 _ g).trans ?_
    rw [ld_row xs1 6 (by omega) _ g]
    refine Eq.trans ?_ (step1_row x0 x1 x2 x3 x4 x5 xs1 6 g).symm
    rw [show statOf (6 : Fin 9) = 2 from by decide, show coordOf (6 : Fin 9) = 0 from by decide]
    rfl
  · -- row 7
    try simp (disch := decide) only [canon_row_miss]
    refine (canon_row_hit 7 (by omega) _ _ _ g).trans ?_
    refine (row7_apply x0 x1 x2 x3 x4 x5 _ g).trans ?_
    rw [ld_row xs1 7 (by omega) _ g]
    refine Eq.trans ?_ (step1_row x0 x1 x2 x3 x4 x5 xs1 7 g).symm
    rw [show statOf (7 : Fin 9) = 2 from by decide, show coordOf (7 : Fin 9) = 1 from by decide]
    rfl
  · -- row 8
    try simp (disch := decide) only [canon_row_miss]
    refine (canon_row_hit 8 (by omega) _ _ _ g).trans ?_
    refine (row8_apply x0 x1 x2 x3 x4 x5 _ g).trans ?_
    rw [ld_row xs1 8 (by omega) _ g]
    refine Eq.trans ?_ (step1_row x0 x1 x2 x3 x4 x5 xs1 8 g).symm
    rw [show statOf (8 : Fin 9) = 2 from by decide, show coordOf (8 : Fin 9) = 2 from by decide]
    rfl

/-- A last tile updates the nine rows of mean terms by the tile's per-point terms. -/
theorem sout0_C_1_eq (c : Dev nD) (i : grid0.Coords) (arg2 : Memref sig .tc .vmem S1x1024x3 .f32) (harg2 : arg2.IsWhole) (arg3 : Memref sig .tc .vmem S3x125 .f32) (harg3 : arg3.IsWhole) (arg4 : Memref sig .tc .vmem S3x125 .f32) (harg4 : arg4.IsWhole) (arg5 : Memref sig .tc .vmem S1x125 .f32) (harg5 : arg5.IsWhole) (arg6 : Memref sig .tc .vmem S1x125 .f32) (harg6 : arg6.IsWhole) (arg7 : Memref sig .tc .vmem S1x125 .f32) (harg7 : arg7.IsWhole) (arg8 : Memref sig .tc .vmem S1x125 .f32) (harg8 : arg8.IsWhole) (arg9 : Memref sig .tc .vmem S1x20x125 .f32) (harg9 : arg9.IsWhole) (arg10 : Memref sig .tc .vmem S2x125 .f32) (harg10 : arg10.IsWhole) (arg11 : Memref sig .tc .vmem S9x125 .f32) (harg11 : arg11.IsWhole) (arg12 : Memref sig .tc .vmem S9x125 .f32) (harg12 : arg12.IsWhole) (hc0 : ¬cond0_0 i) (hc1 : cond0_1 i)
    (x0 : Vec Ideal S1x1024x3 .f32) (x1 : Vec Ideal S3x125 .f32) (x2 : Vec Ideal S3x125 .f32) (x3 : Vec Ideal S1x125 .f32) (x4 : Vec Ideal S1x125 .f32) (x5 : Vec Ideal S1x125 .f32) (x6 : Vec Ideal S1x125 .f32) (xs0 : Vec Ideal S2x125 .f32) (xs1 : Vec Ideal S9x125 .f32) (xs2 : Vec Ideal S9x125 .f32) :
    sout0_C_1 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = step1 x0 x1 x2 x3 x4 x5 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg10.read_unread, harg11.read_unread, harg12.read_unread,
    View.ld_unit_zero (S := S1x1024x3) zeros3, View.ld_unit_zero (S := S1x125) zeros2, View.ld_unit_zero (S := S2x125) zeros2]
  funext y
  obtain ⟨r, g, rfl⟩ : ∃ r g, y = ix2 r g := ⟨y 0, y 1, eq_ix2 y⟩
  revert r
  refine fin9_cases ?_ ?_ ?_ ?_ ?_ ?_ ?_ ?_ ?_
  · -- row 0
    try simp (disch := decide) only [canon_row_miss]
    refine (canon_row_hit 0 (by omega) _ _ _ g).trans ?_
    refine (row0_apply x0 x1 x2 x3 x4 x5 _ g).trans ?_
    rw [ld_row xs1 0 (by omega) _ g]
    refine Eq.trans ?_ (step1_row x0 x1 x2 x3 x4 x5 xs1 0 g).symm
    rw [show statOf (0 : Fin 9) = 0 from by decide, show coordOf (0 : Fin 9) = 0 from by decide]
    rfl
  · -- row 1
    try simp (disch := decide) only [canon_row_miss]
    refine (canon_row_hit 1 (by omega) _ _ _ g).trans ?_
    refine (row1_apply x0 x1 x2 x3 x4 x5 _ g).trans ?_
    rw [ld_row xs1 1 (by omega) _ g]
    refine Eq.trans ?_ (step1_row x0 x1 x2 x3 x4 x5 xs1 1 g).symm
    rw [show statOf (1 : Fin 9) = 0 from by decide, show coordOf (1 : Fin 9) = 1 from by decide]
    rfl
  · -- row 2
    try simp (disch := decide) only [canon_row_miss]
    refine (canon_row_hit 2 (by omega) _ _ _ g).trans ?_
    refine (row2_apply x0 x1 x2 x3 x4 x5 _ g).trans ?_
    rw [ld_row xs1 2 (by omega) _ g]
    refine Eq.trans ?_ (step1_row x0 x1 x2 x3 x4 x5 xs1 2 g).symm
    rw [show statOf (2 : Fin 9) = 0 from by decide, show coordOf (2 : Fin 9) = 2 from by decide]
    rfl
  · -- row 3
    try simp (disch := decide) only [canon_row_miss]
    refine (canon_row_hit 3 (by omega) _ _ _ g).trans ?_
    refine (row3_apply x0 x1 x2 x3 x4 x5 _ g).trans ?_
    rw [ld_row xs1 3 (by omega) _ g]
    refine Eq.trans ?_ (step1_row x0 x1 x2 x3 x4 x5 xs1 3 g).symm
    rw [show statOf (3 : Fin 9) = 1 from by decide, show coordOf (3 : Fin 9) = 0 from by decide]
    rfl
  · -- row 4
    try simp (disch := decide) only [canon_row_miss]
    refine (canon_row_hit 4 (by omega) _ _ _ g).trans ?_
    refine (row4_apply x0 x1 x2 x3 x4 x5 _ g).trans ?_
    rw [ld_row xs1 4 (by omega) _ g]
    refine Eq.trans ?_ (step1_row x0 x1 x2 x3 x4 x5 xs1 4 g).symm
    rw [show statOf (4 : Fin 9) = 1 from by decide, show coordOf (4 : Fin 9) = 1 from by decide]
    rfl
  · -- row 5
    try simp (disch := decide) only [canon_row_miss]
    refine (canon_row_hit 5 (by omega) _ _ _ g).trans ?_
    refine (row5_apply x0 x1 x2 x3 x4 x5 _ g).trans ?_
    rw [ld_row xs1 5 (by omega) _ g]
    refine Eq.trans ?_ (step1_row x0 x1 x2 x3 x4 x5 xs1 5 g).symm
    rw [show statOf (5 : Fin 9) = 1 from by decide, show coordOf (5 : Fin 9) = 2 from by decide]
    rfl
  · -- row 6
    try simp (disch := decide) only [canon_row_miss]
    refine (canon_row_hit 6 (by omega) _ _ _ g).trans ?_
    refine (row6_apply x0 x1 x2 x3 x4 x5 _ g).trans ?_
    rw [ld_row xs1 6 (by omega) _ g]
    refine Eq.trans ?_ (step1_row x0 x1 x2 x3 x4 x5 xs1 6 g).symm
    rw [show statOf (6 : Fin 9) = 2 from by decide, show coordOf (6 : Fin 9) = 0 from by decide]
    rfl
  · -- row 7
    try simp (disch := decide) only [canon_row_miss]
    refine (canon_row_hit 7 (by omega) _ _ _ g).trans ?_
    refine (row7_apply x0 x1 x2 x3 x4 x5 _ g).trans ?_
    rw [ld_row xs1 7 (by omega) _ g]
    refine Eq.trans ?_ (step1_row x0 x1 x2 x3 x4 x5 xs1 7 g).symm
    rw [show statOf (7 : Fin 9) = 2 from by decide, show coordOf (7 : Fin 9) = 1 from by decide]
    rfl
  · -- row 8
    try simp (disch := decide) only [canon_row_miss]
    refine (canon_row_hit 8 (by omega) _ _ _ g).trans ?_
    refine (row8_apply x0 x1 x2 x3 x4 x5 _ g).trans ?_
    rw [ld_row xs1 8 (by omega) _ g]
    refine Eq.trans ?_ (step1_row x0 x1 x2 x3 x4 x5 xs1 8 g).symm
    rw [show statOf (8 : Fin 9) = 2 from by decide, show coordOf (8 : Fin 9) = 2 from by decide]
    rfl

end Cert.KernelIdeal.TileValue
end
-- ==== Proof.KTile2.lean ====
/-
  The deviation-term accumulator: what each of its nine row updates computes, read at a component.
  A row update takes the row's running value and the 1024 per-point terms of the tile,
  weight · (deviation² − 1) · scale, and returns their maximum, minimum or sum with the running value.
-/
import proofs.«113572_j78245714199386_1_alg».proof.Proof.Gen.KernelIdeal.Skeleton
import proofs.«113572_j78245714199386_1_alg».proof.Proof.TileSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileValue

open Idealize.ShloMosaic Idealize.ShloMosaic.ValueIdx Cert.KernelIdeal Cert.KernelIdeal.Gen Cert.Fisher Cert.Fisher.Tile

/-! ## Reductions over the points of a tile, read at a component -/
namespace Sg

/-- The word of −∞ and the word of +∞. -/
theorem negInf_bot : Ideal.ofBits .f32 0xFF800000#32 = ⊥ := by simp [Ideal.ofBits, Ideal.ieee]
theorem posInf_top : Ideal.ofBits .f32 0x7F800000#32 = ⊤ := by simp [Ideal.ofBits, Ideal.ieee]

/-- A fold of `max` from −∞ is the supremum, a fold of `min` from +∞ the infimum. -/
theorem fold_max_bot {ι : Type} (s : Finset ι) (f : ι → EReal) : s.fold max ⊥ f = s.sup f := rfl
theorem fold_min_top {ι : Type} (s : Finset ι) (f : ι → EReal) : s.fold min ⊤ f = s.inf f := rfl

/-- The index of component `g` with point `n` put back in front. -/
theorem lift_eq (g : Fin 125) (n : Fin 1024) : reduces_S1024x125_S125.lift (ix1 g) n = ix2 n g := by
  funext a
  match a with
  | ⟨0, _⟩ => exact Fin.ext rfl
  | ⟨1, _⟩ => exact Fin.ext rfl

/-- A sum over the 1024 points of a tile, read at component `g`. -/
theorem red_add (src : FVec Ideal S1024x125 .f32) (g : Fin 125) :
    multiReduction (F := Ideal) .add [0] S125 src 0x00000000#32 reduces_S1024x125_S125 (.inl rfl) rfl (ix1 g)
      = ∑ n : Fin 1024, src (ix2 n g) :=
  (Ideal.multiReduction_add_single src _ reduces_S1024x125_S125 (.inl rfl) rfl (ix1 g)).trans
    (Finset.sum_congr rfl fun n _ => congrArg src (lift_eq g n))

/-- A maximum over the points of a tile, from −∞. -/
theorem red_max (src : FVec Ideal S1024x125 .f32) (g : Fin 125) :
    multiReduction (F := Ideal) .maximumf [0] S125 src 0xFF800000#32 reduces_S1024x125_S125 (.inl rfl) rfl (ix1 g)
      = Finset.univ.sup fun n : Fin 1024 => src (ix2 n g) := by
  refine (Ideal.multiReduction_maximumf_single src _ reduces_S1024x125_S125 (.inl rfl) rfl (ix1 g)).trans ?_
  have e : (src ∘ reduces_S1024x125_S125.lift (ix1 g)) = fun n : Fin 1024 => src (ix2 n g) :=
    funext fun n => congrArg src (lift_eq g n)
  rw [e]
  refine Eq.trans ?_ (fold_max_bot Finset.univ _)
  exact congrArg (fun z => (Finset.univ : Finset (Fin 1024)).fold max z fun n => src (ix2 n g)) negInf_bot

/-- A minimum over the points of a tile, from +∞. -/
theorem red_min (src : FVec Ideal S1024x125 .f32) (g : Fin 125) :
    multiReduction (F := Ideal) .minimumf [0] S125 src 0x7F800000#32 reduces_S1024x125_S125 (.inl rfl) rfl (ix1 g)
      = Finset.univ.inf fun n : Fin 1024 => src (ix2 n g) := by
  refine (multiReduction_minimumf_eq_fold src _ reduces_S1024x125_S125 (.inl rfl) rfl (ix1 g)).trans ?_
  refine (reduces_S1024x125_S125.fold_filter_drop_single _ _ src (ix1 g)).trans ?_
  have e : (src ∘ reduces_S1024x125_S125.lift (ix1 g)) = fun n : Fin 1024 => src (ix2 n g) :=
    funext fun n => congrArg src (lift_eq g n)
  rw [e]
  refine Eq.trans ?_ (fold_min_top Finset.univ _)
  exact congrArg (fun z => (Finset.univ : Finset (Fin 1024)).fold min z fun n => src (ix2 n g)) posInf_top

/-- A vector of 125 entries viewed as one row reads the same entry. -/
theorem cast_row125 (v : FVec Ideal S125 .f32) (g : Fin 125) :
    shapeCast S1x125 v shapeCasts_S125_S1x125 (ix2 0 g) = v (ix1 g) :=
  shapeCast_a_1a_apply v shapeCasts_S125_S1x125 0 g

/-- One row spread over the 1024 points reads, at any point, that row. -/
theorem bcast_row125 (v : FVec Ideal S1x125 .f32) (n : Fin 1024) (g : Fin 125) :
    broadcastTo S1024x125 v broadcasts_S1x125_S1024x125 (ix2 n g) = v (ix2 0 g) :=
  broadcastTo_1b_ab_apply v broadcasts_S1x125_S1024x125 n g

/-- The running maximum of a row after a tile whose per-point terms are `src`. -/
theorem rowMax_apply (src : FVec Ideal S1024x125 .f32) (acc : Vec Ideal S1x125 .f32) (g : Fin 125) :
    shapeCast S1x125 (maximumf acc (shapeCast S1x125
        (multiReduction (F := Ideal) .maximumf [0] S125 src 0xFF800000#32 reduces_S1024x125_S125 (.inl rfl) rfl)
        shapeCasts_S125_S1x125)) shapeCasts_S1x125_S1x125 (ix2 0 g)
      = upd 0 (acc (ix2 0 g)) (fun n => src (ix2 n g)) := by
  rw [shapeCast_self]
  show max (acc (ix2 0 g)) (shapeCast S1x125 _ shapeCasts_S125_S1x125 (ix2 0 g)) = _
  rw [cast_row125, red_max]
  rfl

/-- The running minimum of a row after a tile. -/
theorem rowMin_apply (src : FVec Ideal S1024x125 .f32) (acc : Vec Ideal S1x125 .f32) (g : Fin 125) :
    shapeCast S1x125 (minimumf acc (shapeCast S1x125
        (multiReduction (F := Ideal) .minimumf [0] S125 src 0x7F800000#32 reduces_S1024x125_S125 (.inl rfl) rfl)
        shapeCasts_S125_S1x125)) shapeCasts_S1x125_S1x125 (ix2 0 g)
      = upd 1 (acc (ix2 0 g)) (fun n => src (ix2 n g)) := by
  rw [shapeCast_self]
  show min (acc (ix2 0 g)) (shapeCast S1x125 _ shapeCasts_S125_S1x125 (ix2 0 g)) = _
  rw [cast_row125, red_min]
  rfl

/-- The running sum of a row after a tile. -/
theorem rowSum_apply (src : FVec Ideal S1024x125 .f32) (acc : Vec Ideal S1x125 .f32) (g : Fin 125) :
    shapeCast S1x125 (addf acc (shapeCast S1x125
        (multiReduction (F := Ideal) .add [0] S125 src 0x00000000#32 reduces_S1024x125_S125 (.inl rfl) rfl)
        shapeCasts_S125_S1x125)) shapeCasts_S1x125_S1x125 (ix2 0 g)
      = upd 2 (acc (ix2 0 g)) (fun n => src (ix2 n g)) := by
  rw [shapeCast_self]
  show acc (ix2 0 g) + (shapeCast S1x125 _ shapeCasts_S125_S1x125 (ix2 0 g)) = _
  rw [cast_row125, red_add]
  rfl

/-- The per-point deviation term: weight times (deviation squared minus one) times the row's scale. -/
theorem sgTerm_apply (v12 : FVec Ideal S1x125 .f32) (v v58 : FVec Ideal S1024x125 .f32) (n : Fin 1024) (g : Fin 125) :
    mulf (mulf v58 (subf (mulf v v) (broadcast S1024x125 (Scalar.ofBits .f32 0x3F800000#32))))
        (broadcastTo S1024x125 v12 broadcasts_S1x125_S1024x125) (ix2 n g)
      = v58 (ix2 n g) * (v (ix2 n g) * v (ix2 n g) - cOne) * v12 (ix2 0 g) := by
  show v58 (ix2 n g) * (v (ix2 n g) * v (ix2 n g) - cOne) * (broadcastTo S1024x125 v12 broadcasts_S1x125_S1024x125 (ix2 n g)) = _
  rw [bcast_row125]

end Sg

/-! ## The deviation-term payloads at an index -/

variable (v12 : FVec Ideal S1x125 .f32) (v22 v33 v45 v58 : FVec Ideal S1024x125 .f32) (acc : Vec Ideal S1x125 .f32)

theorem pay34_apply (n : Fin 1024) (g : Fin 125) :
    k0_pay34 (F := Ideal) v12 v22 v58 (ix2 n g) = v58 (ix2 n g) * (v22 (ix2 n g) * v22 (ix2 n g) - cOne) * v12 (ix2 0 g) :=
  Sg.sgTerm_apply v12 v22 v58 n g

theorem pay42_apply (n : Fin 1024) (g : Fin 125) :
    k0_pay42 (F := Ideal) v12 v33 v58 (ix2 n g) = v58 (ix2 n g) * (v33 (ix2 n g) * v33 (ix2 n g) - cOne) * v12 (ix2 0 g) :=
  Sg.sgTerm_apply v12 v33 v58 n g

theorem pay50_apply (n : Fin 1024) (g : Fin 125) :
    k0_pay50 (F := Ideal) v12 v45 v58 (ix2 n g) = v58 (ix2 n g) * (v45 (ix2 n g) * v45 (ix2 n g) - cOne) * v12 (ix2 0 g) :=
  Sg.sgTerm_apply v12 v45 v58 n g

/-- Coordinate 0: the maximum row, and the minimum and sum rows over the already formed terms. -/
theorem pay35_apply (g : Fin 125) :
    k0_pay35 (F := Ideal) v12 v22 v58 acc (ix2 0 g)
      = upd 0 (acc (ix2 0 g)) (fun n => v58 (ix2 n g) * (v22 (ix2 n g) * v22 (ix2 n g) - cOne) * v12 (ix2 0 g)) :=
  (Sg.rowMax_apply (k0_pay34 v12 v22 v58) acc g).trans
    (congrArg (upd 0 (acc (ix2 0 g))) (funext fun n => pay34_apply v12 v22 v58 n g))

theorem pay36_apply (v106 : FVec Ideal S1024x125 .f32) (g : Fin 125) :
    k0_pay36 (F := Ideal) v106 acc (ix2 0 g) = upd 1 (acc (ix2 0 g)) (fun n => v106 (ix2 n g)) :=
  Sg.rowMin_apply v106 acc g

theorem pay37_apply (v106 : FVec Ideal S1024x125 .f32) (g : Fin 125) :
    k0_pay37 (F := Ideal) v106 acc (ix2 0 g) = upd 2 (acc (ix2 0 g)) (fun n => v106 (ix2 n g)) :=
  Sg.rowSum_apply v106 acc g

/-- Coordinate 1: maximum, minimum and sum rows. -/
theorem pay43_apply (g : Fin 125) :
    k0_pay43 (F := Ideal) v12 v33 v58 acc (ix2 0 g)
      = upd 0 (acc (ix2 0 g)) (fun n => v58 (ix2 n g) * (v33 (ix2 n g) * v33 (ix2 n g) - cOne) * v12 (ix2 0 g)) :=
  (Sg.rowMax_apply (k0_pay42 v12 v33 v58) acc g).trans
    (congrArg (upd 0 (acc (ix2 0 g))) (funext fun n => pay42_apply v12 v33 v58 n g))

theorem pay44_apply (g : Fin 125) :
    k0_pay44 (F := Ideal) v12 v33 v58 acc (ix2 0 g)
      = upd 1 (acc (ix2 0 g)) (fun n => v58 (ix2 n g) * (v33 (ix2 n g) * v33 (ix2 n g) - cOne) * v12 (ix2 0 g)) :=
  (Sg.rowMin_apply (k0_pay42 v12 v33 v58) acc g).trans
    (congrArg (upd 1 (acc (ix2 0 g))) (funext fun n => pay42_apply v12 v33 v58 n g))

theorem pay45_apply (g : Fin 125) :
    k0_pay45 (F := Ideal) v12 v33 v58 acc (ix2 0 g)
      = upd 2 (acc (ix2 0 g)) (fun n => v58 (ix2 n g) * (v33 (ix2 n g) * v33 (ix2 n g) - cOne) * v12 (ix2 0 g)) :=
  (Sg.rowSum_apply (k0_pay42 v12 v33 v58) acc g).trans
    (congrArg (upd 2 (acc (ix2 0 g))) (funext fun n => pay42_apply v12 v33 v58 n g))

/-- Coordinate 2: the maximum row, and the minimum and sum rows over the already formed terms. -/
theorem pay51_apply (g : Fin 125) :
    k0_pay51 (F := Ideal) v12 v45 v58 acc (ix2 0 g)
      = upd 0 (acc (ix2 0 g)) (fun n => v58 (ix2 n g) * (v45 (ix2 n g) * v45 (ix2 n g) - cOne) * v12 (ix2 0 g)) :=
  (Sg.rowMax_apply (k0_pay50 v12 v45 v58) acc g).trans
    (congrArg (upd 0 (acc (ix2 0 g))) (funext fun n => pay50_apply v12 v45 v58 n g))

theorem pay1_apply (v208 : FVec Ideal S1024x125 .f32) (g : Fin 125) :
    k0_pay1 (F := Ideal) v208 acc (ix2 0 g) = upd 1 (acc (ix2 0 g)) (fun n => v208 (ix2 n g)) :=
  Sg.rowMin_apply v208 acc g

theorem pay2_apply (v208 : FVec Ideal S1024x125 .f32) (g : Fin 125) :
    k0_pay2 (F := Ideal) v208 acc (ix2 0 g) = upd 2 (acc (ix2 0 g)) (fun n => v208 (ix2 n g)) :=
  Sg.rowSum_apply v208 acc g

end Cert.KernelIdeal.TileValue
end
-- ==== Proof.KRows2.lean ====
/-
  The deviation-term accumulator over one tile. A list of nine row writes, one per row, leaves at every entry
  the payload of that entry's row; each row's payload is the row's running value combined — by maximum, minimum or
  sum — with the tile's 1024 terms weight · (deviation² − 1) · scale of the row's coordinate. So the nine writes
  take an accumulator `A` to the accumulator one tile further. The initialising writes leave −∞, +∞ and 0 in
  the maximum, minimum and sum rows.
-/
import proofs.«113572_j78245714199386_1_alg».proof.Proof.Gen.KernelIdeal.Skeleton
import proofs.«113572_j78245714199386_1_alg».proof.Proof.TileSpec
import proofs.«113572_j78245714199386_1_alg».proof.Proof.KTile2
import proofs.«113572_j78245714199386_1_alg».proof.Proof.KTileQ
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.TileValue

open Idealize.ShloMosaic Idealize.ShloMosaic.ValueIdx Idealize.ShloMosaic.TcCoe Idealize.ShloMosaic.Tactic Idealize.SL.Sem
open Cert.KernelIdeal Cert.KernelIdeal.Gen Cert.Fisher Cert.Fisher.Tile

namespace Sg

/-! ## Rows and blocks of rows of an `[R, 125]` array -/

/-- Row `r = o + j` is row `j` of the block of `k` rows that starts at row `o`. -/
theorem rows_eq_emb {R : Nat} (o k : Nat) (inb : ∀ a, (![o, 0] : Fin 2 → Nat) a + (![k, 125] : Fin 2 → Nat) a ≤ (⟨2, ![R, 125]⟩ : Shape).size a)
    (r : Fin R) (j : Fin k) (g : Fin 125) (hrj : r.val = o + j.val) :
    ix2 r g = (Rect.unit (s := ⟨2, ![R, 125]⟩) ![o, 0] ![k, 125] inb).emb (ix2 j g) := by
  funext a
  refine Fin.ext ?_
  match a with
  | ⟨0, _⟩ => show r.val = o + 1 * j.val; omega
  | ⟨1, _⟩ => show g.val = 0 + 1 * g.val; omega

theorem not_mem_rows {R : Nat} (o k : Nat) (inb : ∀ a, (![o, 0] : Fin 2 → Nat) a + (![k, 125] : Fin 2 → Nat) a ≤ (⟨2, ![R, 125]⟩ : Shape).size a)
    (r : Fin R) (g : Fin 125) (h : r.val < o ∨ o + k ≤ r.val) :
    ix2 r g ∉ (Rect.unit (s := ⟨2, ![R, 125]⟩) ![o, 0] ![k, 125] inb).set := by
  rw [Rect.mem_set_unit]
  intro hm
  have h0 := hm (⟨0, by decide⟩ : Fin 2)
  have h1 : o ≤ r.val ∧ r.val < o + k := h0
  omega

/-- After a last write to a block of rows, an entry of the block reads that write's payload, -/
theorem canon_rows_hit {R : Nat} (o k : Nat) (inb : ∀ a, (![o, 0] : Fin 2 → Nat) a + (![k, 125] : Fin 2 → Nat) a ≤ (⟨2, ![R, 125]⟩ : Shape).size a)
    (w : (Rect.unit (s := ⟨2, ![R, 125]⟩) ![o, 0] ![k, 125] inb).shape.Idx → Elt Ideal .f32)
    (L : List (View.Piece (Elt Ideal) ⟨2, ![R, 125]⟩ .f32)) (r : Fin R) (j : Fin k) (g : Fin 125) (hrj : r.val = o + j.val) :
    View.canon (⟨Rect.unit (s := ⟨2, ![R, 125]⟩) ![o, 0] ![k, 125] inb, w⟩ :: L) (ix2 r g) = w (ix2 j g) := by
  rw [rows_eq_emb o k inb r j g hrj]
  exact View.canon_cons_emb _ w L _

/-- and an entry outside it what the earlier writes left. -/
theorem canon_rows_miss {R : Nat} (o k : Nat) (inb : ∀ a, (![o, 0] : Fin 2 → Nat) a + (![k, 125] : Fin 2 → Nat) a ≤ (⟨2, ![R, 125]⟩ : Shape).size a)
    (w : (Rect.unit (s := ⟨2, ![R, 125]⟩) ![o, 0] ![k, 125] inb).shape.Idx → Elt Ideal .f32)
    (L : List (View.Piece (Elt Ideal) ⟨2, ![R, 125]⟩ .f32)) (r : Fin R) (g : Fin 125) (h : r.val < o ∨ o + k ≤ r.val) :
    View.canon (⟨Rect.unit (s := ⟨2, ![R, 125]⟩) ![o, 0] ![k, 125] inb, w⟩ :: L) (ix2 r g) = View.canon L (ix2 r g) :=
  View.canon_cons_of_not_mem _ L (not_mem_rows o k inb r g h)

/-- A load of row `d` of what a list of writes left reads the contents at row `d`. -/
theorem readCov_row {sig : RefSig} {κ : Kind} {sp : Space} {R : Nat} (v : View sig κ sp ⟨2, ![R, 125]⟩ .f32)
    (L : List (View.Piece (Elt Ideal) ⟨2, ![R, 125]⟩ .f32)) (d : Nat) (hd : d < R)
    (inb : ∀ a, (![d, 0] : Fin 2 → Nat) a + (![1, 125] : Fin 2 → Nat) a ≤ (⟨2, ![R, 125]⟩ : Shape).size a) (g : Fin 125) :
    v.readCov L (Rect.unit (s := ⟨2, ![R, 125]⟩) ![d, 0] ![1, 125] inb).toLoadRect (ix2 0 g) = View.canon L (ix2 ⟨d, hd⟩ g) := by
  rw [View.readCov_eq_canon']
  exact congrArg (View.canon L) (rows_eq_emb d 1 inb ⟨d, hd⟩ 0 g (by show d = d + 0; omega)).symm

/-- Nine row writes, one per row, leave at every entry the payload of that entry's row, whatever was written before. -/
theorem canon9_eq (G : S9x125.Idx → Elt Ideal .f32) (w0 w1 w2 w3 w4 w5 w6 w7 w8 : S1x125.Idx → Elt Ideal .f32)
    (L' : List (View.Piece (Elt Ideal) S9x125 .f32))
    (h0 : ∀ g, w0 (ix2 0 g) = G (ix2 0 g)) (h1 : ∀ g, w1 (ix2 0 g) = G (ix2 1 g)) (h2 : ∀ g, w2 (ix2 0 g) = G (ix2 2 g))
    (h3 : ∀ g, w3 (ix2 0 g) = G (ix2 3 g)) (h4 : ∀ g, w4 (ix2 0 g) = G (ix2 4 g)) (h5 : ∀ g, w5 (ix2 0 g) = G (ix2 5 g))
    (h6 : ∀ g, w6 (ix2 0 g) = G (ix2 6 g)) (h7 : ∀ g, w7 (ix2 0 g) = G (ix2 7 g)) (h8 : ∀ g, w8 (ix2 0 g) = G (ix2 8 g)) :
    View.canon (Val := Elt Ideal) (s := S9x125) (e := .f32)
      (⟨Rect.unit ![8, 0] ![1, 125] inb_S9x125_S1x125_8_0, w8⟩ :: ⟨Rect.unit ![5, 0] ![1, 125] inb_S9x125_S1x125_5_0, w5⟩ ::
       ⟨Rect.unit ![2, 0] ![1, 125] inb_S9x125_S1x125_2_0, w2⟩ :: ⟨Rect.unit ![7, 0] ![1, 125] inb_S9x125_S1x125_7_0, w7⟩ ::
       ⟨Rect.unit ![4, 0] ![1, 125] inb_S9x125_S1x125_4_0, w4⟩ :: ⟨Rect.unit ![1, 0] ![1, 125] inb_S9x125_S1x125_1_0, w1⟩ ::
       ⟨Rect.unit ![6, 0] ![1, 125] inb_S9x125_S1x125_6_0, w6⟩ :: ⟨Rect.unit ![3, 0] ![1, 125] inb_S9x125_S1x125_3_0, w3⟩ ::
       ⟨Rect.unit ![0, 0] ![1, 125] inb_S9x125_S1x125_0_0, w0⟩ :: L') = G := by
  funext y
  obtain ⟨r, g, rfl⟩ : ∃ (r : Fin 9) (g : Fin 125), y = ix2 r g := ⟨y 0, y 1, eq_ix2 y⟩
  have m : ∀ (d : Nat) inb w L, r.val ≠ d → View.canon (Val := Elt Ideal) (⟨Rect.unit (s := S9x125) ![d, 0] ![1, 125] inb, w⟩ :: L) (ix2 r g) = View.canon L (ix2 r g) :=
    fun d inb w L h => canon_rows_miss d 1 inb w L r g (by omega)
  have hit : ∀ (d : Nat) inb w L, r.val = d → View.canon (Val := Elt Ideal) (⟨Rect.unit (s := S9x125) ![d, 0] ![1, 125] inb, w⟩ :: L) (ix2 r g) = w (ix2 0 g) :=
    fun d inb w L h => canon_rows_hit d 1 inb w L r 0 g (by show r.val = d + 0; omega)
  have hr := r.isLt
  have hG : ∀ (d : Nat) (hd : d < 9), r.val = d → G (ix2 ⟨d, hd⟩ g) = G (ix2 r g) := fun d hd h => by
    have : (⟨d, hd⟩ : Fin 9) = r := Fin.ext h.symm
    rw [this]
  by_cases e8 : r.val = 8
  · rw [hit 8 _ _ _ e8]; exact (h8 g).trans (hG 8 (by decide) e8)
  rw [m 8 _ _ _ e8]
  by_cases e5 : r.val = 5
  · rw [hit 5 _ _ _ e5]; exact (h5 g).trans (hG 5 (by decide) e5)
  rw [m 5 _ _ _ e5]
  by_cases e2 : r.val = 2
  · rw [hit 2 _ _ _ e2]; exact (h2 g).trans (hG 2 (by decide) e2)
  rw [m 2 _ _ _ e2]
  by_cases e7 : r.val = 7
  · rw [hit 7 _ _ _ e7]; exact (h7 g).trans (hG 7 (by decide) e7)
  rw [m 7 _ _ _ e7]
  by_cases e4 : r.val = 4
  · rw [hit 4 _ _ _ e4]; exact (h4 g).trans (hG 4 (by decide) e4)
  rw [m 4 _ _ _ e4]
  by_cases e1 : r.val = 1
  · rw [hit 1 _ _ _ e1]; exact (h1 g).trans (hG 1 (by decide) e1)
  rw [m 1 _ _ _ e1]
  by_cases e6 : r.val = 6
  · rw [hit 6 _ _ _ e6]; exact (h6 g).trans (hG 6 (by decide) e6)
  rw [m 6 _ _ _ e6]
  by_cases e3 : r.val = 3
  · rw [hit 3 _ _ _ e3]; exact (h3 g).trans (hG 3 (by decide) e3)
  rw [m 3 _ _ _ e3]
  have e0 : r.val = 0 := by omega
  rw [hit 0 _ _ _ e0]; exact (h0 g).trans (hG 0 (by decide) e0)

/-- What the three initialising writes leave: −∞ in rows 0–2, +∞ in rows 3–5, 0 in rows 6–8. -/
theorem canon_init9 (r : Fin 9) (g : Fin 125) :
    View.canon (Val := Elt Ideal) (s := S9x125) (e := .f32)
      [⟨Rect.unit ![6, 0] ![3, 125] inb_S9x125_S3x125_6_0, k0_pay15 (F := Ideal) k0_pay12⟩,
       ⟨Rect.unit ![3, 0] ![3, 125] inb_S9x125_S3x125_3_0, k0_pay11 (F := Ideal)⟩,
       ⟨Rect.unit ![0, 0] ![3, 125] inb_S9x125_S3x125_0_0, k0_pay10 (F := Ideal)⟩] (ix2 r g) = init9 (ix2 r g) := by
  have hr := r.isLt
  unfold init9
  by_cases h6 : 6 ≤ r.val
  · rw [canon_rows_hit 6 3 _ _ _ r ⟨r.val - 6, by omega⟩ g (by show r.val = 6 + (r.val - 6); omega)]
    rw [if_neg (by show ¬ r.val < 3; omega), if_neg (by show ¬ r.val < 6; omega)]
    unfold k0_pay15 k0_pay12
    rw [shapeCast_self]
    rfl
  rw [canon_rows_miss 6 3 _ _ _ r g (Or.inl (by omega))]
  by_cases h3 : 3 ≤ r.val
  · rw [canon_rows_hit 3 3 _ _ _ r ⟨r.val - 3, by omega⟩ g (by show r.val = 3 + (r.val - 3); omega)]
    rw [if_neg (by show ¬ r.val < 3; omega), if_pos (by show r.val < 6; omega)]
    unfold k0_pay11
    rw [shapeCast_self]
    rfl
  rw [canon_rows_miss 3 3 _ _ _ r g (Or.inl (by omega))]
  rw [canon_rows_hit 0 3 _ _ _ r ⟨r.val, by omega⟩ g (by show r.val = 0 + r.val; omega)]
  rw [if_pos (by show r.val < 3; omega)]
  unfold k0_pay10
  rw [shapeCast_self]
  rfl

end Sg

/-! ## The nine row updates of the deviation-term accumulator, on the blocks a grid point sees -/

section Rows

variable (x0 : Vec Ideal S1x1024x3 .f32) (x1 x2 : Vec Ideal S3x125 .f32) (x3 x4 x6 : Vec Ideal S1x125 .f32)

/-- The three standardised deviations and the posterior weight, as the body forms them. -/
abbrev D0 : FVec Ideal S1024x125 .f32 := k0_pay21 (F := Ideal) x0 (View.ld x1 (Rect.unit ![0, 0] ![1, 125] inb_S3x125_S1x125_0_0)) (View.ld x2 (Rect.unit ![0, 0] ![1, 125] inb_S3x125_S1x125_0_0))
abbrev D1 : FVec Ideal S1024x125 .f32 := k0_pay22 (F := Ideal) x0 (View.ld x1 (Rect.unit ![1, 0] ![1, 125] inb_S3x125_S1x125_1_0)) (View.ld x2 (Rect.unit ![1, 0] ![1, 125] inb_S3x125_S1x125_1_0))
abbrev D2 : FVec Ideal S1024x125 .f32 := k0_pay24 (F := Ideal) (k0_pay16 x0) (View.ld x1 (Rect.unit ![2, 0] ![1, 125] inb_S3x125_S1x125_2_0)) (View.ld x2 (Rect.unit ![2, 0] ![1, 125] inb_S3x125_S1x125_2_0))
abbrev Qv : FVec Ideal S1024x125 .f32 :=
  k0_pay25 (F := Ideal) (k0_pay16 x0) (k0_pay17 x4) (k0_pay18 x3)
    (k0_pay23 x0 (View.ld x1 (Rect.unit ![0, 0] ![1, 125] inb_S3x125_S1x125_0_0)) (View.ld x2 (Rect.unit ![0, 0] ![1, 125] inb_S3x125_S1x125_0_0)) (View.ld x1 (Rect.unit ![1, 0] ![1, 125] inb_S3x125_S1x125_1_0)) (View.ld x2 (Rect.unit ![1, 0] ![1, 125] inb_S3x125_S1x125_1_0))) (View.ld x1 (Rect.unit ![2, 0] ![1, 125] inb_S3x125_S1x125_2_0)) (View.ld x2 (Rect.unit ![2, 0] ![1, 125] inb_S3x125_S1x125_2_0))

/-- The per-point term of coordinate `d`, given that `D` is the deviation along `d`. -/
theorem sgTerm_eq (D : FVec Ideal S1024x125 .f32) (d : Fin 3) (hD : ∀ n g, D (ix2 n g) = tdev x0 x1 x2 n g d)
    (n : Fin 1024) (g : Fin 125) :
    Qv x0 x1 x2 x3 x4 (ix2 n g) * (D (ix2 n g) * D (ix2 n g) - cOne) * (k0_pay20 (F := Ideal) x6) (ix2 0 g)
      = tSg x0 x1 x2 x3 x4 x6 n g d := by
  have hQ : Qv x0 x1 x2 x3 x4 (ix2 n g) = tQ x0 x1 x2 x3 x4 n g := pay25_apply x0 x1 x2 x3 x4 n g
  have h20 : k0_pay20 (F := Ideal) x6 (ix2 0 g) = x6 (ix2 0 g) := by unfold k0_pay20; rw [shapeCast_self]
  rw [hQ, hD, h20]
  rfl

variable (acc : Vec Ideal S1x125 .f32) (g : Fin 125)

theorem row0_eq : k0_pay35 (F := Ideal) (k0_pay20 x6) (D0 x0 x1 x2) (Qv x0 x1 x2 x3 x4) acc (ix2 0 g)
    = upd 0 (acc (ix2 0 g)) (fun n => tSg x0 x1 x2 x3 x4 x6 n g 0) :=
  (pay35_apply _ _ _ acc g).trans (congrArg (upd 0 _) (funext fun n => sgTerm_eq x0 x1 x2 x3 x4 x6 _ 0 (pay21_apply x0 x1 x2) n g))

theorem row3_eq : k0_pay36 (F := Ideal) (k0_pay34 (k0_pay20 x6) (D0 x0 x1 x2) (Qv x0 x1 x2 x3 x4)) acc (ix2 0 g)
    = upd 1 (acc (ix2 0 g)) (fun n => tSg x0 x1 x2 x3 x4 x6 n g 0) :=
  (pay36_apply acc _ g).trans (congrArg (upd 1 _) (funext fun n =>
    (pay34_apply _ _ _ n g).trans (sgTerm_eq x0 x1 x2 x3 x4 x6 _ 0 (pay21_apply x0 x1 x2) n g)))

theorem row6_eq : k0_pay37 (F := Ideal) (k0_pay34 (k0_pay20 x6) (D0 x0 x1 x2) (Qv x0 x1 x2 x3 x4)) acc (ix2 0 g)
    = upd 2 (acc (ix2 0 g)) (fun n => tSg x0 x1 x2 x3 x4 x6 n g 0) :=
  (pay37_apply acc _ g).trans (congrArg (upd 2 _) (funext fun n =>
    (pay34_apply _ _ _ n g).trans (sgTerm_eq x0 x1 x2 x3 x4 x6 _ 0 (pay21_apply x0 x1 x2) n g)))

theorem row1_eq : k0_pay43 (F := Ideal) (k0_pay20 x6) (D1 x0 x1 x2) (Qv x0 x1 x2 x3 x4) acc (ix2 0 g)
    = upd 0 (acc (ix2 0 g)) (fun n => tSg x0 x1 x2 x3 x4 x6 n g 1) :=
  (pay43_apply _ _ _ acc g).trans (congrArg (upd 0 _) (funext fun n => sgTerm_eq x0 x1 x2 x3 x4 x6 _ 1 (pay22_apply x0 x1 x2) n g))

theorem row4_eq : k0_pay44 (F := Ideal) (k0_pay20 x6) (D1 x0 x1 x2) (Qv x0 x1 x2 x3 x4) acc (ix2 0 g)
    = upd 1 (acc (ix2 0 g)) (fun n => tSg x0 x1 x2 x3 x4 x6 n g 1) :=
  (pay44_apply _ _ _ acc g).trans (congrArg (upd 1 _) (funext fun n => sgTerm_eq x0 x1 x2 x3 x4 x6 _ 1 (pay22_apply x0 x1 x2) n g))

theorem row7_eq : k0_pay45 (F := Ideal) (k0_pay20 x6) (D1 x0 x1 x2) (Qv x0 x1 x2 x3 x4) acc (ix2 0 g)
    = upd 2 (acc (ix2 0 g)) (fun n => tSg x0 x1 x2 x3 x4 x6 n g 1) :=
  (pay45_apply _ _ _ acc g).trans (congrArg (upd 2 _) (funext fun n => sgTerm_eq x0 x1 x2 x3 x4 x6 _ 1 (pay22_apply x0 x1 x2) n g))

theorem row2_eq : k0_pay51 (F := Ideal) (k0_pay20 x6) (D2 x0 x1 x2) (Qv x0 x1 x2 x3 x4) acc (ix2 0 g)
    = upd 0 (acc (ix2 0 g)) (fun n => tSg x0 x1 x2 x3 x4 x6 n g 2) :=
  (pay51_apply _ _ _ acc g).trans (congrArg (upd 0 _) (funext fun n => sgTerm_eq x0 x1 x2 x3 x4 x6 _ 2 (pay24_apply x0 x1 x2) n g))

theorem row5_eq : k0_pay1 (F := Ideal) (k0_pay50 (k0_pay20 x6) (D2 x0 x1 x2) (Qv x0 x1 x2 x3 x4)) acc (ix2 0 g)
    = upd 1 (acc (ix2 0 g)) (fun n => tSg x0 x1 x2 x3 x4 x6 n g 2) :=
  (pay1_apply acc _ g).trans (congrArg (upd 1 _) (funext fun n =>
    (pay50_apply _ _ _ n g).trans (sgTerm_eq x0 x1 x2 x3 x4 x6 _ 2 (pay24_apply x0 x1 x2) n g)))

theorem row8_eq : k0_pay2 (F := Ideal) (k0_pay50 (k0_pay20 x6) (D2 x0 x1 x2) (Qv x0 x1 x2 x3 x4)) acc (ix2 0 g)
    = upd 2 (acc (ix2 0 g)) (fun n => tSg x0 x1 x2 x3 x4 x6 n g 2) :=
  (pay2_apply acc _ g).trans (congrArg (upd 2 _) (funext fun n =>
    (pay50_apply _ _ _ n g).trans (sgTerm_eq x0 x1 x2 x3 x4 x6 _ 2 (pay24_apply x0 x1 x2) n g)))

end Rows

/-- One tile's update, read at row `k`: the row's statistic `s` of the terms of its coordinate `d`. -/
theorem step2_row (x0 : Vec Ideal S1x1024x3 .f32) (x1 x2 : Vec Ideal S3x125 .f32) (x3 x4 x6 : Vec Ideal S1x125 .f32)
    (A : Vec Ideal S9x125 .f32) (k : Fin 9) (s d : Fin 3) (hs : statOf k = s) (hd : coordOf k = d) (g : Fin 125) :
    step2 x0 x1 x2 x3 x4 x6 A (ix2 k g) = upd s (A (ix2 k g)) (fun n => tSg x0 x1 x2 x3 x4 x6 n g d) := by
  subst hs hd
  rfl

/-- The nine row writes of a tile, each applied to the running value `a_k` of its row, leave the accumulator
    one tile further, provided `a_k` is row `k` of the accumulator `A` the tile started from. -/
theorem rows_step2 (x0 : Vec Ideal S1x1024x3 .f32) (x1 x2 : Vec Ideal S3x125 .f32) (x3 x4 x6 : Vec Ideal S1x125 .f32)
    (A : Vec Ideal S9x125 .f32) (a0 a1 a2 a3 a4 a5 a6 a7 a8 : Vec Ideal S1x125 .f32)
    (L' : List (View.Piece (Elt Ideal) S9x125 .f32))
    (e0 : ∀ g, a0 (ix2 0 g) = A (ix2 0 g)) (e1 : ∀ g, a1 (ix2 0 g) = A (ix2 1 g)) (e2 : ∀ g, a2 (ix2 0 g) = A (ix2 2 g))
    (e3 : ∀ g, a3 (ix2 0 g) = A (ix2 3 g)) (e4 : ∀ g, a4 (ix2 0 g) = A (ix2 4 g)) (e5 : ∀ g, a5 (ix2 0 g) = A (ix2 5 g))
    (e6 : ∀ g, a6 (ix2 0 g) = A (ix2 6 g)) (e7 : ∀ g, a7 (ix2 0 g) = A (ix2 7 g)) (e8 : ∀ g, a8 (ix2 0 g) = A (ix2 8 g)) :
    View.canon (Val := Elt Ideal) (s := S9x125) (e := .f32)
      (⟨Rect.unit ![8, 0] ![1, 125] inb_S9x125_S1x125_8_0, k0_pay2 (k0_pay50 (k0_pay20 x6) (D2 x0 x1 x2) (Qv x0 x1 x2 x3 x4)) a8⟩ ::
       ⟨Rect.unit ![5, 0] ![1, 125] inb_S9x125_S1x125_5_0, k0_pay1 (k0_pay50 (k0_pay20 x6) (D2 x0 x1 x2) (Qv x0 x1 x2 x3 x4)) a5⟩ ::
       ⟨Rect.unit ![2, 0] ![1, 125] inb_S9x125_S1x125_2_0, k0_pay51 (k0_pay20 x6) (D2 x0 x1 x2) (Qv x0 x1 x2 x3 x4) a2⟩ ::
       ⟨Rect.unit ![7, 0] ![1, 125] inb_S9x125_S1x125_7_0, k0_pay45 (k0_pay20 x6) (D1 x0 x1 x2) (Qv x0 x1 x2 x3 x4) a7⟩ ::
       ⟨Rect.unit ![4, 0] ![1, 125] inb_S9x125_S1x125_4_0, k0_pay44 (k0_pay20 x6) (D1 x0 x1 x2) (Qv x0 x1 x2 x3 x4) a4⟩ ::
       ⟨Rect.unit ![1, 0] ![1, 125] inb_S9x125_S1x125_1_0, k0_pay43 (k0_pay20 x6) (D1 x0 x1 x2) (Qv x0 x1 x2 x3 x4) a1⟩ ::
       ⟨Rect.unit ![6, 0] ![1, 125] inb_S9x125_S1x125_6_0, k0_pay37 (k0_pay34 (k0_pay20 x6) (D0 x0 x1 x2) (Qv x0 x1 x2 x3 x4)) a6⟩ ::
       ⟨Rect.unit ![3, 0] ![1, 125] inb_S9x125_S1x125_3_0, k0_pay36 (k0_pay34 (k0_pay20 x6) (D0 x0 x1 x2) (Qv x0 x1 x2 x3 x4)) a3⟩ ::
       ⟨Rect.unit ![0, 0] ![1, 125] inb_S9x125_S1x125_0_0, k0_pay35 (k0_pay20 x6) (D0 x0 x1 x2) (Qv x0 x1 x2 x3 x4) a0⟩ :: L')
      = step2 x0 x1 x2 x3 x4 x6 A :=
  Sg.canon9_eq (step2 x0 x1 x2 x3 x4 x6 A) _ _ _ _ _ _ _ _ _ L'
    (fun g => (row0_eq x0 x1 x2 x3 x4 x6 a0 g).trans (by rw [e0 g]; exact (step2_row x0 x1 x2 x3 x4 x6 A 0 0 0 (by decide) (by decide) g).symm))
    (fun g => (row1_eq x0 x1 x2 x3 x4 x6 a1 g).trans (by rw [e1 g]; exact (step2_row x0 x1 x2 x3 x4 x6 A 1 0 1 (by decide) (by decide) g).symm))
    (fun g => (row2_eq x0 x1 x2 x3 x4 x6 a2 g).trans (by rw [e2 g]; exact (step2_row x0 x1 x2 x3 x4 x6 A 2 0 2 (by decide) (by decide) g).symm))
    (fun g => (row3_eq x0 x1 x2 x3 x4 x6 a3 g).trans (by rw [e3 g]; exact (step2_row x0 x1 x2 x3 x4 x6 A 3 1 0 (by decide) (by decide) g).symm))
    (fun g => (row4_eq x0 x1 x2 x3 x4 x6 a4 g).trans (by rw [e4 g]; exact (step2_row x0 x1 x2 x3 x4 x6 A 4 1 1 (by decide) (by decide) g).symm))
    (fun g => (row5_eq x0 x1 x2 x3 x4 x6 a5 g).trans (by rw [e5 g]; exact (step2_row x0 x1 x2 x3 x4 x6 A 5 1 2 (by decide) (by decide) g).symm))
    (fun g => (row6_eq x0 x1 x2 x3 x4 x6 a6 g).trans (by rw [e6 g]; exact (step2_row x0 x1 x2 x3 x4 x6 A 6 2 0 (by decide) (by decide) g).symm))
    (fun g => (row7_eq x0 x1 x2 x3 x4 x6 a7 g).trans (by rw [e7 g]; exact (step2_row x0 x1 x2 x3 x4 x6 A 7 2 1 (by decide) (by decide) g).symm))
    (fun g => (row8_eq x0 x1 x2 x3 x4 x6 a8 g).trans (by rw [e8 g]; exact (step2_row x0 x1 x2 x3 x4 x6 A 8 2 2 (by decide) (by decide) g).symm))

end Cert.KernelIdeal.TileValue
end
-- ==== Proof.KPiece2.lean ====
/-
  What a middle tile and a last tile of a batch leave in the deviation-term accumulator: the accumulator the
  point before left, taken one tile further.
-/
import proofs.«113572_j78245714199386_1_alg».proof.Proof.Gen.KernelIdeal.Frame
import proofs.«113572_j78245714199386_1_alg».proof.Proof.KRows2
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.TileValue

open Idealize.ShloMosaic Idealize.ShloMosaic.ValueIdx Idealize.ShloMosaic.TcCoe Idealize.ShloMosaic.Tactic Idealize.SL.Sem
open Cert.KernelIdeal Cert.KernelIdeal.Gen Cert.Fisher Cert.Fisher.Tile

namespace Sg
theorem hz2 : (![0, 0] : Fin 2 → Nat) = fun _ => 0 := funext fun a => by fin_cases a <;> rfl
theorem hz3 : (![0, 0, 0] : Fin 3 → Nat) = fun _ => 0 := funext fun a => by fin_cases a <;> rfl
end Sg

set_option maxHeartbeats 1000000 in
/-- Case B: the tile's nine row writes, each reading its row of what the point before left, take that accumulator one tile further. -/
theorem sout0_B_2_eq (c : Dev nD) (i : grid0.Coords) (arg2 : Memref sig .tc .vmem S1x1024x3 .f32) (harg2 : arg2.IsWhole) (arg3 : Memref sig .tc .vmem S3x125 .f32) (harg3 : arg3.IsWhole) (arg4 : Memref sig .tc .vmem S3x125 .f32) (harg4 : arg4.IsWhole) (arg5 : Memref sig .tc .vmem S1x125 .f32) (harg5 : arg5.IsWhole) (arg6 : Memref sig .tc .vmem S1x125 .f32) (harg6 : arg6.IsWhole) (arg7 : Memref sig .tc .vmem S1x125 .f32) (harg7 : arg7.IsWhole) (arg8 : Memref sig .tc .vmem S1x125 .f32) (harg8 : arg8.IsWhole) (arg9 : Memref sig .tc .vmem S1x20x125 .f32) (harg9 : arg9.IsWhole) (arg10 : Memref sig .tc .vmem S2x125 .f32) (harg10 : arg10.IsWhole) (arg11 : Memref sig .tc .vmem S9x125 .f32) (harg11 : arg11.IsWhole) (arg12 : Memref sig .tc .vmem S9x125 .f32) (harg12 : arg12.IsWhole) (hc0 : ¬cond0_0 i) (hc1 : ¬cond0_1 i)
    (x0 : Vec Ideal S1x1024x3 .f32) (x1 : Vec Ideal S3x125 .f32) (x2 : Vec Ideal S3x125 .f32) (x3 : Vec Ideal S1x125 .f32) (x4 : Vec Ideal S1x125 .f32) (x5 : Vec Ideal S1x125 .f32) (x6 : Vec Ideal S1x125 .f32) (xs0 : Vec Ideal S2x125 .f32) (xs1 : Vec Ideal S9x125 .f32) (xs2 : Vec Ideal S9x125 .f32) :
    sout0_B_2 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = step2 x0 x1 x2 x3 x4 x6 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread, harg12.read_unread,
    View.ld_unit_zero (S := S1x1024x3) Sg.hz3, View.ld_unit_zero (S := S1x125) Sg.hz2, View.ld_unit_zero (S := S2x125) Sg.hz2, View.ld_unit_zero (S := S9x125) Sg.hz2]
  exact rows_step2 x0 x1 x2 x3 x4 x6 xs2 _ _ _ _ _ _ _ _ _ []
    (fun g => ld_row xs2 0 (by decide) _ g) (fun g => ld_row xs2 1 (by decide) _ g) (fun g => ld_row xs2 2 (by decide) _ g)
    (fun g => ld_row xs2 3 (by decide) _ g) (fun g => ld_row xs2 4 (by decide) _ g) (fun g => ld_row xs2 5 (by decide) _ g)
    (fun g => ld_row xs2 6 (by decide) _ g) (fun g => ld_row xs2 7 (by decide) _ g) (fun g => ld_row xs2 8 (by decide) _ g)

set_option maxHeartbeats 1000000 in
/-- Case C: the tile's nine row writes, each reading its row of what the point before left, take that accumulator one tile further. -/
theorem sout0_C_2_eq (c : Dev nD) (i : grid0.Coords) (arg2 : Memref sig .tc .vmem S1x1024x3 .f32) (harg2 : arg2.IsWhole) (arg3 : Memref sig .tc .vmem S3x125 .f32) (harg3 : arg3.IsWhole) (arg4 : Memref sig .tc .vmem S3x125 .f32) (harg4 : arg4.IsWhole) (arg5 : Memref sig .tc .vmem S1x125 .f32) (harg5 : arg5.IsWhole) (arg6 : Memref sig .tc .vmem S1x125 .f32) (harg6 : arg6.IsWhole) (arg7 : Memref sig .tc .vmem S1x125 .f32) (harg7 : arg7.IsWhole) (arg8 : Memref sig .tc .vmem S1x125 .f32) (harg8 : arg8.IsWhole) (arg9 : Memref sig .tc .vmem S1x20x125 .f32) (harg9 : arg9.IsWhole) (arg10 : Memref sig .tc .vmem S2x125 .f32) (harg10 : arg10.IsWhole) (arg11 : Memref sig .tc .vmem S9x125 .f32) (harg11 : arg11.IsWhole) (arg12 : Memref sig .tc .vmem S9x125 .f32) (harg12 : arg12.IsWhole) (hc0 : ¬cond0_0 i) (hc1 : cond0_1 i)
    (x0 : Vec Ideal S1x1024x3 .f32) (x1 : Vec Ideal S3x125 .f32) (x2 : Vec Ideal S3x125 .f32) (x3 : Vec Ideal S1x125 .f32) (x4 : Vec Ideal S1x125 .f32) (x5 : Vec Ideal S1x125 .f32) (x6 : Vec Ideal S1x125 .f32) (xs0 : Vec Ideal S2x125 .f32) (xs1 : Vec Ideal S9x125 .f32) (xs2 : Vec Ideal S9x125 .f32) :
    sout0_C_2 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = step2 x0 x1 x2 x3 x4 x6 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg10.read_unread, harg11.read_unread, harg12.read_unread,
    View.ld_unit_zero (S := S1x1024x3) Sg.hz3, View.ld_unit_zero (S := S1x125) Sg.hz2, View.ld_unit_zero (S := S2x125) Sg.hz2, View.ld_unit_zero (S := S9x125) Sg.hz2]
  exact rows_step2 x0 x1 x2 x3 x4 x6 xs2 _ _ _ _ _ _ _ _ _ []
    (fun g => ld_row xs2 0 (by decide) _ g) (fun g => ld_row xs2 1 (by decide) _ g) (fun g => ld_row xs2 2 (by decide) _ g)
    (fun g => ld_row xs2 3 (by decide) _ g) (fun g => ld_row xs2 4 (by decide) _ g) (fun g => ld_row xs2 5 (by decide) _ g)
    (fun g => ld_row xs2 6 (by decide) _ g) (fun g => ld_row xs2 7 (by decide) _ g) (fun g => ld_row xs2 8 (by decide) _ g)

end Cert.KernelIdeal.TileValue
end
-- ==== Proof.KPiece2A.lean ====
/-
  What a batch's first tile leaves in the nine-row accumulator of the deviation terms: the initial accumulator
  (`-∞` under the maxima, `+∞` under the minima, `0` under the sums) advanced by the tile. Each row's update reads
  its row back after the three initial writes and the updates of other rows, and so reads the initial value.
-/
import proofs.«113572_j78245714199386_1_alg».proof.Proof.Gen.KernelIdeal.Frame
import proofs.«113572_j78245714199386_1_alg».proof.Proof.KRows2
import proofs.«113572_j78245714199386_1_alg».proof.Proof.KRow
import Idealize.ShloMosaic.Lib.Pipeline.Value
import Idealize.ShloMosaic.Lib.Tactic

set_option maxRecDepth 16384

noncomputable section

namespace Cert.KernelIdeal.TileValue

open Idealize.ShloMosaic Idealize.ShloMosaic.TcCoe Idealize.ShloMosaic.Tactic Idealize.SL.Sem Idealize.ShloMosaic.ValueIdx
open Cert.KernelIdeal Cert.KernelIdeal.Gen Cert.Fisher Cert.Fisher.Tile

namespace A2

theorem hz2 : (![0, 0] : Fin 2 → Nat) = fun _ => 0 := funext fun a => by fin_cases a <;> rfl
theorem hz3 : (![0, 0, 0] : Fin 3 → Nat) = fun _ => 0 := funext fun a => by fin_cases a <;> rfl

/-- Drop the writes to other rows from the front of a list of writes read at an entry of a given row. -/
macro "peel_rows" : tactic =>
  `(tactic| repeat (rw [canon_row_miss]; on_goal 2 => decide))

end A2

open A2 in
set_option maxHeartbeats 1000000 in
/-- A batch's first tile advances the initial nine-row accumulator. -/
theorem sout0_A_2_eq (c : Dev nD) (i : grid0.Coords) (arg2 : Memref sig .tc .vmem S1x1024x3 .f32) (harg2 : arg2.IsWhole) (arg3 : Memref sig .tc .vmem S3x125 .f32) (harg3 : arg3.IsWhole) (arg4 : Memref sig .tc .vmem S3x125 .f32) (harg4 : arg4.IsWhole) (arg5 : Memref sig .tc .vmem S1x125 .f32) (harg5 : arg5.IsWhole) (arg6 : Memref sig .tc .vmem S1x125 .f32) (harg6 : arg6.IsWhole) (arg7 : Memref sig .tc .vmem S1x125 .f32) (harg7 : arg7.IsWhole) (arg8 : Memref sig .tc .vmem S1x125 .f32) (harg8 : arg8.IsWhole) (arg9 : Memref sig .tc .vmem S1x20x125 .f32) (harg9 : arg9.IsWhole) (arg10 : Memref sig .tc .vmem S2x125 .f32) (harg10 : arg10.IsWhole) (arg11 : Memref sig .tc .vmem S9x125 .f32) (harg11 : arg11.IsWhole) (arg12 : Memref sig .tc .vmem S9x125 .f32) (harg12 : arg12.IsWhole) (hc0 : cond0_0 i) (hc1 : ¬cond0_1 i) (x0 : Vec Ideal S1x1024x3 .f32) (x1 : Vec Ideal S3x125 .f32) (x2 : Vec Ideal S3x125 .f32) (x3 : Vec Ideal S1x125 .f32) (x4 : Vec Ideal S1x125 .f32) (x5 : Vec Ideal S1x125 .f32) (x6 : Vec Ideal S1x125 .f32) :
    sout0_A_2 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 = step2 x0 x1 x2 x3 x4 x6 init9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg10.read_unread, harg11.read_unread, harg12.read_unread,
    View.ld_unit_zero (S := S1x1024x3) A2.hz3, View.ld_unit_zero (S := S1x125) A2.hz2, View.ld_unit_zero (S := S2x125) A2.hz2]
  refine rows_step2 x0 x1 x2 x3 x4 x6 init9 _ _ _ _ _ _ _ _ _ _ ?_ ?_ ?_ ?_ ?_ ?_ ?_ ?_ ?_
  · intro g
    rw [Sg.readCov_row _ _ 0 (by decide)]
    peel_rows
    exact Sg.canon_init9 _ g
  · intro g
    rw [Sg.readCov_row _ _ 1 (by decide)]
    peel_rows
    exact Sg.canon_init9 _ g
  · intro g
    rw [Sg.readCov_row _ _ 2 (by decide)]
    peel_rows
    exact Sg.canon_init9 _ g
  · intro g
    rw [Sg.readCov_row _ _ 3 (by decide)]
    peel_rows
    exact Sg.canon_init9 _ g
  · intro g
    rw [Sg.readCov_row _ _ 4 (by decide)]
    peel_rows
    exact Sg.canon_init9 _ g
  · intro g
    rw [Sg.readCov_row _ _ 5 (by decide)]
    peel_rows
    exact Sg.canon_init9 _ g
  · intro g
    rw [Sg.readCov_row _ _ 6 (by decide)]
    peel_rows
    exact Sg.canon_init9 _ g
  · intro g
    rw [Sg.readCov_row _ _ 7 (by decide)]
    peel_rows
    exact Sg.canon_init9 _ g
  · intro g
    rw [Sg.readCov_row _ _ 8 (by decide)]
    peel_rows
    exact Sg.canon_init9 _ g

end Cert.KernelIdeal.TileValue

end
-- ==== Proof.KFinal.lean ====
/-
  The block a batch's last tile writes. Each accumulator row is normalised: every entry x becomes
  sign(x)·√|x| (the sign taken by two comparisons, zero kept), and the row is divided by the root of the sum of
  the squares of these over its 125 entries, floored at a small constant. The 20-row block is the two-row
  accumulator's rows, then the two nine-row accumulators' rows.
-/
import proofs.«113572_j78245714199386_1_alg».proof.Proof.Gen.KernelIdeal.Frame
import proofs.«113572_j78245714199386_1_alg».proof.Proof.TileSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.TileValue

open Idealize.ShloMosaic Idealize.ShloMosaic.ValueIdx Idealize.ShloMosaic.TcCoe Idealize.ShloMosaic.Tactic Idealize.SL.Sem
open Cert.KernelIdeal Cert.KernelIdeal.Gen Cert.Fisher Cert.Fisher.Tile

namespace Fin20

/-- The all-zero word is zero. -/
theorem zero_word : Ideal.ofBits .f32 0x00000000#32 = 0 := by simp [Ideal.ofBits, Ideal.ieee]

/-- A select on a decided comparison is an if-then-else. -/
theorem select_ofBool {α : Type} (p : Prop) [Decidable p] (a b : α) :
    Scalar.select (BitVec.ofBool (decide p)) a b = if p then a else b := by
  unfold Scalar.select
  by_cases h : p
  · simp [h]
  · simp [h]

/-- The signed square root as the body forms it, at one entry. -/
theorem pw_apply {s : Shape} (v : Vec Ideal s .f32) (i : s.Idx) :
    mulf (F := Ideal) (φ := .f32) (select (cmpf (F := Ideal) (φ := .f32) .ogt (absf (F := Ideal) (φ := .f32) v) (broadcast s (Scalar.ofBits (F := Ideal) .f32 0x00000000#32)))
        (select (cmpf (F := Ideal) (φ := .f32) .olt v (constant (F := Ideal) s .f32 0x00000000#32)) (constant (F := Ideal) s .f32 0xBF800000#32) (constant (F := Ideal) s .f32 0x3F800000#32)) v)
      (sqrt (F := Ideal) (φ := .f32) (absf (F := Ideal) (φ := .f32) v)) i = pwK (v i) := by
  show Scalar.select (Ideal.cmp .ogt (max (v i) (-(v i))) (Ideal.ofBits .f32 0x00000000#32))
      (Scalar.select (Ideal.cmp .olt (v i) (Ideal.ofBits .f32 0x00000000#32)) (Ideal.ofBits .f32 0xBF800000#32) (Ideal.ofBits .f32 0x3F800000#32)) (v i)
      * Ideal.sqrt (max (v i) (-(v i))) = _
  unfold pwK Ideal.cmp
  rw [zero_word]
  show Scalar.select (BitVec.ofBool (decide (0 < max (v i) (-(v i))))) (Scalar.select (BitVec.ofBool (decide (v i < 0))) _ _) _ * _ = _
  rw [select_ofBool, select_ofBool]

variable {R : Nat}

/-- Row `r` with lane `k` put back. -/
theorem lift_lane (hr : (⟨2, ![R, 125]⟩ : Shape).Reduces [1] ⟨1, ![R]⟩) (r : Fin R) (k : Fin 125) :
    hr.lift (ix1 r) k = ix2 r k := by
  funext a
  match a with
  | ⟨0, _⟩ => exact Fin.ext rfl
  | ⟨1, _⟩ => exact Fin.ext rfl

/-- A column of `R` entries spread over 125 lanes reads, at any lane, the row's entry. -/
theorem bcast_lane {α : Type} (v : (⟨2, ![R, 1]⟩ : Shape).Idx → α) (hb : (⟨2, ![R, 1]⟩ : Shape).Broadcasts ⟨2, ![R, 125]⟩)
    (r : Fin R) (g : Fin 125) : broadcastTo ⟨2, ![R, 125]⟩ v hb (ix2 r g) = v (ix2 r 0) := by
  refine broadcastTo_apply v hb (ix2 r g) (ix2 r 0) fun ax => ?_
  match ax with
  | ⟨0, _⟩ =>
    show r.val = if R = 1 then 0 else r.val
    split
    · have := r.isLt; omega
    · rfl
  | ⟨1, _⟩ => rfl

/-- A vector of `R` entries viewed as a column reads the same entry. -/
theorem cast_col {α : Type} (v : (⟨1, ![R]⟩ : Shape).Idx → α) (hc : (⟨1, ![R]⟩ : Shape).ShapeCasts ⟨2, ![R, 1]⟩) (r : Fin R) :
    shapeCast ⟨2, ![R, 1]⟩ v hc (ix2 r 0) = v (ix1 r) :=
  shapeCast_apply v hc _ _ (by
    rw [Shape.rowMajor_val_two, Shape.rowMajor_val_one]
    show r.val = r.val * 1 + 0
    omega)

/-- Each row of an `[R, 125]` array normalised as the body does it: the signed square roots, divided by the
    root of their sum of squares over the row (floored). -/
theorem normRows_apply (v : Vec Ideal ⟨2, ![R, 125]⟩ .f32)
    (hr : (⟨2, ![R, 125]⟩ : Shape).Reduces [1] ⟨1, ![R]⟩) (hc : (⟨1, ![R]⟩ : Shape).ShapeCasts ⟨2, ![R, 1]⟩)
    (hb : (⟨2, ![R, 1]⟩ : Shape).Broadcasts ⟨2, ![R, 125]⟩) (P : FVec Ideal ⟨2, ![R, 125]⟩ .f32)
    (hP : ∀ i, P i = pwK (v i)) (r : Fin R) (g : Fin 125) :
    mulf P (broadcastTo ⟨2, ![R, 125]⟩ (rsqrt (maximumf (shapeCast ⟨2, ![R, 1]⟩
        (multiReduction (F := Ideal) .add [1] ⟨1, ![R]⟩ (mulf P P) 0x00000000#32 hr (.inl rfl) rfl) hc)
        (broadcast ⟨2, ![R, 1]⟩ (Scalar.ofBits .f32 0x2B8CBCCC#32)))) hb) (ix2 r g)
      = normRowK (fun g' => v (ix2 r g')) g := by
  show P (ix2 r g) * broadcastTo ⟨2, ![R, 125]⟩ _ hb (ix2 r g) = _
  rw [bcast_lane]
  show P (ix2 r g) * Ideal.rsqrt (max (shapeCast ⟨2, ![R, 1]⟩ _ hc (ix2 r 0)) cEps) = _
  rw [cast_col]
  have hsum : multiReduction (F := Ideal) .add [1] ⟨1, ![R]⟩ (mulf P P) 0x00000000#32 hr (.inl rfl) rfl (ix1 r)
      = ∑ g' : Fin 125, pwK (v (ix2 r g')) * pwK (v (ix2 r g')) := by
    refine (Ideal.multiReduction_add_single (mulf P P) _ hr (.inl rfl) rfl (ix1 r)).trans ?_
    refine Finset.sum_congr rfl fun (k : Fin 125) _ => ?_
    rw [lift_lane]
    show P (ix2 r k) * P (ix2 r k) = _
    rw [hP]
  refine (congrArg (fun z => P (ix2 r g) * Ideal.rsqrt (max z cEps)) hsum).trans ?_
  unfold normRowK
  rw [hP]

/-- A load of the whole array of what a list of writes left reads the contents. -/
theorem readCov_whole {sig : RefSig} {κ : Kind} {sp : Space} {S : Shape} {e : EltTy} (v : View sig κ sp S e)
    (L : List (View.Piece (Elt Ideal) S e)) {off : Fin S.rank → Nat} (h : off = fun _ => 0)
    (inb : ∀ a, off a + S.size a ≤ S.size a) :
    v.readCov L (Rect.unit off S.size inb).toLoadRect = View.canon L := by
  subst h
  rw [View.readCov_eq_canon']
  funext j
  show View.canon L ((Rect.whole S).emb j) = _
  rw [Rect.emb_whole_apply]

theorem hz2 : (![0, 0] : Fin 2 → Nat) = fun _ => 0 := funext fun a => by fin_cases a <;> rfl
theorem hz3 : (![0, 0, 0] : Fin 3 → Nat) = fun _ => 0 := funext fun a => by fin_cases a <;> rfl

end Fin20

open Fin20

/-! ## The normalising payloads at an index -/

/-- The nine-row accumulator with every row normalised. -/
theorem pay14_apply (v : Vec Ideal S9x125 .f32) (r : Fin 9) (g : Fin 125) :
    k0_pay14 (F := Ideal) v (ix2 r g) = normRowK (fun g' => v (ix2 r g')) g := by
  unfold k0_pay14
  exact normRows_apply v reduces_S9x125_S9 shapeCasts_S9_S9x1 broadcasts_S9x1_S9x125 _ (fun i => pw_apply v i) r g

/-- A nine-row array given a leading unit axis. -/
theorem pay3_apply (v : FVec Ideal S9x125 .f32) (u : Fin 1) (r : Fin 9) (g : Fin 125) :
    k0_pay3 (F := Ideal) v (ix3 u r g) = v (ix2 r g) :=
  shapeCast_ab_1ab_apply v shapeCasts_S9x125_S1x9x125 u r g

/-- The nine-row accumulator normalised and given a leading unit axis. -/
theorem pay4_apply (v : Vec Ideal S9x125 .f32) (u : Fin 1) (r : Fin 9) (g : Fin 125) :
    k0_pay4 (F := Ideal) v (ix3 u r g) = normRowK (fun g' => v (ix2 r g')) g := by
  unfold k0_pay4
  refine (shapeCast_ab_1ab_apply _ shapeCasts_S9x125_S1x9x125 u r g).trans ?_
  exact normRows_apply v reduces_S9x125_S9 shapeCasts_S9_S9x1 broadcasts_S9x1_S9x125 _ (fun i => pw_apply v i) r g

/-- The two-row accumulator normalised and given a leading unit axis. -/
theorem pay13_apply (v : Vec Ideal S2x125 .f32) (u : Fin 1) (r : Fin 2) (g : Fin 125) :
    k0_pay13 (F := Ideal) v (ix3 u r g) = normRowK (fun g' => v (ix2 r g')) g := by
  unfold k0_pay13
  refine (shapeCast_ab_1ab_apply _ shapeCasts_S2x125_S1x2x125 u r g).trans ?_
  exact normRows_apply v reduces_S2x125_S2 shapeCasts_S2_S2x1 broadcasts_S2x1_S2x125 _ (fun i => pw_apply v i) r g

/-! ## Blocks of rows of the 20-row output -/

/-- Row `q = o + r` of the output is row `r` of the block of `k` rows that starts at row `o`. -/
theorem blk_eq_emb (o k : Nat) (inb : ∀ a, (![0, o, 0] : Fin 3 → Nat) a + (![1, k, 125] : Fin 3 → Nat) a ≤ S1x20x125.size a)
    (u : Fin 1) (q : Fin 20) (r : Fin k) (g : Fin 125) (hqr : q.val = o + r.val) :
    ix3 u q g = (Rect.unit (s := S1x20x125) ![0, o, 0] ![1, k, 125] inb).emb (ix3 0 r g) := by
  funext a
  refine Fin.ext ?_
  match a with
  | ⟨0, _⟩ => show u.val = 0 + 1 * 0; omega
  | ⟨1, _⟩ => show q.val = o + 1 * r.val; omega
  | ⟨2, _⟩ => show g.val = 0 + 1 * g.val; omega

/-- A row outside the block is not in it. -/
theorem not_mem_blk (o k : Nat) (inb : ∀ a, (![0, o, 0] : Fin 3 → Nat) a + (![1, k, 125] : Fin 3 → Nat) a ≤ S1x20x125.size a)
    (u : Fin 1) (q : Fin 20) (g : Fin 125) (h : q.val < o ∨ o + k ≤ q.val) :
    ix3 u q g ∉ (Rect.unit (s := S1x20x125) ![0, o, 0] ![1, k, 125] inb).set := by
  rw [Rect.mem_set_unit]
  intro hm
  have h0 := hm (⟨1, by decide⟩ : Fin 3)
  have h1 : o ≤ q.val ∧ q.val < o + k := h0
  omega

/-- After a last write to a block of rows, an entry of the block reads that write's payload, -/
theorem canon_blk_hit (o k : Nat) (inb : ∀ a, (![0, o, 0] : Fin 3 → Nat) a + (![1, k, 125] : Fin 3 → Nat) a ≤ S1x20x125.size a)
    (w : (Rect.unit (s := S1x20x125) ![0, o, 0] ![1, k, 125] inb).shape.Idx → Elt Ideal .f32)
    (L : List (View.Piece (Elt Ideal) S1x20x125 .f32)) (u : Fin 1) (q : Fin 20) (r : Fin k) (g : Fin 125) (hqr : q.val = o + r.val) :
    View.canon (⟨Rect.unit (s := S1x20x125) ![0, o, 0] ![1, k, 125] inb, w⟩ :: L) (ix3 u q g) = w (ix3 0 r g) := by
  rw [blk_eq_emb o k inb u q r g hqr]
  exact View.canon_cons_emb _ w L _

/-- and an entry outside it what the earlier writes left. -/
theorem canon_blk_miss (o k : Nat) (inb : ∀ a, (![0, o, 0] : Fin 3 → Nat) a + (![1, k, 125] : Fin 3 → Nat) a ≤ S1x20x125.size a)
    (w : (Rect.unit (s := S1x20x125) ![0, o, 0] ![1, k, 125] inb).shape.Idx → Elt Ideal .f32)
    (L : List (View.Piece (Elt Ideal) S1x20x125 .f32)) (u : Fin 1) (q : Fin 20) (g : Fin 125) (h : q.val < o ∨ o + k ≤ q.val) :
    View.canon (⟨Rect.unit (s := S1x20x125) ![0, o, 0] ![1, k, 125] inb, w⟩ :: L) (ix3 u q g) = View.canon L (ix3 u q g) :=
  View.canon_cons_of_not_mem _ L (not_mem_blk o k inb u q g h)

/-- The 20-row block assembled from the three normalised accumulators. -/
theorem finalBlock_canon (a0 : Vec Ideal S2x125 .f32) (a1 a2 : Vec Ideal S9x125 .f32) :
    View.canon (Val := Elt Ideal) (s := S1x20x125) (e := .f32)
      [⟨Rect.unit ![0, 11, 0] ![1, 9, 125] inb_S1x20x125_S1x9x125_0_11_0, k0_pay4 a2⟩,
       ⟨Rect.unit ![0, 2, 0] ![1, 9, 125] inb_S1x20x125_S1x9x125_0_2_0, k0_pay3 (k0_pay14 a1)⟩,
       ⟨Rect.unit ![0, 0, 0] ![1, 2, 125] inb_S1x20x125_S1x2x125_0_0_0, k0_pay13 a0⟩]
      = finalBlock a0 a1 a2 := by
  funext y
  obtain ⟨u, q, g, rfl⟩ : ∃ (u : Fin 1) (q : Fin 20) (g : Fin 125), y = ix3 u q g := ⟨y 0, y 1, y 2, eq_ix3 y⟩
  obtain ⟨qv, hqv⟩ := q
  unfold finalBlock
  by_cases h2 : qv < 2
  · rw [canon_blk_miss 11 9 _ _ _ u ⟨qv, hqv⟩ g (Or.inl (by show qv < 11; omega)),
      canon_blk_miss 2 9 _ _ _ u ⟨qv, hqv⟩ g (Or.inl (by show qv < 2; omega)),
      canon_blk_hit 0 2 _ _ _ u ⟨qv, hqv⟩ ⟨qv, h2⟩ g (by show qv = 0 + qv; omega), pay13_apply]
    have e2 : ((ix3 u (⟨qv, hqv⟩ : Fin 20) g) 1).val < 2 := h2
    rw [dif_pos e2]
  · by_cases h11 : qv < 11
    · rw [canon_blk_miss 11 9 _ _ _ u ⟨qv, hqv⟩ g (Or.inl (by show qv < 11; omega)),
        canon_blk_hit 2 9 _ _ _ u ⟨qv, hqv⟩ ⟨qv - 2, by omega⟩ g (by show qv = 2 + (qv - 2); omega), pay3_apply, pay14_apply]
      have e2 : ¬ ((ix3 u (⟨qv, hqv⟩ : Fin 20) g) 1).val < 2 := h2
      have e11 : ((ix3 u (⟨qv, hqv⟩ : Fin 20) g) 1).val < 11 := h11
      rw [dif_neg e2, dif_pos e11]
    · rw [canon_blk_hit 11 9 _ _ _ u ⟨qv, hqv⟩ ⟨qv - 11, by omega⟩ g (by show qv = 11 + (qv - 11); omega), pay4_apply]
      have e2 : ¬ ((ix3 u (⟨qv, hqv⟩ : Fin 20) g) 1).val < 2 := h2
      have e11 : ¬ ((ix3 u (⟨qv, hqv⟩ : Fin 20) g) 1).val < 11 := h11
      rw [dif_neg e2, dif_neg e11]

/-- The same with each accumulator given as the whole-array load of what a list of writes left. -/
theorem finalBlock_canon_loads {sig : RefSig} {κ : Kind} {sp : Space}
    (v0 : View sig κ sp S2x125 .f32) (v1 v2 : View sig κ sp S9x125 .f32)
    (L0 : List (View.Piece (Elt Ideal) S2x125 .f32)) (L1 L2 : List (View.Piece (Elt Ideal) S9x125 .f32)) :
    View.canon (Val := Elt Ideal) (s := S1x20x125) (e := .f32)
      [⟨Rect.unit ![0, 11, 0] ![1, 9, 125] inb_S1x20x125_S1x9x125_0_11_0,
          k0_pay4 (v2.readCov L2 (Rect.unit ![0, 0] ![9, 125] inb_S9x125_S9x125_0_0).toLoadRect)⟩,
       ⟨Rect.unit ![0, 2, 0] ![1, 9, 125] inb_S1x20x125_S1x9x125_0_2_0,
          k0_pay3 (k0_pay14 (v1.readCov L1 (Rect.unit ![0, 0] ![9, 125] inb_S9x125_S9x125_0_0).toLoadRect))⟩,
       ⟨Rect.unit ![0, 0, 0] ![1, 2, 125] inb_S1x20x125_S1x2x125_0_0_0,
          k0_pay13 (v0.readCov L0 (Rect.unit ![0, 0] ![2, 125] inb_S2x125_S2x125_0_0).toLoadRect)⟩]
      = finalBlock (View.canon L0) (View.canon L1) (View.canon L2) := by
  rw [readCov_whole v2 L2 hz2, readCov_whole v1 L1 hz2, readCov_whole v0 L0 hz2]
  exact finalBlock_canon _ _ _

/-! ## The block written after a batch's last tile -/

set_option maxHeartbeats 1000000 in
/-- After the last tile of a batch the output block holds the three accumulators, as that tile leaves them, each row
    normalised: rows 0–1 from the two-row accumulator, rows 2–10 and 11–19 from the two nine-row ones. -/
theorem out0_C_7_eq (c : Dev nD) (i : grid0.Coords) (arg2 : Memref sig .tc .vmem S1x1024x3 .f32) (harg2 : arg2.IsWhole) (arg3 : Memref sig .tc .vmem S3x125 .f32) (harg3 : arg3.IsWhole) (arg4 : Memref sig .tc .vmem S3x125 .f32) (harg4 : arg4.IsWhole) (arg5 : Memref sig .tc .vmem S1x125 .f32) (harg5 : arg5.IsWhole) (arg6 : Memref sig .tc .vmem S1x125 .f32) (harg6 : arg6.IsWhole) (arg7 : Memref sig .tc .vmem S1x125 .f32) (harg7 : arg7.IsWhole) (arg8 : Memref sig .tc .vmem S1x125 .f32) (harg8 : arg8.IsWhole) (arg9 : Memref sig .tc .vmem S1x20x125 .f32) (harg9 : arg9.IsWhole) (arg10 : Memref sig .tc .vmem S2x125 .f32) (harg10 : arg10.IsWhole) (arg11 : Memref sig .tc .vmem S9x125 .f32) (harg11 : arg11.IsWhole) (arg12 : Memref sig .tc .vmem S9x125 .f32) (harg12 : arg12.IsWhole) (hc0 : ¬cond0_0 i) (hc1 : cond0_1 i)
    (x0 : Vec Ideal S1x1024x3 .f32) (x1 : Vec Ideal S3x125 .f32) (x2 : Vec Ideal S3x125 .f32) (x3 : Vec Ideal S1x125 .f32) (x4 : Vec Ideal S1x125 .f32) (x5 : Vec Ideal S1x125 .f32) (x6 : Vec Ideal S1x125 .f32) (xs0 : Vec Ideal S2x125 .f32) (xs1 : Vec Ideal S9x125 .f32) (xs2 : Vec Ideal S9x125 .f32) :
    out0_C_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2
      = finalBlock (sout0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)
          (sout0_C_1 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)
          (sout0_C_2 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2) := by
  unfold out0_C_7 sout0_C_0 sout0_C_1 sout0_C_2
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2),
    View.read_writes_junk_eq_canon, View.read_writes_junk_eq_canon, View.read_writes_junk_eq_canon]
  unfold kernelRun0_C
  dsimp only
  sl_unfold_words
  exact finalBlock_canon_loads _ _ _ _ _ _

end Cert.KernelIdeal.TileValue
end
-- ==== Proof.KFold.lean ====
/-
  The idealized kernel's result array as one function of the arguments.

  Grid point t = 8·b + k processes tile k of batch b. By induction on t the three accumulators hold, after point t, the running
  maximum / minimum / sum over the first k + 1 tiles of batch b of the per-point terms (a batch's first tile starts from −∞, +∞, 0;
  every later tile extends the statistic by its 1024 points). At a batch's last tile the kernel writes the batch's 20 normalised
  rows; that is the only write-back of the batch's block of the result array, and the sixteen blocks cover the array.
-/
import proofs.«113572_j78245714199386_1_alg».proof.Proof.Gen.KernelIdeal.Value
import proofs.«113572_j78245714199386_1_alg».proof.Proof.KHostAt
import proofs.«113572_j78245714199386_1_alg».proof.Proof.TileGlobal
import proofs.«113572_j78245714199386_1_alg».proof.Proof.KPiece0
import proofs.«113572_j78245714199386_1_alg».proof.Proof.KPiece1
import proofs.«113572_j78245714199386_1_alg».proof.Proof.KPiece2
import proofs.«113572_j78245714199386_1_alg».proof.Proof.KPiece2A
import proofs.«113572_j78245714199386_1_alg».proof.Proof.KFinal

set_option maxRecDepth 16384

noncomputable section

namespace Cert.KernelIdeal.FoldValue

open Cert.KernelIdeal Cert.KernelIdeal.Gen Cert.KernelIdeal.BlockValue Cert.KernelIdeal.HostValue Cert.KernelIdeal.TileValue
open Idealize.ShloMosaic Idealize.ShloMosaic.TcCoe Idealize.SL.Sem Idealize.ShloMosaic.ValueIdx Cert.Fisher Cert.Fisher.Tile
open Idealize.ShloMosaic.Pipeline (Dat)

variable (m : (ℓ : Loc nD τ sig) → Buf (Elt Ideal) ℓ) (ρ : Dev nD → PrngReg)

theorem hN : cfg0.N = 128 := N_0

/-- The batch a grid point belongs to. -/
def bOf (n : ℕ) (h : n < cfg0.N) : Fin 16 := ⟨n / 8, by have := hN; omega⟩

/-- At grid point t = 8·b + k the seven blocks are tile k of batch b of the arguments. -/
theorem isTile (c : Dev nD) (t : Fin cfg0.N) (k : ℕ) (hk : k < 8) (hkt : t.val % 8 = k) :
    IsTile (argP m c) (argW m c) (argM m c) (argS m c) (bOf t.val t.isLt) k hk
      (iblk m c 0 t : Vec Ideal S1x1024x3 .f32) (iblk m c 1 t : Vec Ideal S3x125 .f32) (iblk m c 2 t : Vec Ideal S3x125 .f32)
      (iblk m c 3 t : Vec Ideal S1x125 .f32) (iblk m c 4 t : Vec Ideal S1x125 .f32) (iblk m c 5 t : Vec Ideal S1x125 .f32)
      (iblk m c 6 t : Vec Ideal S1x125 .f32) := by
  subst hkt
  exact {
    h0 := fun n d => iblk0_apply m c t n d _ _ rfl rfl
    h1 := fun d g => by rw [iblk1_eq]; exact muT_at m c d g
    h2 := fun d g => by rw [iblk2_eq]; exact sigT_at m c d g
    h3 := fun g => by rw [iblk3_eq]; exact bias_at m c g
    h4 := fun g => by rw [iblk4_eq]; exact w_at m c g
    h5 := fun g => by rw [iblk5_eq]; exact scMu_at m c g
    h6 := fun g => by rw [iblk6_eq]; exact scSg_at m c g }

/-- What the three accumulators hold after grid point t: the running statistics over the tiles of its batch seen so far. -/
def Inv (c : Dev nD) (t : Fin cfg0.N) : Prop :=
  (outsAt0 m c t.val t.isLt).2.1 = accG0 (argP m c) (argW m c) (argM m c) (argS m c) (bOf t.val t.isLt) (t.val % 8 + 1)
  ∧ (outsAt0 m c t.val t.isLt).2.2.1 = accG1 (argP m c) (argW m c) (argM m c) (argS m c) (bOf t.val t.isLt) (t.val % 8 + 1)
  ∧ (outsAt0 m c t.val t.isLt).2.2.2 = accG2 (argP m c) (argW m c) (argM m c) (argS m c) (bOf t.val t.isLt) (t.val % 8 + 1)

theorem inv_all (c : Dev nD) : ∀ (n : ℕ) (t : Fin cfg0.N), t.val = n → Inv m c t := by
  intro n
  induction n using Nat.strong_induction_on with
  | _ n ih =>
    intro t ht
    have hN := hN
    have hlt := t.isLt
    unfold Inv
    by_cases h0 : t.val % 8 = 0
    · have h1 : ¬t.val % 8 = 7 := by omega
      rw [outsAt0_A m c t h0 h1]
      dsimp only
      have hT := isTile m c t 0 (by norm_num) h0
      refine ⟨?_, ?_, ?_⟩
      · refine (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).trans ?_
        rw [init0_eq (argP m c) (argW m c) (argM m c) (argS m c) (bOf t.val t.isLt), h0]
        exact step0_eq hT
      · refine (sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).trans ?_
        rw [init9_eq1 (argP m c) (argW m c) (argM m c) (argS m c) (bOf t.val t.isLt), h0]
        exact step1_eq hT
      · refine (sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).trans ?_
        rw [init9_eq2 (argP m c) (argW m c) (argM m c) (argS m c) (bOf t.val t.isLt), h0]
        exact step2_eq hT
    · have hp : t.val - 1 < cfg0.N := by omega
      obtain ⟨i0, i1, i2⟩ := ih (t.val - 1) (by omega) ⟨t.val - 1, hp⟩ rfl
      have eb : bOf (t.val - 1) hp = bOf t.val t.isLt := Fin.ext (by show (t.val - 1) / 8 = t.val / 8; omega)
      have ek : (t.val - 1) % 8 + 1 = t.val % 8 := by omega
      dsimp only at i0 i1 i2
      rw [eb, ek] at i0 i1 i2
      have hT := isTile m c t (t.val % 8) (Nat.mod_lt _ (by norm_num)) rfl
      by_cases h1 : t.val % 8 = 7
      · rw [outsAt0_C m c t h0 h1]
        dsimp only
        refine ⟨?_, ?_, ?_⟩
        · refine (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
          rw [i0]; exact step0_eq hT
        · refine (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
          rw [i1]; exact step1_eq hT
        · refine (sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
          rw [i2]; exact step2_eq hT
      · rw [outsAt0_B m c t h0 h1]
        dsimp only
        refine ⟨?_, ?_, ?_⟩
        · refine (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
          rw [i0]; exact step0_eq hT
        · refine (sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
          rw [i1]; exact step1_eq hT
        · refine (sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
          rw [i2]; exact step2_eq hT

/-- After a batch's last tile the output block is the 20 normalised rows of the batch's statistics. -/
theorem block_eq (c : Dev nD) (t : Fin cfg0.N) (h1 : t.val % 8 = 7) :
    (outsAt0 m c t.val t.isLt).1 = finalBlock (accG0 (argP m c) (argW m c) (argM m c) (argS m c) (bOf t.val t.isLt) 8)
      (accG1 (argP m c) (argW m c) (argM m c) (argS m c) (bOf t.val t.isLt) 8) (accG2 (argP m c) (argW m c) (argM m c) (argS m c) (bOf t.val t.isLt) 8) := by
  have h0 : ¬t.val % 8 = 0 := by omega
  obtain ⟨i0, i1, i2⟩ := inv_all m c t.val t rfl
  have e8 : t.val % 8 + 1 = 8 := by omega
  rw [e8] at i0 i1 i2
  rw [outsAt0_C m c t h0 h1] at i0 i1 i2 ⊢
  dsimp only at i0 i1 i2 ⊢
  rw [out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, i0, i1, i2]

end Cert.KernelIdeal.FoldValue

namespace Cert.KernelIdeal.FoldValue

open Cert.KernelIdeal Cert.KernelIdeal.Gen Cert.KernelIdeal.BlockValue Cert.KernelIdeal.HostValue
open Idealize.ShloMosaic Idealize.ShloMosaic.TcCoe Idealize.SL.Sem Idealize.ShloMosaic.ValueIdx Cert.Fisher Cert.Fisher.Tile
open Idealize.ShloMosaic.Pipeline (Dat)

variable (m : (ℓ : Loc nD τ sig) → Buf (Elt Ideal) ℓ) (ρ : Dev nD → PrngReg)

/-- The result array as one function of the arguments: the 20 normalised rows of every batch, the scales applied point by point. -/
abbrev result (c : Dev nD) : S16x20x125.Idx → EReal := outK (argP m c) (argW m c) (argM m c) (argS m c)

/-- The block a batch's last tile writes, read at an index, is the result array at that batch's rows. -/
theorem finalBlock_apply (c : Dev nD) (b : Fin 16) (j : S1x20x125.Idx) :
    finalBlock (accG0 (argP m c) (argW m c) (argM m c) (argS m c) b 8) (accG1 (argP m c) (argW m c) (argM m c) (argS m c) b 8)
      (accG2 (argP m c) (argW m c) (argM m c) (argS m c) b 8) j
    = result m c (ix3 b (j 1) (j 2)) := by
  unfold result outK rows finalBlock
  dsimp only
  by_cases h : (j 1).val < 2
  · rw [dif_pos h, dif_pos (show ((ix3 b (j 1) (j 2) : S16x20x125.Idx) 1).val < 2 from h)]
    exact (normRowK_eq _ _).trans (congrArg (fun v => normRow v _) (funext fun g' => accG0_eight _ _ _ _ b _ g'))
  · rw [dif_neg h, dif_neg (show ¬((ix3 b (j 1) (j 2) : S16x20x125.Idx) 1).val < 2 from h)]
    by_cases h' : (j 1).val < 11
    · rw [dif_pos h', dif_pos (show ((ix3 b (j 1) (j 2) : S16x20x125.Idx) 1).val < 11 from h')]
      exact (normRowK_eq _ _).trans (congrArg (fun v => normRow v _) (funext fun g' => accG1_eight _ _ _ _ b _ g'))
    · rw [dif_neg h', dif_neg (show ¬((ix3 b (j 1) (j 2) : S16x20x125.Idx) 1).val < 11 from h')]
      exact (normRowK_eq _ _).trans (congrArg (fun v => normRow v _) (funext fun g' => accG2_eight _ _ _ _ b _ g'))

/-- What a batch's last tile writes back is that batch's block of the result array. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  obtain ⟨-, -, -, -, -, -, -, -, -, -, -, -, -, -, -, e0, e1, e2⟩ := idx_facts t
  rw [Cert.KernelIdeal.Value.flushed7, block_eq m c t h7]
  funext j
  show finalBlock _ _ _ j = result m c (((cfg0.win 7).blk t).view.emb j)
  rw [finalBlock_apply]
  congr 1
  funext a
  apply Fin.ext
  have hj0 : (j 0).val = 0 := by have hlt : (j 0).val < 1 := (j 0).isLt; omega
  match a with
  | ⟨0, _⟩ => show t.val / 8 = win0_7.index t 0 * 1 + 1 * (j 0).val; rw [e0, hj0]; omega
  | ⟨1, _⟩ => show (j 1).val = win0_7.index t 1 * 20 + 1 * (j 1).val; rw [e1]; omega
  | ⟨2, _⟩ => show (j 2).val = win0_7.index t 2 * 125 + 1 * (j 2).val; rw [e2]; omega

/-- An index of the result array lies in the block of grid point t iff its batch is t's and its other coordinates are in range. -/
theorem mem_blk (t : Fin cfg0.N) (i : S16x20x125.Idx) :
    i ∈ ((cfg0.win 7).blk t).view.set ↔ ∀ a : Fin 3, win0_7.index t a * S1x20x125.size a ≤ (i a).val ∧ (i a).val < win0_7.index t a * S1x20x125.size a + S1x20x125.size a := by
  show i ∈ ((View.whole main_v23).slice (win0_7.rect t)).set ↔ _
  rw [View.set_slice_whole, Rect.mem_set_unit]
  exact Iff.rfl

/-- Every batch's block is written by that batch's last tile, so the whole result array is the function above. -/
theorem final (c : Dev nD) : (dats m 0 c).arrAt 7 cfg0.N = result m c :=
  (dats m 0 c).arrAt_eq_of_cover 7 (result m c) (flushed_eq m c) fun i => by
    have hN := hN
    have hi0 : (i 0).val < 16 := (i 0).isLt
    have hi1 : (i 1).val < 20 := (i 1).isLt
    have hi2 : (i 2).val < 125 := (i 2).isLt
    let t : Fin cfg0.N := ⟨8 * (i 0).val + 7, by omega⟩
    have ht : t.val = 8 * (i 0).val + 7 := rfl
    obtain ⟨-, -, -, -, -, -, -, -, -, -, -, -, -, -, -, e0, e1, e2⟩ := idx_facts t
    refine ⟨t, (flush0_7 t).mpr (by omega), ?_⟩
    rw [mem_blk]
    intro a
    match a with
    | ⟨0, _⟩ => show win0_7.index t 0 * 1 ≤ (i 0).val ∧ (i 0).val < win0_7.index t 0 * 1 + 1; rw [e0]; omega
    | ⟨1, _⟩ => show win0_7.index t 1 * 20 ≤ (i 1).val ∧ (i 1).val < win0_7.index t 1 * 20 + 20; rw [e1]; omega
    | ⟨2, _⟩ => show win0_7.index t 2 * 125 ≤ (i 2).val ∧ (i 2).val < win0_7.index t 2 * 125 + 125; rw [e2]; omega

/-- The idealized kernel's run, read: the result array is the function above, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.FoldValue

end
-- ==== Proof.RefLayout.lean ====
import proofs.«113572_j78245714199386_1_alg».proof.Proof.Gen.ReferenceIdeal
import Idealize.ShloMosaic.Lib.ValueIdx
import Idealize.ShloMosaic.Lib.Pipeline.Value
import Idealize.ShloMosaic.Lib.IdealHost
import Idealize.ShloMosaic.PureOps.Ideal.Laws

/-!
  The layout operations and the reductions of the reference program, each read at an index written in
  coordinates. A broadcast along new or unit axes reads its operand at the coordinates that remain; a sum over
  one axis is the initial value plus the sum over that axis's coordinate; a maximum (minimum) over one axis from
  the least (greatest) extended real is the supremum (infimum) over that coordinate; a concatenation along the
  last axis reads the piece its last coordinate falls in.
-/

namespace Cert.ReferenceIdeal.RefValue

open Cert.ReferenceIdeal Idealize.ShloMosaic Idealize.ShloMosaic.ValueIdx

/-! ## A maximum or minimum folded from its neutral element is the lattice supremum or infimum -/

theorem fold_max_bot {n : Nat} (f : Fin n → EReal) :
    (Finset.univ : Finset (Fin n)).fold max ⊥ f = Finset.univ.sup f := by
  unfold Finset.sup
  rfl

theorem fold_min_top {n : Nat} (f : Fin n → EReal) :
    (Finset.univ : Finset (Fin n)).fold min ⊤ f = Finset.univ.inf f := by
  unfold Finset.inf
  rfl

theorem ofBits_negInf : Ideal.ofBits .f32 0xFF800000#32 = (⊥ : EReal) := by simp [Ideal.ofBits, Ideal.ieee]
theorem ofBits_posInf : Ideal.ofBits .f32 0x7F800000#32 = (⊤ : EReal) := by simp [Ideal.ofBits, Ideal.ieee]

/-! ## Broadcasts read at an index -/

section Layout
variable {α : Type}

theorem bc_pts_unit (h : S16x8192x3.BroadcastsInDim S16x8192x1x3 ![0, 1, 3]) (x : S16x8192x3.Idx → α)
    (b : Fin 16) (n : Fin 8192) (z : Fin 1) (d : Fin 3) :
    broadcastInDim S16x8192x1x3 ![0, 1, 3] h x (ix4 b n z d) = x (ix3 b n d) :=
  broadcastInDim_apply _ h x _ _ fun a => match a with
    | ⟨0, _⟩ => rfl | ⟨1, _⟩ => rfl | ⟨2, _⟩ => rfl

theorem bc_pts_full (h : S16x8192x1x3.BroadcastsInDim S16x8192x125x3 ![0, 1, 2, 3]) (x : S16x8192x1x3.Idx → α)
    (b : Fin 16) (n : Fin 8192) (g : Fin 125) (d : Fin 3) :
    broadcastInDim S16x8192x125x3 ![0, 1, 2, 3] h x (ix4 b n g d) = x (ix4 b n (0 : Fin 1) d) :=
  broadcastInDim_apply _ h x _ _ fun a => match a with
    | ⟨0, _⟩ => rfl | ⟨1, _⟩ => rfl | ⟨2, _⟩ => rfl | ⟨3, _⟩ => rfl

theorem bc_cmp_unit (h : S125x3.BroadcastsInDim S1x1x125x3 ![2, 3]) (x : S125x3.Idx → α)
    (z z' : Fin 1) (g : Fin 125) (d : Fin 3) :
    broadcastInDim S1x1x125x3 ![2, 3] h x (ix4 z z' g d) = x (ix2 g d) :=
  broadcastInDim_apply _ h x _ _ fun a => match a with
    | ⟨0, _⟩ => rfl | ⟨1, _⟩ => rfl

theorem bc_cmp_full (h : S1x1x125x3.BroadcastsInDim S16x8192x125x3 ![0, 1, 2, 3]) (x : S1x1x125x3.Idx → α)
    (b : Fin 16) (n : Fin 8192) (g : Fin 125) (d : Fin 3) :
    broadcastInDim S16x8192x125x3 ![0, 1, 2, 3] h x (ix4 b n g d) = x (ix4 (0 : Fin 1) (0 : Fin 1) g d) :=
  broadcastInDim_apply _ h x _ _ fun a => match a with
    | ⟨0, _⟩ => rfl | ⟨1, _⟩ => rfl | ⟨2, _⟩ => rfl | ⟨3, _⟩ => rfl

theorem bc_w_unit (h : S125.BroadcastsInDim S1x1x125 ![2]) (x : S125.Idx → α) (z z' : Fin 1) (g : Fin 125) :
    broadcastInDim S1x1x125 ![2] h x (ix3 z z' g) = x (ix1 g) :=
  broadcastInDim_apply _ h x _ _ fun a => match a with
    | ⟨0, _⟩ => rfl

theorem bc_w_full (h : S1x1x125.BroadcastsInDim S16x8192x125 ![0, 1, 2]) (x : S1x1x125.Idx → α)
    (b : Fin 16) (n : Fin 8192) (g : Fin 125) :
    broadcastInDim S16x8192x125 ![0, 1, 2] h x (ix3 b n g) = x (ix3 (0 : Fin 1) (0 : Fin 1) g) :=
  broadcastInDim_apply _ h x _ _ fun a => match a with
    | ⟨0, _⟩ => rfl | ⟨1, _⟩ => rfl | ⟨2, _⟩ => rfl

theorem bc_bn_unit (h : S16x8192.BroadcastsInDim S16x8192x1 ![0, 1]) (x : S16x8192.Idx → α)
    (b : Fin 16) (n : Fin 8192) (z : Fin 1) :
    broadcastInDim S16x8192x1 ![0, 1] h x (ix3 b n z) = x (ix2 b n) :=
  broadcastInDim_apply _ h x _ _ fun a => match a with
    | ⟨0, _⟩ => rfl | ⟨1, _⟩ => rfl

theorem bc_bn_full (h : S16x8192x1.BroadcastsInDim S16x8192x125 ![0, 1, 2]) (x : S16x8192x1.Idx → α)
    (b : Fin 16) (n : Fin 8192) (g : Fin 125) :
    broadcastInDim S16x8192x125 ![0, 1, 2] h x (ix3 b n g) = x (ix3 b n (0 : Fin 1)) :=
  broadcastInDim_apply _ h x _ _ fun a => match a with
    | ⟨0, _⟩ => rfl | ⟨1, _⟩ => rfl | ⟨2, _⟩ => rfl

theorem bc_r_unit (h : S16x8192x125.BroadcastsInDim S16x8192x125x1 ![0, 1, 2]) (x : S16x8192x125.Idx → α)
    (b : Fin 16) (n : Fin 8192) (g : Fin 125) (z : Fin 1) :
    broadcastInDim S16x8192x125x1 ![0, 1, 2] h x (ix4 b n g z) = x (ix3 b n g) :=
  broadcastInDim_apply _ h x _ _ fun a => match a with
    | ⟨0, _⟩ => rfl | ⟨1, _⟩ => rfl | ⟨2, _⟩ => rfl

theorem bc_r_full (h : S16x8192x125x1.BroadcastsInDim S16x8192x125x3 ![0, 1, 2, 3]) (x : S16x8192x125x1.Idx → α)
    (b : Fin 16) (n : Fin 8192) (g : Fin 125) (d : Fin 3) :
    broadcastInDim S16x8192x125x3 ![0, 1, 2, 3] h x (ix4 b n g d) = x (ix4 b n g (0 : Fin 1)) :=
  broadcastInDim_apply _ h x _ _ fun a => match a with
    | ⟨0, _⟩ => rfl | ⟨1, _⟩ => rfl | ⟨2, _⟩ => rfl | ⟨3, _⟩ => rfl

theorem bc_g_unit (h : S125.BroadcastsInDim S1x125x1 ![1]) (x : S125.Idx → α) (z z' : Fin 1) (g : Fin 125) :
    broadcastInDim S1x125x1 ![1] h x (ix3 z g z') = x (ix1 g) :=
  broadcastInDim_apply _ h x _ _ fun a => match a with
    | ⟨0, _⟩ => rfl

theorem bc_g_full (h : S1x125x1.BroadcastsInDim S16x125x9 ![0, 1, 2]) (x : S1x125x1.Idx → α)
    (b : Fin 16) (g : Fin 125) (r : Fin 9) :
    broadcastInDim S16x125x9 ![0, 1, 2] h x (ix3 b g r) = x (ix3 (0 : Fin 1) g (0 : Fin 1)) :=
  broadcastInDim_apply _ h x _ _ fun a => match a with
    | ⟨0, _⟩ => rfl | ⟨1, _⟩ => rfl | ⟨2, _⟩ => rfl

/-- A rank-zero array broadcast to any shape reads its one element. -/
theorem bc_scalar {T : Shape} (h : S_.BroadcastsInDim T ![]) (x : S_.Idx → α) (j : T.Idx) :
    broadcastInDim T ![] h x j = x ix0 :=
  broadcastInDim_scalar_apply h x j

end Layout

/-! ## Sums over one axis -/

section Sums

theorem radd_coord (h' : S16x8192x125x3.ReducesTo [3] S16x8192x125) (hu : 0 < S_.numel)
    (x : S16x8192x125x3.Idx → EReal) (init : S_.Idx → EReal) (b : Fin 16) (n : Fin 8192) (g : Fin 125) :
    Host.reduceAdd (F := Ideal) (φ := .f32) x init h' hu (ix3 b n g) = init ix0 + ∑ d : Fin 3, x (ix4 b n g d) := by
  have h : S16x8192x125x3.Reduces [3] S16x8192x125 := by decide
  rw [hostReduceAdd_apply, Ideal.hostReduceAdd_single h' h]
  refine congrArg₂ (· + ·) (congrArg init (eq_ix0 _)) (Finset.sum_congr rfl fun d _ => congrArg x ?_)
  funext c
  match c with
  | ⟨0, _⟩ => rfl | ⟨1, _⟩ => rfl | ⟨2, _⟩ => rfl | ⟨3, _⟩ => rfl

theorem radd_sig (h' : S125x3.ReducesTo [1] S125) (hu : 0 < S_.numel)
    (x : S125x3.Idx → EReal) (init : S_.Idx → EReal) (g : Fin 125) :
    Host.reduceAdd (F := Ideal) (φ := .f32) x init h' hu (ix1 g) = init ix0 + ∑ d : Fin 3, x (ix2 g d) := by
  have h : S125x3.Reduces [1] S125 := by decide
  rw [hostReduceAdd_apply, Ideal.hostReduceAdd_single h' h]
  refine congrArg₂ (· + ·) (congrArg init (eq_ix0 _)) (Finset.sum_congr rfl fun d _ => congrArg x ?_)
  funext c
  match c with
  | ⟨0, _⟩ => rfl | ⟨1, _⟩ => rfl

theorem radd_cmp (h' : S16x8192x125.ReducesTo [2] S16x8192) (hu : 0 < S_.numel)
    (x : S16x8192x125.Idx → EReal) (init : S_.Idx → EReal) (b : Fin 16) (n : Fin 8192) :
    Host.reduceAdd (F := Ideal) (φ := .f32) x init h' hu (ix2 b n) = init ix0 + ∑ g : Fin 125, x (ix3 b n g) := by
  have h : S16x8192x125.Reduces [2] S16x8192 := by decide
  rw [hostReduceAdd_apply, Ideal.hostReduceAdd_single h' h]
  refine congrArg₂ (· + ·) (congrArg init (eq_ix0 _)) (Finset.sum_congr rfl fun d _ => congrArg x ?_)
  funext c
  match c with
  | ⟨0, _⟩ => rfl | ⟨1, _⟩ => rfl | ⟨2, _⟩ => rfl

theorem radd_pts1 (h' : S16x8192x125x1.ReducesTo [1] S16x125x1) (hu : 0 < S_.numel)
    (x : S16x8192x125x1.Idx → EReal) (init : S_.Idx → EReal) (b : Fin 16) (g : Fin 125) (z : Fin 1) :
    Host.reduceAdd (F := Ideal) (φ := .f32) x init h' hu (ix3 b g z) = init ix0 + ∑ n : Fin 8192, x (ix4 b n g z) := by
  have h : S16x8192x125x1.Reduces [1] S16x125x1 := by decide
  rw [hostReduceAdd_apply, Ideal.hostReduceAdd_single h' h]
  refine congrArg₂ (· + ·) (congrArg init (eq_ix0 _)) (Finset.sum_congr rfl fun d _ => congrArg x ?_)
  funext c
  match c with
  | ⟨0, _⟩ => rfl | ⟨1, _⟩ => rfl | ⟨2, _⟩ => rfl | ⟨3, _⟩ => rfl

theorem radd_pts3 (h' : S16x8192x125x3.ReducesTo [1] S16x125x3) (hu : 0 < S_.numel)
    (x : S16x8192x125x3.Idx → EReal) (init : S_.Idx → EReal) (b : Fin 16) (g : Fin 125) (d : Fin 3) :
    Host.reduceAdd (F := Ideal) (φ := .f32) x init h' hu (ix3 b g d) = init ix0 + ∑ n : Fin 8192, x (ix4 b n g d) := by
  have h : S16x8192x125x3.Reduces [1] S16x125x3 := by decide
  rw [hostReduceAdd_apply, Ideal.hostReduceAdd_single h' h]
  refine congrArg₂ (· + ·) (congrArg init (eq_ix0 _)) (Finset.sum_congr rfl fun d _ => congrArg x ?_)
  funext c
  match c with
  | ⟨0, _⟩ => rfl | ⟨1, _⟩ => rfl | ⟨2, _⟩ => rfl | ⟨3, _⟩ => rfl

end Sums

/-! ## Maxima and minima over the points -/

section Extrema

theorem rmax_pts1 (h' : S16x8192x125x1.ReducesTo [1] S16x125x1) (hu : 0 < S_.numel)
    (x : FVec Ideal S16x8192x125x1 .f32) (b : Fin 16) (g : Fin 125) (z : Fin 1) :
    Host.reduce (FloatOps.maximumf (F := Ideal) (φ := .f32)) x (constant (F := Ideal) S_ .f32 0xFF800000#32) h' hu (ix3 b g z)
      = Finset.univ.sup fun n : Fin 8192 => x (ix4 b n g z) := by
  have h : S16x8192x125x1.Reduces [1] S16x125x1 := by decide
  rw [Host.reduce_eq_fold_single FloatOps.maximumf x _ h' h hu]
  refine Eq.trans ?_ (fold_max_bot _)
  refine congrArg₂ (fun i f => (Finset.univ : Finset (Fin 8192)).fold max i f) ofBits_negInf (funext fun n => congrArg x ?_)
  funext c
  match c with
  | ⟨0, _⟩ => rfl | ⟨1, _⟩ => rfl | ⟨2, _⟩ => rfl | ⟨3, _⟩ => rfl

theorem rmax_pts3 (h' : S16x8192x125x3.ReducesTo [1] S16x125x3) (hu : 0 < S_.numel)
    (x : FVec Ideal S16x8192x125x3 .f32) (b : Fin 16) (g : Fin 125) (d : Fin 3) :
    Host.reduce (FloatOps.maximumf (F := Ideal) (φ := .f32)) x (constant (F := Ideal) S_ .f32 0xFF800000#32) h' hu (ix3 b g d)
      = Finset.univ.sup fun n : Fin 8192 => x (ix4 b n g d) := by
  have h : S16x8192x125x3.Reduces [1] S16x125x3 := by decide
  rw [Host.reduce_eq_fold_single FloatOps.maximumf x _ h' h hu]
  refine Eq.trans ?_ (fold_max_bot _)
  refine congrArg₂ (fun i f => (Finset.univ : Finset (Fin 8192)).fold max i f) ofBits_negInf (funext fun n => congrArg x ?_)
  funext c
  match c with
  | ⟨0, _⟩ => rfl | ⟨1, _⟩ => rfl | ⟨2, _⟩ => rfl | ⟨3, _⟩ => rfl

theorem rmin_pts3 (h' : S16x8192x125x3.ReducesTo [1] S16x125x3) (hu : 0 < S_.numel)
    (x : FVec Ideal S16x8192x125x3 .f32) (b : Fin 16) (g : Fin 125) (d : Fin 3) :
    Host.reduce (FloatOps.minimumf (F := Ideal) (φ := .f32)) x (constant (F := Ideal) S_ .f32 0x7F800000#32) h' hu (ix3 b g d)
      = Finset.univ.inf fun n : Fin 8192 => x (ix4 b n g d) := by
  have h : S16x8192x125x3.Reduces [1] S16x125x3 := by decide
  rw [Host.reduce_eq_fold_single FloatOps.minimumf x _ h' h hu]
  refine Eq.trans ?_ (fold_min_top _)
  refine congrArg₂ (fun i f => (Finset.univ : Finset (Fin 8192)).fold min i f) ofBits_posInf (funext fun n => congrArg x ?_)
  funext c
  match c with
  | ⟨0, _⟩ => rfl | ⟨1, _⟩ => rfl | ⟨2, _⟩ => rfl | ⟨3, _⟩ => rfl

end Extrema

/-! ## Concatenations along the last axis -/

section Cat
variable {α : Type}

theorem cat2_left (h : Shape.Concatenates [S16x125x1, S16x125x1] S16x125x2 2) (u v : S16x125x1.Idx → α)
    (b : Fin 16) (g : Fin 125) :
    concatenate S16x125x2 2 [⟨S16x125x1, u⟩, ⟨S16x125x1, v⟩] h (ix3 b g (0 : Fin 2)) = u (ix3 b g (0 : Fin 1)) :=
  concatenate_apply_piece (t := S16x125x2) 2 [⟨S16x125x1, u⟩, ⟨S16x125x1, v⟩] h _ 0 (show (0 : Nat) < 2 by decide) S16x125x1 u rfl rfl 0 rfl (ix3 b g (0 : Fin 1))
    (fun c => match c with
      | ⟨0, _⟩ => fun _ => rfl | ⟨1, _⟩ => fun _ => rfl | ⟨2, _⟩ => fun hc => absurd rfl hc) rfl

theorem cat2_right (h : Shape.Concatenates [S16x125x1, S16x125x1] S16x125x2 2) (u v : S16x125x1.Idx → α)
    (b : Fin 16) (g : Fin 125) :
    concatenate S16x125x2 2 [⟨S16x125x1, u⟩, ⟨S16x125x1, v⟩] h (ix3 b g (1 : Fin 2)) = v (ix3 b g (0 : Fin 1)) :=
  concatenate_apply_piece (t := S16x125x2) 2 [⟨S16x125x1, u⟩, ⟨S16x125x1, v⟩] h _ 1 (show (1 : Nat) < 2 by decide) S16x125x1 v rfl rfl 1 rfl (ix3 b g (0 : Fin 1))
    (fun c => match c with
      | ⟨0, _⟩ => fun _ => rfl | ⟨1, _⟩ => fun _ => rfl | ⟨2, _⟩ => fun hc => absurd rfl hc) rfl

theorem cat3_fst (h : Shape.Concatenates [S16x125x3, S16x125x3, S16x125x3] S16x125x9 2) (u v w : S16x125x3.Idx → α)
    (b : Fin 16) (g : Fin 125) (d : Fin 3) :
    concatenate S16x125x9 2 [⟨S16x125x3, u⟩, ⟨S16x125x3, v⟩, ⟨S16x125x3, w⟩] h (ix3 b g (⟨d.val, by omega⟩ : Fin 9))
      = u (ix3 b g d) :=
  concatenate_apply_piece (t := S16x125x9) 2 [⟨S16x125x3, u⟩, ⟨S16x125x3, v⟩, ⟨S16x125x3, w⟩] h _ 0 (show (0 : Nat) < 3 by decide) S16x125x3 u rfl rfl 0 rfl (ix3 b g d)
    (fun c => match c with
      | ⟨0, _⟩ => fun _ => rfl | ⟨1, _⟩ => fun _ => rfl | ⟨2, _⟩ => fun hc => absurd rfl hc) (Nat.zero_add _)

theorem cat3_snd (h : Shape.Concatenates [S16x125x3, S16x125x3, S16x125x3] S16x125x9 2) (u v w : S16x125x3.Idx → α)
    (b : Fin 16) (g : Fin 125) (d : Fin 3) :
    concatenate S16x125x9 2 [⟨S16x125x3, u⟩, ⟨S16x125x3, v⟩, ⟨S16x125x3, w⟩] h (ix3 b g (⟨3 + d.val, by omega⟩ : Fin 9))
      = v (ix3 b g d) :=
  concatenate_apply_piece (t := S16x125x9) 2 [⟨S16x125x3, u⟩, ⟨S16x125x3, v⟩, ⟨S16x125x3, w⟩] h _ 1 (show (1 : Nat) < 3 by decide) S16x125x3 v rfl rfl 3 rfl (ix3 b g d)
    (fun c => match c with
      | ⟨0, _⟩ => fun _ => rfl | ⟨1, _⟩ => fun _ => rfl | ⟨2, _⟩ => fun hc => absurd rfl hc) rfl

theorem cat3_thd (h : Shape.Concatenates [S16x125x3, S16x125x3, S16x125x3] S16x125x9 2) (u v w : S16x125x3.Idx → α)
    (b : Fin 16) (g : Fin 125) (d : Fin 3) :
    concatenate S16x125x9 2 [⟨S16x125x3, u⟩, ⟨S16x125x3, v⟩, ⟨S16x125x3, w⟩] h (ix3 b g (⟨6 + d.val, by omega⟩ : Fin 9))
      = w (ix3 b g d) :=
  concatenate_apply_piece (t := S16x125x9) 2 [⟨S16x125x3, u⟩, ⟨S16x125x3, v⟩, ⟨S16x125x3, w⟩] h _ 2 (show (2 : Nat) < 3 by decide) S16x125x3 w rfl rfl 6 rfl (ix3 b g d)
    (fun c => match c with
      | ⟨0, _⟩ => fun _ => rfl | ⟨1, _⟩ => fun _ => rfl | ⟨2, _⟩ => fun hc => absurd rfl hc) rfl

end Cat

end Cert.ReferenceIdeal.RefValue
-- ==== Proof.RefStages.lean ====
/-
  The reference program's arrays, up to the raw statistics, read at an index and identified with the
  specification's terms.

  Every array of the reference is an elementwise operation, a broadcast, a one-axis reduction or a
  concatenation of earlier ones, so its entry at a coordinate tuple is that operation of the operands' entries at
  the tuples the layout prescribes. Read in order: the standardised deviation; the exponential of the
  log-density times the mixing weight; the posterior weight, where the reference's additive real constant in
  the log-density cancels between numerator and denominator; each point's term of the three families of
  statistics; and, over the 8192 points, the maximum (a fold of `max` from the least extended real, which is the
  supremum), the minimum (the infimum) and the sum (from the zero word), laid side by side along the last axis and
  multiplied by the scale of their family.
-/
import proofs.«113572_j78245714199386_1_alg».proof.Proof.RefRunP
import proofs.«113572_j78245714199386_1_alg».proof.Proof.RefLayout
import proofs.«113572_j78245714199386_1_alg».proof.Proof.Spec
import proofs.«113572_j78245714199386_1_alg».proof.Proof.Algebra

noncomputable section

namespace Cert.ReferenceIdeal.RefValue

open Cert.ReferenceIdeal Cert.ReferenceIdeal.Gen Cert.ReferenceIdeal.ValueP Idealize.ShloMosaic Idealize.ShloMosaic.ValueIdx
  Idealize.ShloMosaic.TcCoe Idealize.SL.Sem Idealize.ShloMosaic.StableHlo

variable (V0 : Valuation τ sig (Elt Ideal))

/-- The four argument arrays of a launch, as functions of coordinates into the extended reals. -/
abbrev argP : Cert.Fisher.Pts := V0 (Proc.devRef .tc main_arg0)
abbrev argW : Cert.Fisher.Wts := V0 (Proc.devRef .tc main_arg1)
abbrev argM : Cert.Fisher.Cmp := V0 (Proc.devRef .tc main_arg2)
abbrev argS : Cert.Fisher.Cmp := V0 (Proc.devRef .tc main_arg3)

variable (b : Fin 16) (n : Fin 8192) (g : Fin 125) (d : Fin 3)

/-- The reference's deviation array holds the standardised deviation. -/
theorem v7_apply :
    res_main_v7 (F := Ideal) V0 (ix4 b n g d) = Cert.Fisher.dev (argP V0) (argM V0) (argS V0) b n g d := by
  unfold res_main_v7 Cert.Fisher.dev
  rw [hostDivf_apply, subf_apply, bc_pts_full, bc_pts_unit, bc_cmp_full, bc_cmp_unit, bc_cmp_full, bc_cmp_unit]

section Unary
variable {s : Shape} {φ : FTy}
theorem hexp_apply (x : FVec Ideal s φ) (i : s.Idx) : Host.exp x i = Ideal.exp (x i) := rfl
theorem hlog_apply (x : FVec Ideal s φ) (i : s.Idx) : Host.log x i = Ideal.log (x i) := rfl
theorem hsqrt_apply (x : FVec Ideal s φ) (i : s.Idx) : Host.sqrt x i = Ideal.sqrt (x i) := rfl
end Unary

/-- The additive constant of the reference's log-density: three halves of the logarithm of the word nearest 2π. -/
abbrev cShift : EReal := Ideal.ofBits .f32 0x3FC00000#32 * Ideal.log (Ideal.ofBits .f32 0x40C90FDB#32)

/-- The reference's unnormalised weight: the exponential of the shifted log-density, times the mixing weight. -/
theorem v24_apply :
    res_main_v24 (F := Ideal) V0 (ix3 b n g)
      = Ideal.exp (Cert.Fisher.logp0 (argP V0) (argM V0) (argS V0) b n g + -cShift) * argW V0 (ix1 g) := by
  unfold res_main_v24
  rw [mulf_apply, hexp_apply, subf_apply, subf_apply, mulf_apply, bc_scalar, constant_apply, radd_coord, constant_apply,
    bc_w_full, bc_w_unit, radd_sig, constant_apply, bc_scalar, mulf_apply, constant_apply, hlog_apply, constant_apply,
    bc_w_full, bc_w_unit]
  simp only [mulf_apply, hlog_apply, v7_apply]
  rw [Ideal.ofBits_zero_f32, zero_add, zero_add, sub_eq_add_neg, sub_eq_add_neg]
  rfl

/-- The reference's posterior weight is the specification's: the additive real constant of its log-density
    multiplies numerator and denominator by one positive real. -/
theorem v28_apply :
    res_main_v28 (F := Ideal) V0 (ix3 b n g) = Cert.Fisher.resp (argP V0) (argW V0) (argM V0) (argS V0) b n g := by
  unfold res_main_v28
  rw [hostDivf_apply, bc_bn_full, bc_bn_unit, radd_cmp, constant_apply]
  simp only [v24_apply]
  rw [Ideal.ofBits_zero_f32, zero_add]
  obtain ⟨r, hr⟩ := Cert.Fisher.shiftR_real
  have hc : cShift = (r : EReal) := hr
  rw [hc]
  exact Cert.Fisher.resp_shift (fun g' => Cert.Fisher.logp0 (argP V0) (argM V0) (argS V0) b n g')
    (fun g' => argW V0 (ix1 g')) r g

/-- One point's term of the mixing-weight statistics. -/
theorem v38_apply (z : Fin 1) :
    res_main_v38 (F := Ideal) V0 (ix4 b n g z)
      = Ideal.div (Cert.Fisher.resp (argP V0) (argW V0) (argM V0) (argS V0) b n g - argW V0 (ix1 g))
          (Ideal.sqrt (argW V0 (ix1 g)) * Cert.Fisher.cN) := by
  unfold res_main_v38
  rw [bc_r_unit, hostDivf_apply, subf_apply, v28_apply, bc_w_full, bc_w_unit, bc_w_full, mulf_apply, bc_w_unit,
    hsqrt_apply, bc_scalar, constant_apply]

theorem v41_max :
    res_main_v41 (F := Ideal) V0 (ix3 b g (0 : Fin 2))
      = Cert.Fisher.rawPiR (argP V0) (argW V0) (argM V0) (argS V0) b 0 g := by
  unfold res_main_v41
  rw [cat2_left, rmax_pts1]
  simp only [v38_apply]
  rfl

theorem v41_sum :
    res_main_v41 (F := Ideal) V0 (ix3 b g (1 : Fin 2))
      = Cert.Fisher.rawPiR (argP V0) (argW V0) (argM V0) (argS V0) b 1 g := by
  unfold res_main_v41
  rw [cat2_right, radd_pts1, constant_apply, Ideal.ofBits_zero_f32, zero_add]
  simp only [v38_apply]
  rfl

/-- The reference's two mixing-weight statistics are the specification's, the scale inside each term. -/
theorem v41_apply (r : Fin 2) :
    res_main_v41 (F := Ideal) V0 (ix3 b g r)
      = Cert.Fisher.rawPiR (argP V0) (argW V0) (argM V0) (argS V0) b r g :=
  match r with
  | ⟨0, _⟩ => v41_max V0 b g
  | ⟨1, _⟩ => v41_sum V0 b g

/-- One point's term of the mean statistics: the posterior weight times the deviation. -/
theorem v44_apply :
    res_main_v44 (F := Ideal) V0 (ix4 b n g d)
      = Cert.Fisher.resp (argP V0) (argW V0) (argM V0) (argS V0) b n g
          * Cert.Fisher.dev (argP V0) (argM V0) (argS V0) b n g d := by
  unfold res_main_v44
  rw [mulf_apply, bc_r_full, bc_r_unit, v28_apply, v7_apply]

/-- One point's term of the deviation statistics: the posterior weight times the squared deviation less one. -/
theorem v62_apply :
    res_main_v62 (F := Ideal) V0 (ix4 b n g d)
      = Cert.Fisher.resp (argP V0) (argW V0) (argM V0) (argS V0) b n g
          * (Cert.Fisher.dev (argP V0) (argM V0) (argS V0) b n g d
              * Cert.Fisher.dev (argP V0) (argM V0) (argS V0) b n g d - Cert.Fisher.cOne) := by
  unfold res_main_v62
  rw [mulf_apply, bc_r_full, bc_r_unit, v28_apply, subf_apply, mulf_apply, v7_apply, bc_scalar, constant_apply]

theorem v56_max :
    res_main_v56 (F := Ideal) V0 (ix3 b g (⟨d.val, by omega⟩ : Fin 9))
      = Cert.Fisher.scMu (argW V0) g * Cert.Fisher.agg 0 fun n =>
          Cert.Fisher.resp (argP V0) (argW V0) (argM V0) (argS V0) b n g
            * Cert.Fisher.dev (argP V0) (argM V0) (argS V0) b n g d := by
  unfold res_main_v56
  rw [mulf_apply, bc_g_full, hostDivf_apply, bc_scalar, constant_apply, bc_g_unit, mulf_apply, bc_scalar, constant_apply,
    hsqrt_apply, cat3_fst, rmax_pts3]
  simp only [v44_apply]
  rfl

theorem v56_min :
    res_main_v56 (F := Ideal) V0 (ix3 b g (⟨3 + d.val, by omega⟩ : Fin 9))
      = Cert.Fisher.scMu (argW V0) g * Cert.Fisher.agg 1 fun n =>
          Cert.Fisher.resp (argP V0) (argW V0) (argM V0) (argS V0) b n g
            * Cert.Fisher.dev (argP V0) (argM V0) (argS V0) b n g d := by
  unfold res_main_v56
  rw [mulf_apply, bc_g_full, hostDivf_apply, bc_scalar, constant_apply, bc_g_unit, mulf_apply, bc_scalar, constant_apply,
    hsqrt_apply, cat3_snd, rmin_pts3]
  simp only [v44_apply]
  rfl

theorem v56_sum :
    res_main_v56 (F := Ideal) V0 (ix3 b g (⟨6 + d.val, by omega⟩ : Fin 9))
      = Cert.Fisher.scMu (argW V0) g * Cert.Fisher.agg 2 fun n =>
          Cert.Fisher.resp (argP V0) (argW V0) (argM V0) (argS V0) b n g
            * Cert.Fisher.dev (argP V0) (argM V0) (argS V0) b n g d := by
  unfold res_main_v56
  rw [mulf_apply, bc_g_full, hostDivf_apply, bc_scalar, constant_apply, bc_g_unit, mulf_apply, bc_scalar, constant_apply,
    hsqrt_apply, cat3_thd, radd_pts3, constant_apply, Ideal.ofBits_zero_f32, zero_add]
  simp only [v44_apply]
  rfl

theorem v56_max' (r : Fin 9) (hr : r.val = d.val) :
    res_main_v56 (F := Ideal) V0 (ix3 b g r)
      = Cert.Fisher.scMu (argW V0) g * Cert.Fisher.agg 0 fun n => Cert.Fisher.resp (argP V0) (argW V0) (argM V0) (argS V0) b n g
            * Cert.Fisher.dev (argP V0) (argM V0) (argS V0) b n g d := by
  rw [show r = (⟨d.val, Nat.lt_of_lt_of_le d.isLt (by decide)⟩ : Fin 9) from Fin.ext hr]
  exact v56_max V0 b g d

theorem v56_min' (r : Fin 9) (hr : r.val = 3 + d.val) :
    res_main_v56 (F := Ideal) V0 (ix3 b g r)
      = Cert.Fisher.scMu (argW V0) g * Cert.Fisher.agg 1 fun n => Cert.Fisher.resp (argP V0) (argW V0) (argM V0) (argS V0) b n g
            * Cert.Fisher.dev (argP V0) (argM V0) (argS V0) b n g d := by
  rw [show r = (⟨3 + d.val, Nat.lt_of_lt_of_le (Nat.add_lt_add_left d.isLt 3) (by decide)⟩ : Fin 9) from Fin.ext hr]
  exact v56_min V0 b g d

theorem v56_sum' (r : Fin 9) (hr : r.val = 6 + d.val) :
    res_main_v56 (F := Ideal) V0 (ix3 b g r)
      = Cert.Fisher.scMu (argW V0) g * Cert.Fisher.agg 2 fun n => Cert.Fisher.resp (argP V0) (argW V0) (argM V0) (argS V0) b n g
            * Cert.Fisher.dev (argP V0) (argM V0) (argS V0) b n g d := by
  rw [show r = (⟨6 + d.val, Nat.lt_of_lt_of_le (Nat.add_lt_add_left d.isLt 6) (by decide)⟩ : Fin 9) from Fin.ext hr]
  exact v56_sum V0 b g d

/-- The reference's nine mean statistics are the specification's, the scale applied after each statistic. -/
theorem v56_apply (r : Fin 9) :
    res_main_v56 (F := Ideal) V0 (ix3 b g r)
      = Cert.Fisher.rawMuR (argP V0) (argW V0) (argM V0) (argS V0) b r g := by
  have h3 : r.val / 3 = 0 ∨ r.val / 3 = 1 ∨ r.val / 3 = 2 := by omega
  unfold Cert.Fisher.rawMuR
  rcases h3 with h | h | h
  · have hs : Cert.Fisher.statOf r = 0 := Fin.ext h
    rw [hs]
    exact v56_max' V0 b g (Cert.Fisher.coordOf r) r (by show r.val = r.val % 3; omega)
  · have hs : Cert.Fisher.statOf r = 1 := Fin.ext h
    rw [hs]
    exact v56_min' V0 b g (Cert.Fisher.coordOf r) r (by show r.val = 3 + r.val % 3; omega)
  · have hs : Cert.Fisher.statOf r = 2 := Fin.ext h
    rw [hs]
    exact v56_sum' V0 b g (Cert.Fisher.coordOf r) r (by show r.val = 6 + r.val % 3; omega)

theorem v76_max :
    res_main_v76 (F := Ideal) V0 (ix3 b g (⟨d.val, by omega⟩ : Fin 9))
      = Cert.Fisher.scSg (argW V0) g * Cert.Fisher.agg 0 fun n =>
          Cert.Fisher.resp (argP V0) (argW V0) (argM V0) (argS V0) b n g
            * (Cert.Fisher.dev (argP V0) (argM V0) (argS V0) b n g d
                * Cert.Fisher.dev (argP V0) (argM V0) (argS V0) b n g d - Cert.Fisher.cOne) := by
  unfold res_main_v76
  rw [mulf_apply, bc_g_full, hostDivf_apply, bc_scalar, constant_apply, bc_g_unit, mulf_apply, bc_scalar, constant_apply,
    hsqrt_apply, mulf_apply, bc_scalar, constant_apply, cat3_fst, rmax_pts3]
  simp only [v62_apply]
  rfl

theorem v76_min :
    res_main_v76 (F := Ideal) V0 (ix3 b g (⟨3 + d.val, by omega⟩ : Fin 9))
      = Cert.Fisher.scSg (argW V0) g * Cert.Fisher.agg 1 fun n =>
          Cert.Fisher.resp (argP V0) (argW V0) (argM V0) (argS V0) b n g
            * (Cert.Fisher.dev (argP V0) (argM V0) (argS V0) b n g d
                * Cert.Fisher.dev (argP V0) (argM V0) (argS V0) b n g d - Cert.Fisher.cOne) := by
  unfold res_main_v76
  rw [mulf_apply, bc_g_full, hostDivf_apply, bc_scalar, constant_apply, bc_g_unit, mulf_apply, bc_scalar, constant_apply,
    hsqrt_apply, mulf_apply, bc_scalar, constant_apply, cat3_snd, rmin_pts3]
  simp only [v62_apply]
  rfl

theorem v76_sum :
    res_main_v76 (F := Ideal) V0 (ix3 b g (⟨6 + d.val, by omega⟩ : Fin 9))
      = Cert.Fisher.scSg (argW V0) g * Cert.Fisher.agg 2 fun n =>
          Cert.Fisher.resp (argP V0) (argW V0) (argM V0) (argS V0) b n g
            * (Cert.Fisher.dev (argP V0) (argM V0) (argS V0) b n g d
                * Cert.Fisher.dev (argP V0) (argM V0) (argS V0) b n g d - Cert.Fisher.cOne) := by
  unfold res_main_v76
  rw [mulf_apply, bc_g_full, hostDivf_apply, bc_scalar, constant_apply, bc_g_unit, mulf_apply, bc_scalar, constant_apply,
    hsqrt_apply, mulf_apply, bc_scalar, constant_apply, cat3_thd, radd_pts3, constant_apply, Ideal.ofBits_zero_f32, zero_add]
  simp only [v62_apply]
  rfl

theorem v76_max' (r : Fin 9) (hr : r.val = d.val) :
    res_main_v76 (F := Ideal) V0 (ix3 b g r)
      = Cert.Fisher.scSg (argW V0) g * Cert.Fisher.agg 0 fun n => Cert.Fisher.resp (argP V0) (argW V0) (argM V0) (argS V0) b n g
            * (Cert.Fisher.dev (argP V0) (argM V0) (argS V0) b n g d
                * Cert.Fisher.dev (argP V0) (argM V0) (argS V0) b n g d - Cert.Fisher.cOne) := by
  rw [show r = (⟨d.val, Nat.lt_of_lt_of_le d.isLt (by decide)⟩ : Fin 9) from Fin.ext hr]
  exact v76_max V0 b g d

theorem v76_min' (r : Fin 9) (hr : r.val = 3 + d.val) :
    res_main_v76 (F := Ideal) V0 (ix3 b g r)
      = Cert.Fisher.scSg (argW V0) g * Cert.Fisher.agg 1 fun n => Cert.Fisher.resp (argP V0) (argW V0) (argM V0) (argS V0) b n g
            * (Cert.Fisher.dev (argP V0) (argM V0) (argS V0) b n g d
                * Cert.Fisher.dev (argP V0) (argM V0) (argS V0) b n g d - Cert.Fisher.cOne) := by
  rw [show r = (⟨3 + d.val, Nat.lt_of_lt_of_le (Nat.add_lt_add_left d.isLt 3) (by decide)⟩ : Fin 9) from Fin.ext hr]
  exact v76_min V0 b g d

theorem v76_sum' (r : Fin 9) (hr : r.val = 6 + d.val) :
    res_main_v76 (F := Ideal) V0 (ix3 b g r)
      = Cert.Fisher.scSg (argW V0) g * Cert.Fisher.agg 2 fun n => Cert.Fisher.resp (argP V0) (argW V0) (argM V0) (argS V0) b n g
            * (Cert.Fisher.dev (argP V0) (argM V0) (argS V0) b n g d
                * Cert.Fisher.dev (argP V0) (argM V0) (argS V0) b n g d - Cert.Fisher.cOne) := by
  rw [show r = (⟨6 + d.val, Nat.lt_of_lt_of_le (Nat.add_lt_add_left d.isLt 6) (by decide)⟩ : Fin 9) from Fin.ext hr]
  exact v76_sum V0 b g d

/-- The reference's nine deviation statistics are the specification's, the scale applied after each statistic. -/
theorem v76_apply (r : Fin 9) :
    res_main_v76 (F := Ideal) V0 (ix3 b g r)
      = Cert.Fisher.rawSgR (argP V0) (argW V0) (argM V0) (argS V0) b r g := by
  have h3 : r.val / 3 = 0 ∨ r.val / 3 = 1 ∨ r.val / 3 = 2 := by omega
  unfold Cert.Fisher.rawSgR
  rcases h3 with h | h | h
  · have hs : Cert.Fisher.statOf r = 0 := Fin.ext h
    rw [hs]
    exact v76_max' V0 b g (Cert.Fisher.coordOf r) r (by show r.val = r.val % 3; omega)
  · have hs : Cert.Fisher.statOf r = 1 := Fin.ext h
    rw [hs]
    exact v76_min' V0 b g (Cert.Fisher.coordOf r) r (by show r.val = 3 + r.val % 3; omega)
  · have hs : Cert.Fisher.statOf r = 2 := Fin.ext h
    rw [hs]
    exact v76_sum' V0 b g (Cert.Fisher.coordOf r) r (by show r.val = 6 + r.val % 3; omega)

end Cert.ReferenceIdeal.RefValue

end
-- ==== Proof.RefTail.lean ====
/-
  The tail of the reference program, read at an index.

  After the three raw-statistic arrays (16 × 125 × 2 for the mixing weights, 16 × 125 × 9 for the means and for the
  deviations) the program does the same thing to each: every entry x becomes sign x · |x|^(1/2); then every row — the
  125 entries along the middle axis, for a fixed batch and a fixed column — is multiplied by the reciprocal square root
  of its squared length, the squared length floored at a small literal. The three arrays are laid side by side along the
  last axis (2 + 9 + 9 = 20 columns) and the last two axes are exchanged, which gives the 16 × 20 × 125 result.

  Everything here is stated for ARBITRARY arrays in place of the three raw statistics: entry (b, j, g) of the result is
  the specification's `rows` of the three arrays' rows, whatever the arrays hold.
-/
import proofs.«113572_j78245714199386_1_alg».proof.Proof.RefRunP
import proofs.«113572_j78245714199386_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Power normalisation and unit length of one array -/

/-- sign·|·|^(1/2) of every entry of a 16 × 125 × 2 array. -/
def pwArr2 (x : FVec Ideal S16x125x2 .f32) : FVec Ideal S16x125x2 .f32 :=
  mulf (Host.sign x) (Host.powf (Host.absf x) (broadcastInDim S16x125x2 ![] bcast_S_S16x125x2 (constant S_ .f32 0x3F000000#32)))

/-- Every row (the 125 entries along the middle axis) of a 16 × 125 × 2 array divided by its length, the squared
    length floored at the small literal. -/
def unitArr2 (y : FVec Ideal S16x125x2 .f32) : FVec Ideal S16x125x2 .f32 :=
  mulf y (broadcastInDim S16x125x2 ![0, 1, 2] bcast_S16x1x2_S16x125x2_0_1_2 (Host.rsqrt (maximumf (broadcastInDim S16x1x2 ![0, 2] bcast_S16x2_S16x1x2_0_2 (Host.reduceAdd (mulf y y) (constant S_ .f32 0x00000000#32) reducesTo_S16x125x2_S16x2_d1 h_S_)) (broadcastInDim S16x1x2 ![] bcast_S_S16x1x2 (constant S_ .f32 0x2B8CBCCC#32)))))

/-- An entry of the power-normalised array is `pw` of the entry. -/
theorem pwArr2_apply (x : FVec Ideal S16x125x2 .f32) (b : Fin 16) (g : Fin 125) (r : Fin 2) :
    pwArr2 x (ix3 b g r) = Cert.Fisher.pw (x (ix3 b g r)) := by
  unfold pwArr2 Cert.Fisher.pw
  rw [mulf_apply]
  show Ideal.sign _ * Ideal.pow (max _ (- _)) _ = _
  rw [broadcastInDim_scalar_apply]
  rfl

theorem reduces_S16x125x2_S16x2_d1 : S16x125x2.Reduces [1] S16x2 := by decide

/-- The index `(b, r)` of the summed array with the coordinate `k` put back on the middle axis is `(b, k, r)`. -/
theorem lift_S16x125x2 (b : Fin 16) (r : Fin 2) (k : Fin 125) :
    reduces_S16x125x2_S16x2_d1.lift (ix2 b r) k = ix3 b k r := by
  funext a
  match a with
  | ⟨0, _⟩ => exact Fin.ext rfl
  | ⟨1, _⟩ => exact Fin.ext rfl
  | ⟨2, _⟩ => exact Fin.ext rfl

/-- An entry of the unit-length array: the entry times the reciprocal root of its row's floored squared length. -/
theorem unitArr2_apply (y : FVec Ideal S16x125x2 .f32) (b : Fin 16) (g : Fin 125) (r : Fin 2) :
    unitArr2 y (ix3 b g r)
      = y (ix3 b g r) * Ideal.rsqrt (max (∑ g' : Fin 125, y (ix3 b g' r) * y (ix3 b g' r)) Cert.Fisher.cEps) := by
  unfold unitArr2
  rw [mulf_apply]
  congr 1
  rw [broadcastInDim_apply _ _ _ (ix3 b g r) (ix3 b (0 : Fin 1) r) (fun a =>
    match a with | ⟨0, _⟩ => rfl | ⟨1, _⟩ => rfl | ⟨2, _⟩ => rfl)]
  show Ideal.rsqrt (max _ _) = _
  rw [broadcastInDim_apply _ _ _ (ix3 b (0 : Fin 1) r) (ix2 b r) (fun a =>
    match a with | ⟨0, _⟩ => rfl | ⟨1, _⟩ => rfl)]
  rw [broadcastInDim_scalar_apply, hostReduceAdd_apply,
    Ideal.hostReduceAdd_single reducesTo_S16x125x2_S16x2_d1 reduces_S16x125x2_S16x2_d1]
  rw [constant_apply, constant_apply, Ideal.ofBits_zero_f32, zero_add]
  congr 2
  refine Finset.sum_congr rfl fun k _ => ?_
  rw [lift_S16x125x2 b r k]
  rfl

/-- Power normalisation followed by unit length, at an entry: `normRow` of the entry's row. -/
theorem normArr2_apply (x : FVec Ideal S16x125x2 .f32) (b : Fin 16) (g : Fin 125) (r : Fin 2) :
    unitArr2 (pwArr2 x) (ix3 b g r) = Cert.Fisher.normRow (fun g' => x (ix3 b g' r)) g := by
  rw [unitArr2_apply]
  unfold Cert.Fisher.normRow
  simp only [pwArr2_apply]

/-- sign·|·|^(1/2) of every entry of a 16 × 125 × 9 array. -/
def pwArr9 (x : FVec Ideal S16x125x9 .f32) : FVec Ideal S16x125x9 .f32 :=
  mulf (Host.sign x) (Host.powf (Host.absf x) (broadcastInDim S16x125x9 ![] bcast_S_S16x125x9 (constant S_ .f32 0x3F000000#32)))

/-- Every row (the 125 entries along the middle axis) of a 16 × 125 × 9 array divided by its length, the squared
    length floored at the small literal. -/
def unitArr9 (y : FVec Ideal S16x125x9 .f32) : FVec Ideal S16x125x9 .f32 :=
  mulf y (broadcastInDim S16x125x9 ![0, 1, 2] bcast_S16x1x9_S16x125x9_0_1_2 (Host.rsqrt (maximumf (broadcastInDim S16x1x9 ![0, 2] bcast_S16x9_S16x1x9_0_2 (Host.reduceAdd (mulf y y) (constant S_ .f32 0x00000000#32) reducesTo_S16x125x9_S16x9_d1 h_S_)) (broadcastInDim S16x1x9 ![] bcast_S_S16x1x9 (constant S_ .f32 0x2B8CBCCC#32)))))

/-- An entry of the power-normalised array is `pw` of the entry. -/
theorem pwArr9_apply (x : FVec Ideal S16x125x9 .f32) (b : Fin 16) (g : Fin 125) (r : Fin 9) :
    pwArr9 x (ix3 b g r) = Cert.Fisher.pw (x (ix3 b g r)) := by
  unfold pwArr9 Cert.Fisher.pw
  rw [mulf_apply]
  show Ideal.sign _ * Ideal.pow (max _ (- _)) _ = _
  rw [broadcastInDim_scalar_apply]
  rfl

theorem reduces_S16x125x9_S16x9_d1 : S16x125x9.Reduces [1] S16x9 := by decide

/-- The index `(b, r)` of the summed array with the coordinate `k` put back on the middle axis is `(b, k, r)`. -/
theorem lift_S16x125x9 (b : Fin 16) (r : Fin 9) (k : Fin 125) :
    reduces_S16x125x9_S16x9_d1.lift (ix2 b r) k = ix3 b k r := by
  funext a
  match a with
  | ⟨0, _⟩ => exact Fin.ext rfl
  | ⟨1, _⟩ => exact Fin.ext rfl
  | ⟨2, _⟩ => exact Fin.ext rfl

/-- An entry of the unit-length array: the entry times the reciprocal root of its row's floored squared length. -/
theorem unitArr9_apply (y : FVec Ideal S16x125x9 .f32) (b : Fin 16) (g : Fin 125) (r : Fin 9) :
    unitArr9 y (ix3 b g r)
      = y (ix3 b g r) * Ideal.rsqrt (max (∑ g' : Fin 125, y (ix3 b g' r) * y (ix3 b g' r)) Cert.Fisher.cEps) := by
  unfold unitArr9
  rw [mulf_apply]
  congr 1
  rw [broadcastInDim_apply _ _ _ (ix3 b g r) (ix3 b (0 : Fin 1) r) (fun a =>
    match a with | ⟨0, _⟩ => rfl | ⟨1, _⟩ => rfl | ⟨2, _⟩ => rfl)]
  show Ideal.rsqrt (max _ _) = _
  rw [broadcastInDim_apply _ _ _ (ix3 b (0 : Fin 1) r) (ix2 b r) (fun a =>
    match a with | ⟨0, _⟩ => rfl | ⟨1, _⟩ => rfl)]
  rw [broadcastInDim_scalar_apply, hostReduceAdd_apply,
    Ideal.hostReduceAdd_single reducesTo_S16x125x9_S16x9_d1 reduces_S16x125x9_S16x9_d1]
  rw [constant_apply, constant_apply, Ideal.ofBits_zero_f32, zero_add]
  congr 2
  refine Finset.sum_congr rfl fun k _ => ?_
  rw [lift_S16x125x9 b r k]
  rfl

/-- Power normalisation followed by unit length, at an entry: `normRow` of the entry's row. -/
theorem normArr9_apply (x : FVec Ideal S16x125x9 .f32) (b : Fin 16) (g : Fin 125) (r : Fin 9) :
    unitArr9 (pwArr9 x) (ix3 b g r) = Cert.Fisher.normRow (fun g' => x (ix3 b g' r)) g := by
  rw [unitArr9_apply]
  unfold Cert.Fisher.normRow
  simp only [pwArr9_apply]

/-! ## The three blocks side by side, the last two axes exchanged -/

/-- Three arrays of 2, 9 and 9 columns laid side by side along the last axis, then the last two axes exchanged:
    a 16 × 20 × 125 array. -/
def assemble (p : FVec Ideal S16x125x2 .f32) (q s : FVec Ideal S16x125x9 .f32) : FVec Ideal S16x20x125 .f32 :=
  transpose S16x20x125 [0, 2, 1] (concatenate S16x125x20 2 [⟨S16x125x2, p⟩, ⟨S16x125x9, q⟩, ⟨S16x125x9, s⟩] concatenates_S16x125x2_S16x125x9_S16x125x9_S16x125x20_d2) transposes_S16x125x20_S16x20x125_0_2_1

/-- Row `j` of the assembled array is column `j` of the first block for `j < 2`, column `j − 2` of the second for
    `j < 11`, column `j − 11` of the third otherwise. -/
theorem assemble_apply (p : FVec Ideal S16x125x2 .f32) (q s : FVec Ideal S16x125x9 .f32) (b : Fin 16) (j : Fin 20) (g : Fin 125) :
    assemble p q s (ix3 b j g)
      = if h : j.val < 2 then p (ix3 b g ⟨j.val, h⟩)
        else if h' : j.val < 11 then q (ix3 b g ⟨j.val - 2, by omega⟩)
        else s (ix3 b g ⟨j.val - 11, by omega⟩) := by
  unfold assemble
  rw [transpose_apply [0, 2, 1] _ transposes_S16x125x20_S16x20x125_0_2_1 (ix3 b j g) (ix3 b g j) (fun a =>
    match a with | ⟨0, _⟩ => rfl | ⟨1, _⟩ => rfl | ⟨2, _⟩ => rfl)]
  by_cases h : j.val < 2
  · rw [dif_pos h]
    exact concatenate_apply_piece (t := S16x125x20) (2 : Fin 3) [⟨S16x125x2, p⟩, ⟨S16x125x9, q⟩, ⟨S16x125x9, s⟩] concatenates_S16x125x2_S16x125x9_S16x125x9_S16x125x20_d2 (ix3 b g j)
      0 (by show (0 : Nat) < 3; omega) S16x125x2 p rfl rfl 0 rfl (ix3 b g ⟨j.val, h⟩)
      (fun a ha => match a with
        | ⟨0, _⟩ => rfl
        | ⟨1, _⟩ => rfl
        | ⟨2, _⟩ => absurd rfl ha)
      (by show 0 + j.val = j.val; omega)
  · rw [dif_neg h]
    by_cases h' : j.val < 11
    · rw [dif_pos h']
      exact concatenate_apply_piece (t := S16x125x20) (2 : Fin 3) [⟨S16x125x2, p⟩, ⟨S16x125x9, q⟩, ⟨S16x125x9, s⟩] concatenates_S16x125x2_S16x125x9_S16x125x9_S16x125x20_d2 (ix3 b g j)
        1 (by show (1 : Nat) < 3; omega) S16x125x9 q rfl rfl 2 rfl (ix3 b g ⟨j.val - 2, by omega⟩)
        (fun a ha => match a with
          | ⟨0, _⟩ => rfl
          | ⟨1, _⟩ => rfl
          | ⟨2, _⟩ => absurd rfl ha)
        (by show 2 + (j.val - 2) = j.val; omega)
    · rw [dif_neg h']
      exact concatenate_apply_piece (t := S16x125x20) (2 : Fin 3) [⟨S16x125x2, p⟩, ⟨S16x125x9, q⟩, ⟨S16x125x9, s⟩] concatenates_S16x125x2_S16x125x9_S16x125x9_S16x125x20_d2 (ix3 b g j)
        2 (by show (2 : Nat) < 3; omega) S16x125x9 s rfl rfl 11 rfl (ix3 b g ⟨j.val - 11, by omega⟩)
        (fun a ha => match a with
          | ⟨0, _⟩ => rfl
          | ⟨1, _⟩ => rfl
          | ⟨2, _⟩ => absurd rfl ha)
        (by show 11 + (j.val - 11) = j.val; omega)

/-- The tail of the computation on three arbitrary raw arrays: each power-normalised, scaled to unit length over the
    125 components, laid side by side and the last two axes exchanged — read at an index, the specification's `rows`. -/
theorem assemble_norm_apply (x : FVec Ideal S16x125x2 .f32) (u v : FVec Ideal S16x125x9 .f32) (b : Fin 16) (j : Fin 20) (g : Fin 125) :
    assemble (unitArr2 (pwArr2 x)) (unitArr9 (pwArr9 u)) (unitArr9 (pwArr9 v)) (ix3 b j g)
      = Cert.Fisher.rows (fun r g' => x (ix3 b g' r)) (fun r g' => u (ix3 b g' r)) (fun r g' => v (ix3 b g' r)) j g := by
  rw [assemble_apply]
  unfold Cert.Fisher.rows
  by_cases h : j.val < 2
  · rw [dif_pos h, dif_pos h, normArr2_apply]
  · rw [dif_neg h, dif_neg h]
    by_cases h' : j.val < 11
    · rw [dif_pos h', dif_pos h', normArr9_apply]
    · rw [dif_neg h', dif_neg h', normArr9_apply]

/-! ## The reference program's result -/

open Cert.ReferenceIdeal.ValueP Idealize.ShloMosaic.TcCoe Idealize.SL.Sem Idealize.ShloMosaic.StableHlo

set_option maxRecDepth 8192 in
/-- The reference program's result as a term of the contents `V0` of its arguments: the three raw-statistic arrays,
    each power-normalised and scaled to unit length, side by side, the last two axes exchanged. -/
def refResult (V0 : Valuation τ sig (Elt Ideal)) : (Proc.devRef .tc main_v117 : DevRef τ sig).ty.Contents (Elt Ideal) :=
  transpose S16x20x125 [0, 2, 1] (concatenate S16x125x20 2 [⟨S16x125x2, (mulf (res_main_v81 V0) (broadcastInDim S16x125x2 ![0, 1, 2] bcast_S16x1x2_S16x125x2_0_1_2 (Host.rsqrt (maximumf (broadcastInDim S16x1x2 ![0, 2] bcast_S16x2_S16x1x2_0_2 (Host.reduceAdd (mulf (res_main_v81 V0) (res_main_v81 V0)) (constant S_ .f32 0x00000000#32) reducesTo_S16x125x2_S16x2_d1 h_S_)) (broadcastInDim S16x1x2 ![] bcast_S_S16x1x2 (constant S_ .f32 0x2B8CBCCC#32))))))⟩, ⟨S16x125x9, (mulf (res_main_v94 V0) (broadcastInDim S16x125x9 ![0, 1, 2] bcast_S16x1x9_S16x125x9_0_1_2 (Host.rsqrt (maximumf (broadcastInDim S16x1x9 ![0, 2] bcast_S16x9_S16x1x9_0_2 (Host.reduceAdd (mulf (res_main_v94 V0) (res_main_v94 V0)) (constant S_ .f32 0x00000000#32) reducesTo_S16x125x9_S16x9_d1 h_S_)) (broadcastInDim S16x1x9 ![] bcast_S_S16x1x9 (constant S_ .f32 0x2B8CBCCC#32))))))⟩, ⟨S16x125x9, (mulf (res_main_v107 V0) (broadcastInDim S16x125x9 ![0, 1, 2] bcast_S16x1x9_S16x125x9_0_1_2 (Host.rsqrt (maximumf (broadcastInDim S16x1x9 ![0, 2] bcast_S16x9_S16x1x9_0_2 (Host.reduceAdd (mulf (res_main_v107 V0) (res_main_v107 V0)) (constant S_ .f32 0x00000000#32) reducesTo_S16x125x9_S16x9_d1 h_S_)) (broadcastInDim S16x1x9 ![] bcast_S_S16x1x9 (constant S_ .f32 0x2B8CBCCC#32))))))⟩] concatenates_S16x125x2_S16x125x9_S16x125x9_S16x125x20_d2) transposes_S16x125x20_S16x20x125_0_2_1

set_option maxRecDepth 8192 in
/-- The result is the assembly of the three normalised raw-statistic arrays. -/
theorem refResult_eq (V0 : Valuation τ sig (Elt Ideal)) :
    refResult V0 = assemble (unitArr2 (pwArr2 (res_main_v41 (F := Ideal) V0))) (unitArr9 (pwArr9 (res_main_v56 (F := Ideal) V0)))
      (unitArr9 (pwArr9 (res_main_v76 (F := Ideal) V0))) := rfl

/-- The result read at batch `b`, row `j`, component `g`: the specification's `rows` of the three raw-statistic arrays. -/
theorem result_apply (V0 : Valuation τ sig (Elt Ideal)) (b : Fin 16) (j : Fin 20) (g : Fin 125) :
    refResult V0 (ix3 b j g)
      = Cert.Fisher.rows (fun r g' => res_main_v41 (F := Ideal) V0 (ix3 b g' r)) (fun r g' => res_main_v56 (F := Ideal) V0 (ix3 b g' r))
          (fun r g' => res_main_v76 (F := Ideal) V0 (ix3 b g' r)) j g := by
  rw [refResult_eq]
  exact assemble_norm_apply _ _ _ b j g

/-- If the three raw-statistic arrays are the specification's raw statistics (the scales applied after the statistics),
    the result is the specification's `outR`. -/
theorem result_eq_outR (V0 : Valuation τ sig (Elt Ideal)) (P : Cert.Fisher.Pts) (W : Cert.Fisher.Wts) (M Sg : Cert.Fisher.Cmp)
    (h41 : ∀ (b : Fin 16) (g : Fin 125) (r : Fin 2), res_main_v41 (F := Ideal) V0 (ix3 b g r) = Cert.Fisher.rawPiR P W M Sg b r g)
    (h56 : ∀ (b : Fin 16) (g : Fin 125) (r : Fin 9), res_main_v56 (F := Ideal) V0 (ix3 b g r) = Cert.Fisher.rawMuR P W M Sg b r g)
    (h76 : ∀ (b : Fin 16) (g : Fin 125) (r : Fin 9), res_main_v76 (F := Ideal) V0 (ix3 b g r) = Cert.Fisher.rawSgR P W M Sg b r g) :
    refResult V0 = Cert.Fisher.outR P W M Sg := by
  funext (i : (⟨3, ![16, 20, 125]⟩ : Shape).Idx)
  rw [eq_ix3 (n0 := 16) (n1 := 20) (n2 := 125) i]
  refine (result_apply V0 (i 0) (i 1) (i 2)).trans ?_
  have e41 : (fun (r : Fin 2) (g' : Fin 125) => res_main_v41 (F := Ideal) V0 (ix3 (i 0) g' r))
      = Cert.Fisher.rawPiR P W M Sg (i 0) := by funext r g'; exact h41 _ _ _
  have e56 : (fun (r : Fin 9) (g' : Fin 125) => res_main_v56 (F := Ideal) V0 (ix3 (i 0) g' r))
      = Cert.Fisher.rawMuR P W M Sg (i 0) := by funext r g'; exact h56 _ _ _
  have e76 : (fun (r : Fin 9) (g' : Fin 125) => res_main_v76 (F := Ideal) V0 (ix3 (i 0) g' r))
      = Cert.Fisher.rawSgR P W M Sg (i 0) := by funext r g'; exact h76 _ _ _
  rw [e41, e56, e76]
  rfl

/-- Every weakly fair execution of the reference program ends with its result buffer at `refResult` of the arguments'
    contents at launch, the arguments unchanged. -/
theorem run_refResult (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v117) = refResult (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.ValueP.run (F := Ideal) m ρ

end Cert.ReferenceIdeal.RefValue

end
-- ==== Proof.RefValue.lean ====
/-
  The reference program computes the specification's result with the scales applied after the statistics.

  Every weakly fair execution of the reference program ends with its result buffer holding the program's composed
  term of the arguments' contents at launch. That term is the three raw-statistic arrays, each power-normalised and
  scaled to unit length, laid side by side with the last two axes exchanged; the raw-statistic arrays are the
  specification's raw statistics of the four argument arrays; hence the result buffer holds `outR` of the
  arguments, and the arguments are unchanged.
-/
import proofs.«113572_j78245714199386_1_alg».proof.Proof.RefStages
import proofs.«113572_j78245714199386_1_alg».proof.Proof.RefTail

noncomputable section

namespace Cert.ReferenceIdeal.RefValue

open Cert.ReferenceIdeal Cert.ReferenceIdeal.Gen Cert.ReferenceIdeal.ValueP Idealize.ShloMosaic Idealize.ShloMosaic.ValueIdx
  Idealize.ShloMosaic.TcCoe Idealize.SL.Sem Idealize.ShloMosaic.StableHlo

/-- The reference's result, as a function of the contents of its arguments, is the specification's `outR` of them. -/
theorem refResult_eq_outR (V0 : Valuation τ sig (Elt Ideal)) :
    refResult V0 = Cert.Fisher.outR (argP V0) (argW V0) (argM V0) (argS V0) :=
  result_eq_outR V0 (argP V0) (argW V0) (argM V0) (argS V0)
    (fun b g r => v41_apply V0 b g r) (fun b g r => v56_apply V0 b g r) (fun b g r => v76_apply V0 b g r)

/-- Every weakly fair execution of the reference program ends with its result buffer at the specification's `outR`
    of the four argument buffers' contents at launch, and leaves the arguments unchanged. -/
theorem run_outR (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      fun r => ∀ c : Dev nD,
        r.2.mem ((c.tc : Thread nD τ).loc main_v117)
          = Cert.Fisher.outR (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run _ _ _).mono (fun _ h c => ⟨(h c).1.trans (refResult_eq_outR (launchContents m c)), (h c).2⟩)
    (run_refResult m ρ)

end Cert.ReferenceIdeal.RefValue

end
-- ==== Proof.PreDecode.lean ====
/-
  What the precondition on the inputs says of the mixing weights.

  The precondition is a conjunction of five statements, each "every entry of an array satisfies a comparison": the
  absolute value of every entry of each of the four argument arrays is below +∞, and every mixing weight is above zero.
  Read at the extended reals, a weight `w` with `|w| < ⊤` and `0 < w` is neither `⊥` nor `⊤`: it is a positive real.
-/
import proofs.«113572_j78245714199386_1_alg».proof.Pre_finite_inputs
import proofs.«113572_j78245714199386_1_alg».proof.Proof.Gen.Pre_finite_inputs
import Idealize.ShloMosaic.PureOps.Ideal
import Idealize.ShloMosaic.Lib.ReduceAll
import Idealize.ShloMosaic.Lib.ValueIdx

namespace Cert.Pre_finite_inputs.Decode

open Idealize.ShloMosaic Cert.Pre_finite_inputs Cert.Pre_finite_inputs.Gen

/-- The shape with no axis has one index. -/
instance : Subsingleton S_.Idx := ⟨fun a b => funext fun d => d.elim0⟩

/-- A one-bit word made from a truth value is 1 exactly when the value is true. -/
theorem ofBool_eq_one {b : Bool} : BitVec.ofBool b = 1#1 ↔ b = true := by cases b <;> decide

/-- The word `0x7F800000` is +∞. -/
theorem posInf_eq : Ideal.ofBits .f32 0x7F800000#32 = ⊤ := by simp [Ideal.ofBits, Ideal.ieee]

/-- The word `0x00000000` is zero. -/
theorem zero_eq : Ideal.ofBits .f32 0x00000000#32 = 0 := by simp [Ideal.ofBits, Ideal.ieee]

/-- An extended real above zero whose absolute value is below +∞ is a positive real. -/
theorem pos_real_of_lt_top {x : EReal} (hpos : 0 < x) (hfin : max x (-x) < ⊤) : ∃ r : ℝ, 0 < r ∧ x = (r : EReal) := by
  induction x using EReal.rec with
  | bot => exact absurd hpos (by simp)
  | top => exact absurd hfin (by simp)
  | coe r => exact ⟨r, EReal.coe_pos.1 hpos, rfl⟩

/-- Under the precondition every mixing weight is a positive real. -/
theorem weights_pos (a0 : FVec Ideal S16x8192x3 .f32) (a1 : FVec Ideal S125 .f32) (a2 a3 : FVec Ideal S125x3 .f32)
    (h : Cert.Pre_finite_inputs.fn (F := Ideal) a0 a1 a2 a3 = fun _ => 1#1) (g : Fin 125) :
    ∃ r : ℝ, 0 < r ∧ a1 (ValueIdx.ix1 g) = (r : EReal) := by
  have h0 := congrFun h ValueIdx.ix0
  dsimp only [fn, fn_part1] at h0
  obtain ⟨h18, h21⟩ := IntOp.andi_eq_one.1 h0
  obtain ⟨h13, _⟩ := IntOp.andi_eq_one.1 h18
  obtain ⟨h8, _⟩ := IntOp.andi_eq_one.1 h13
  obtain ⟨_, h7⟩ := IntOp.andi_eq_one.1 h8
  have pos := Host.reduce_andi_all _ _ _ _ _ h21 (ValueIdx.ix1 g)
  have fin := Host.reduce_andi_all _ _ _ _ _ h7 (ValueIdx.ix1 g)
  have pos' : Ideal.cmp .ogt (a1 (ValueIdx.ix1 g)) (Ideal.ofBits .f32 0x00000000#32) = 1#1 := pos
  have fin' : Ideal.cmp .olt (max (a1 (ValueIdx.ix1 g)) (-(a1 (ValueIdx.ix1 g)))) (Ideal.ofBits .f32 0x7F800000#32) = 1#1 := fin
  rw [zero_eq] at pos'
  rw [posInf_eq] at fin'
  unfold Ideal.cmp at pos' fin'
  exact pos_real_of_lt_top (of_decide_eq_true (ofBool_eq_one.1 pos')) (of_decide_eq_true (ofBool_eq_one.1 fin'))

end Cert.Pre_finite_inputs.Decode
-- ==== Proof.lean ====
/-
  A point cloud's Fisher-vector statistics under a diagonal Gaussian mixture: the tiled kernel against the plain array program.

  Both programs compute, for every batch, point and component, the standardised deviations, the log-density and the posterior
  weight of the component at the point; then, over the 8192 points of a batch, a maximum and a sum of the weight terms and a
  maximum, a minimum and a sum of the mean terms and of the deviation terms, each scaled by 1/(N·√w) or 1/(N·√(2w)); and finally
  normalise each of the 20 rows of a batch (sign·√|·|, then unit length over the 125 components).

  They differ in three places, and the claim holds because none of them is seen on the extended reals when every weight is a
  positive real:
    · the kernel's log-density carries a folded additive constant where the reference applies a logarithm to a literal. Either
      constant is a real number; it multiplies every exp(log-density) of a point by one positive real, which the posterior
      weight — a quotient by the sum over the components — forgets (`resp_shift`). No hypothesis on the inputs is needed for this.
    · the kernel multiplies by 1/(N·√w) where the reference divides by √w·N; for a positive real divisor these agree.
    · the kernel scales every point's term and then takes the maximum, minimum or sum, tile by tile; the reference takes them over
      all points at once and scales the result. A positive real factor is monotone and distributes over any sum of extended reals,
      and a running maximum, minimum or sum over the eight tiles of a batch is the one over its 8192 points.
  The precondition keeps every weight positive (and finite): at a zero weight the reference itself divides zero by zero.

  The kernel's result array is read off its run as the function `outK` of the arguments (the three accumulators after each grid
  point are the running statistics of the batch's tiles seen so far; the last tile of a batch writes the batch's 20 rows), the
  reference's as `outR`, and `outK = outR` when the weights are positive reals.
-/
import proofs.«113572_j78245714199386_1_alg».proof.Defs
import proofs.«113572_j78245714199386_1_alg».proof.Proof.Gen.Kernel
import proofs.«113572_j78245714199386_1_alg».proof.Proof.Gen.Kernel.Skeleton
import proofs.«113572_j78245714199386_1_alg».proof.Proof.Gen.Kernel.Launch
import proofs.«113572_j78245714199386_1_alg».proof.Proof.Gen.Kernel.Points
import proofs.«113572_j78245714199386_1_alg».proof.Proof.Gen.Kernel.Frame
import proofs.«113572_j78245714199386_1_alg».proof.Proof.Gen.KernelIdeal
import proofs.«113572_j78245714199386_1_alg».proof.Proof.Gen.KernelIdeal.Skeleton
import proofs.«113572_j78245714199386_1_alg».proof.Proof.Gen.KernelIdeal.Launch
import proofs.«113572_j78245714199386_1_alg».proof.Proof.Gen.KernelIdeal.Points
import proofs.«113572_j78245714199386_1_alg».proof.Proof.Gen.KernelIdeal.Frame
import proofs.«113572_j78245714199386_1_alg».proof.Proof.Gen.ReferenceIdeal
import proofs.«113572_j78245714199386_1_alg».proof.Proof.Gen.KernelIdeal.Value
import proofs.«113572_j78245714199386_1_alg».proof.Proof.RefRunP
import proofs.«113572_j78245714199386_1_alg».proof.Proof.Gen.Pre_finite_inputs
import proofs.«113572_j78245714199386_1_alg».proof.Proof.KFold
import proofs.«113572_j78245714199386_1_alg».proof.Proof.RefValue
import proofs.«113572_j78245714199386_1_alg».proof.Proof.PreDecode
import proofs.«113572_j78245714199386_1_alg».proof.Proof.Algebra
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_outR m ρ)

/-- The three sign-bit windows of the body: 1.0 with a value's sign bit is −1 or 1 by the value's sign. -/
theorem preserves : Cert.preserves_Kernel_KernelIdeal :=
  ⟨IdealRules.sign_bit.statement Cert.KernelIdeal.S2x125 .f32, IdealRules.sign_bit.statement Cert.KernelIdeal.S9x125 .f32,
    IdealRules.sign_bit.statement Cert.KernelIdeal.S9x125 .f32⟩

/-- On the extended reals, from memories agreeing on the arguments, the kernel's result array is `outK` of the arguments and the
    reference's is `outR`; the precondition makes every weight a positive real, and then the two are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.FoldValue.result m c, Cert.KernelIdeal.FoldValue.run m ρ, ?_⟩
  refine (θ_run Cert.ReferenceIdeal.defs _ _).mono (fun _ h c => ⟨(h c).1.trans ?_, (h c).2⟩)
    (Cert.ReferenceIdeal.RefValue.run_outR m' ρ')
  rw [(hagree c).1, (hagree c).2.1, (hagree c).2.2.1, (hagree c).2.2.2]
  exact (Cert.Fisher.outK_eq _ _ _ _ (fun g => Cert.Pre_finite_inputs.Decode.weights_pos _ _ _ _ (hpre c) g)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
